-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  IdealRules.named_const.Statement Cert.KernelIdeal.κ "inv_50000" .f32 0x37A7C5AC#32 ((1 / 50000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v110)) (v1 : (c : Dev Cert.KernelIdeal.nD) → Buf (Elt Ideal) ((c.tc : Thread Cert.KernelIdeal.nD Cert.KernelIdeal.τ).loc Cert.KernelIdeal.main_v106)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v110) = v0 c
          ∧ r.2.mem ((c.tc : Thread Cert.KernelIdeal.nD Cert.KernelIdeal.τ).loc Cert.KernelIdeal.main_v106) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v127) = v0 c
          ∧ r.2.mem ((c.tc : Thread Cert.ReferenceIdeal.nD Cert.ReferenceIdeal.τ).loc Cert.ReferenceIdeal.main_v120) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S3x128x128 : Shape := ⟨3, ![3, 128, 128]⟩
abbrev S128 : Shape := ⟨1, ![128]⟩
abbrev S128x2 : Shape := ⟨2, ![128, 2]⟩
abbrev S2 : Shape := ⟨1, ![2]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S128 : S_.BroadcastsInDim S128 (![] : Fin 0 → Fin S128.rank)
  reducesTo_S128_S_d0 : S128.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S128 .f32) (main_arg6 : FVec F S128x2 .f32) (main_arg7 : FVec F S2 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x2 .f32 := Host.absf main_arg6
  let main_cst_8 : FVec F S_ .f32 := constant S_ .f32 0x7F800000#32
  let main_v25 : FVec F S128x2 .f32 := broadcastInDim S128x2 ![] bcast_S_S128x2 main_cst_8
  let main_v26 : IVec S128x2 1 := cmpf .olt main_v24 main_v25
  let main_c_9 : IVec S_ 1 := constantI S_ 1 1#1
  let main_v27 : IVec S_ 1 := (fun x v => Host.reduce IntOp.andi x v reducesTo_S128x2_S_d0_1 h_S_) main_v26 main_c_9
  let main_v28 : IVec S_ 1 := andi main_v23 main_v27
  let main_v29 : FVec F S2 .f32 := Host.absf main_arg7
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S3x128x128 .f32) (main_arg3 : FVec F S128 .f32) (main_arg4 : FVec F S3x128x128 .f32) (main_arg5 : FVec F S128 .f32) (main_arg6 : FVec F S128x2 .f32) (main_arg7 : FVec F S2 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S3x128x128 .f32 := Host.absf main_arg2
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S3x128x128 .f32 := Host.absf main_arg4
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S3x128x128 : Shape := ⟨3, ![3, 128, 128]⟩
abbrev S128 : Shape := ⟨1, ![128]⟩
abbrev S128x2 : Shape := ⟨2, ![128, 2]⟩
abbrev S2 : Shape := ⟨1, ![2]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S1x50000x128 : Shape := ⟨3, ![1, 50000, 128]⟩
abbrev S3x50000x128 : Shape := ⟨3, ![3, 50000, 128]⟩
abbrev S1x128 : Shape := ⟨2, ![1, 128]⟩
abbrev S3x2000x128 : Shape := ⟨3, ![3, 2000, 128]⟩
abbrev S2000x128 : Shape := ⟨2, ![2000, 128]⟩
abbrev S1x2000x128 : Shape := ⟨3, ![1, 2000, 128]⟩
abbrev S1x128x128 : Shape := ⟨3, ![1, 128, 128]⟩
abbrev S128x128 : Shape := ⟨2, ![128, 128]⟩
abbrev S1x2 : Shape := ⟨2, ![1, 2]⟩

abbrev nBuf : Space → Nat
  | .hbm => 148
  | .vmem => 15
  | .smem => 0
  | _ => 0

abbrev hbmTy0_0 (i : Nat) : BufTy := match i % 128 with
  | 0 => ⟨S50000x128, .f32⟩
  | 1 => ⟨S2x800000, .i32⟩
  | 2 => ⟨S3x128x128, .f32⟩
  | 3 => ⟨S128, .f32⟩
  | 4 => ⟨S3x128x128, .f32⟩
  | 5 => ⟨S128, .f32⟩
  | 6 => ⟨S128x2, .f32⟩
  | 7 => ⟨S2, .f32⟩
  | 8 => ⟨S1x800000, .i32⟩
  | 9 => ⟨S800000, .i32⟩
  | 10 => ⟨S1x800000, .i32⟩
  | 11 => ⟨S800000, .i32⟩
  | 12 => ⟨S_, .f32⟩
  | 13 => ⟨S800000, .f32⟩
  | 14 => ⟨S_, .f32⟩
  | 15 => ⟨S50000, .f32⟩
  | 16 => ⟨S800000x1, .i32⟩
  | 17 => ⟨S50000, .f32⟩
  | 18 => ⟨S_, .f32⟩
  | 19 => ⟨S50000, .f32⟩
  | 20 => ⟨S50000, .i1⟩
  | 21 => ⟨S_, .f32⟩
  | 22 => ⟨S_, .f32⟩
  | 23 => ⟨S50000, .f32⟩
  | 24 => ⟨S50000, .f32⟩
  | 25 => ⟨S_, .f32⟩
  | 26 => ⟨S50000, .f32⟩
  | 27 => ⟨S50000, .i1⟩
  | 28 => ⟨S50000, .f32⟩
  | 29 => ⟨S_, .f32⟩
  | 30 => ⟨S50000, .f32⟩
  | 31 => ⟨S50000, .f32⟩
  | 32 => ⟨S_, .f32⟩
  | 33 => ⟨S_, .f32⟩
  | 34 => ⟨S50000, .f32⟩
  | 35 => ⟨S50000, .f32⟩
  | 36 => ⟨S_, .i32⟩
  | 37 => ⟨S800000, .i32⟩
  | 38 => ⟨S800000, .i1⟩
  | 39 => ⟨S_, .i32⟩
  | 40 => ⟨S800000, .i32⟩
  | 41 => ⟨S800000, .i32⟩
  | 42 => ⟨S800000, .i32⟩
  | 43 => ⟨S800000x1, .i32⟩
  | 44 => ⟨S800000, .f32⟩
  | 45 => ⟨S800000, .f32⟩
  | 46 => ⟨S_, .i32⟩
  | 47 => ⟨S800000, .i32⟩
  | 48 => ⟨S800000, .i1⟩
  | 49 => ⟨S_, .i32⟩
  | 50 => ⟨S800000, .i32⟩
  | 51 => ⟨S800000, .i32⟩
  | 52 => ⟨S800000, .i32⟩
  | 53 => ⟨S800000x1, .i32⟩
  | 54 => ⟨S800000, .f32⟩
  | 55 => ⟨S800000, .f32⟩
  | 56 => ⟨S800000x1, .f32⟩
  | 57 => ⟨S_, .i32⟩
  | 58 => ⟨S800000, .i32⟩
  | 59 => ⟨S800000, .i1⟩
  | 60 => ⟨S_, .i32⟩
  | 61 => ⟨S800000, .i32⟩
  | 62 => ⟨S800000, .i32⟩
  | 63 => ⟨S800000, .i32⟩
  | 64 => ⟨S800000x1, .i32⟩
  | 65 => ⟨S800000x128, .f32⟩
  | 66 => ⟨S800000x128, .f32⟩
  | 67 => ⟨S800000x128, .f32⟩
  | 68 => ⟨S_, .f32⟩
  | 69 => ⟨S50000x128, .f32⟩
  | 70 => ⟨S800000x1, .i32⟩
  | 71 => ⟨S50000x128, .f32⟩
  | 72 => ⟨S800000x1, .f32⟩
  | 73 => ⟨S_, .i32⟩
  | 74 => ⟨S800000, .i32⟩
  | 75 => ⟨S800000, .i1⟩
  | 76 => ⟨S_, .i32⟩
  | 77 => ⟨S800000, .i32⟩
  | 78 => ⟨S800000, .i32⟩
  | 79 => ⟨S800000, .i32⟩
  | 80 => ⟨S800000x1, .i32⟩
  | 81 => ⟨S800000x128, .f32⟩
  | 82 => ⟨S800000x128, .f32⟩
  | 83 => ⟨S800000x128, .f32⟩
  | 84 => ⟨S_, .f32⟩
  | 85 => ⟨S50000x128, .f32⟩
  | 86 => ⟨S800000x1, .i32⟩
  | 87 => ⟨S50000x128, .f32⟩
  | 88 => ⟨S_, .f32⟩
  | 89 => ⟨S50000x128, .f32⟩
  | 90 => ⟨S50000x128, .f32⟩
  | 91 => ⟨S50000x128, .f32⟩
  | 92 => ⟨S1x50000x128, .f32⟩
  | 93 => ⟨S1x50000x128, .f32⟩
  | 94 => ⟨S1x50000x128, .f32⟩
  | 95 => ⟨S3x50000x128, .f32⟩
  | 96 => ⟨S3x50000x128, .bf16⟩
  | 97 => ⟨S3x128x128, .bf16⟩
  | 98 => ⟨S1x128, .f32⟩
  | 99 => ⟨S50000x128, .f32⟩
  | 100 => ⟨S800000x1, .f32⟩
  | 101 => ⟨S_, .i32⟩
  | 102 => ⟨S800000, .i32⟩
  | 103 => ⟨S800000, .i1⟩
  | 104 => ⟨S_, .i32⟩
  | 105 => ⟨S800000, .i32⟩
  | 106 => ⟨S800000, .i32⟩
  | 107 => ⟨S800000, .i32⟩
  | 108 => ⟨S800000x1, .i32⟩
  | 109 => ⟨S800000x128, .f32⟩
  | 110 => ⟨S800000x128, .f32⟩
  | 111 => ⟨S800000x128, .f32⟩
  | 112 => ⟨S_, .f32⟩
  | 113 => ⟨S50000x128, .f32⟩
  | 114 => ⟨S800000x1, .i32⟩
  | 115 => ⟨S50000x128, .f32⟩
  | 116 => ⟨S800000x1, .f32⟩
  | 117 => ⟨S_, .i32⟩
  | 118 => ⟨S800000, .i32⟩
  | 119 => ⟨S800000, .i1⟩
  | 120 => ⟨S_, .i32⟩
  | 121 => ⟨S800000, .i32⟩
  | 122 => ⟨S800000, .i32⟩
  | 123 => ⟨S800000, .i32⟩
  | 124 => ⟨S800000x1, .i32⟩
  | 125 => ⟨S800000x128, .f32⟩
  | 126 => ⟨S800000x128, .f32⟩
  | 127 => ⟨S800000x128, .f32⟩
  | _ => ⟨S50000x128, .f32⟩

abbrev hbmTy0_1 (i : Nat) : BufTy := match i % 128 with
  | 0 => ⟨S_, .f32⟩
  | 1 => ⟨S50000x128, .f32⟩
  | 2 => ⟨S800000x1, .i32⟩
  | 3 => ⟨S50000x128, .f32⟩
  | 4 => ⟨S_, .f32⟩
  | 5 => ⟨S50000x128, .f32⟩
  | 6 => ⟨S50000x128, .f32⟩
  | 7 => ⟨S50000x128, .f32⟩
  | 8 => ⟨S1x50000x128, .f32⟩
  | 9 => ⟨S1x50000x128, .f32⟩
  | 10 => ⟨S1x50000x128, .f32⟩
  | 11 => ⟨S3x50000x128, .f32⟩
  | 12 => ⟨S3x50000x128, .bf16⟩
  | 13 => ⟨S3x128x128, .bf16⟩
  | 14 => ⟨S1x128, .f32⟩
  | 15 => ⟨S50000x128, .f32⟩
  | 16 => ⟨S1x128, .f32⟩
  | 17 => ⟨S1x2, .f32⟩
  | 18 => ⟨S1x2, .f32⟩
  | 19 => ⟨S1x2, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S3x2000x128, .bf16⟩
  | .local _ .vmem, ⟨1, _⟩ => ⟨S3x2000x128, .bf16⟩
  | .local _ .vmem, ⟨2, _⟩ => ⟨S3x128x128, .bf16⟩
  | .local _ .vmem, ⟨3, _⟩ => ⟨S1x128, .f32⟩
  | .local _ .vmem, ⟨4, _⟩ => ⟨S2000x128, .f32⟩
  | .local _ .vmem, ⟨5, _⟩ => ⟨S2000x128, .f32⟩
  | .local _ .vmem, ⟨6, _⟩ => ⟨S3x2000x128, .bf16⟩
  | .local _ .vmem, ⟨7, _⟩ => ⟨S3x2000x128, .bf16⟩
  | .local _ .vmem, ⟨8, _⟩ => ⟨S3x128x128, .bf16⟩
  | .local _ .vmem, ⟨9, _⟩ => ⟨S1x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S1x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v10 : Ref sig .tc := ⟨.hbm, 24, rfl⟩
abbrev main_cst_3 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_4 : Ref sig .tc := ⟨.hbm, 29, rfl⟩
abbrev main_v14 : Ref sig .tc := ⟨.hbm, 30, rfl⟩
abbrev main_v15 : Ref sig .tc := ⟨.hbm, 31, rfl⟩
abbrev main_cst_5 : Ref sig .tc := ⟨.hbm, 32, rfl⟩
abbrev main_call1_v0 : Ref sig .tc := ⟨.hbm, 33, rfl⟩
abbrev main_call1_v1 : Ref sig .tc := ⟨.hbm, 34, rfl⟩
abbrev main_v16 : Ref sig .tc := ⟨.hbm, 35, rfl⟩
abbrev main_c : Ref sig .tc := ⟨.hbm, 36, rfl⟩
abbrev main_v17 : Ref sig .tc := ⟨.hbm, 37, rfl⟩
abbrev main_v18 : Ref sig .tc := ⟨.hbm, 38, rfl⟩
abbrev main_c_6 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_c_7 : Ref sig .tc := ⟨.hbm, 46, rfl⟩
abbrev main_v25 : Ref sig .tc := ⟨.hbm, 47, rfl⟩
abbrev main_v26 : Ref sig .tc := ⟨.hbm, 48, rfl⟩
abbrev main_c_8 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_c_9 : Ref sig .tc := ⟨.hbm, 57, rfl⟩
abbrev main_v34 : Ref sig .tc := ⟨.hbm, 58, rfl⟩
abbrev main_v35 : Ref sig .tc := ⟨.hbm, 59, rfl⟩
abbrev main_c_10 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_11 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_c_12 : Ref sig .tc := ⟨.hbm, 73, rfl⟩
abbrev main_v47 : Ref sig .tc := ⟨.hbm, 74, rfl⟩
abbrev main_v48 : Ref sig .tc := ⟨.hbm, 75, rfl⟩
abbrev main_c_13 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_cst_14 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_cst_15 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_c_16 : Ref sig .tc := ⟨.hbm, 101, rfl⟩
abbrev main_v71 : Ref sig .tc := ⟨.hbm, 102, rfl⟩
abbrev main_v72 : Ref sig .tc := ⟨.hbm, 103, rfl⟩
abbrev main_c_17 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_cst_18 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_c_19 : Ref sig .tc := ⟨.hbm, 117, rfl⟩
abbrev main_v84 : Ref sig .tc := ⟨.hbm, 118, rfl⟩
abbrev main_v85 : Ref sig .tc := ⟨.hbm, 119, rfl⟩
abbrev main_c_20 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_cst_21 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_cst_22 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14

abbrev nD : Nat := 1
abbrev τ : Topo := Topo.v7x

variable {F : FTy → Type} [FloatOps F]

abbrev grid0 : Pipeline.Grid := ⟨1, ![25], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3x2000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S3x2000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S3x128x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000x128_S1x50000x128_1_2 : S50000x128.BroadcastsInDim S1x50000x128 (![1, 2] : Fin 2 → Fin S1x50000x128.rank)
  concatenates_S1x50000x128_S1x50000x128_S1x50000x128_S3x50000x128_d0 : Shape.Concatenates [S1x50000x128, S1x50000x128, S1x50000x128] S3x50000x128 0
  bitsLt_bf16_f32 : FTy.bits .bf16 < FTy.bits .f32
  shapeCasts_S128_S1x128 : S128.ShapeCasts S1x128
  inb_S3x2000x128_S1x2000x128_0_0_0 : ∀ a, (![0, 0, 0] : Fin 3 → Nat) a + S1x2000x128.size a ≤ S3x2000x128.size a
  h_S1x2000x128 : 0 < S1x2000x128.numel
  shapeCasts_S1x2000x128_S2000x128 : S1x2000x128.ShapeCasts S2000x128
  inb_S3x128x128_S1x128x128_0_0_0 : ∀ a, (![0, 0, 0] : Fin 3 → Nat) a + S1x128x128.size a ≤ S3x128x128.size a
  h_S1x128x128 : 0 < S1x128x128.numel
  shapeCasts_S1x128x128_S128x128 : S1x128x128.ShapeCasts S128x128
  inb_S3x2000x128_S1x2000x128_1_0_0 : ∀ a, (![1, 0, 0] : Fin 3 → Nat) a + S1x2000x128.size a ≤ S3x2000x128.size a
  inb_S3x128x128_S1x128x128_1_0_0 : ∀ a, (![1, 0, 0] : Fin 3 → Nat) a + S1x128x128.size a ≤ S3x128x128.size a
  inb_S3x2000x128_S1x2000x128_2_0_0 : ∀ a, (![2, 0, 0] : Fin 3 → Nat) a + S1x2000x128.size a ≤ S3x2000x128.size a
  inb_S3x128x128_S1x128x128_2_0_0 : ∀ a, (![2, 0, 0] : Fin 3 → Nat) a + S1x128x128.size a ≤ S3x128x128.size a
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  reduces_S2000x128_S128 : S2000x128.Reduces [0] S128
  bcast_S2_S1x2_1 : S2.BroadcastsInDim S1x2 (![1] : Fin 1 → Fin S1x2.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  dot_S1x128_S128x2_S1x2_1_0_0_1_n_n_wf : DotDims.WF S1x128 S128x2 S1x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x2000x128.size a ≤ S3x50000x128.size a
  hwx0_0 : ∀ i : grid0.Coords, EltTy.bits .bf16 = 32 ∨ (Rect.block (s := S3x50000x128) S3x2000x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x128x128.size a ≤ S3x128x128.size a
  hwx0_1 : ∀ i : grid0.Coords, EltTy.bits .bf16 = 32 ∨ (Rect.block (s := S3x128x128) S3x128x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S3x2000x128.size a ≤ S3x50000x128.size a
  hwx1_0 : ∀ i : grid1.Coords, EltTy.bits .bf16 = 32 ∨ (Rect.block (s := S3x50000x128) S3x2000x128.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S3x128x128.size a ≤ S3x128x128.size a
  hwx1_1 : ∀ i : grid1.Coords, EltTy.bits .bf16 = 32 ∨ (Rect.block (s := S3x128x128) S3x128x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S50000x128.size a
  hwx1_3 : ∀ i : grid1.Coords, EltTy.bits .f32 = 32 ∨ (Rect.block (s := S50000x128) S2000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S1x128_S128x2_S1x2_1_0_0_1_n_n : DotDims S1x128 S128x2 S1x2 where
  lhsContracting := [1]
  rhsContracting := [0]
  lhsNonContracting := [0]
  rhsNonContracting := [1]
  lhsBatch := []
  rhsBatch := []
  wf := dot_S1x128_S128x2_S1x2_1_0_0_1_n_n_wf

abbrev win0_0 : Pipeline.Window sig grid0 :=
  Pipeline.Window.ofSpec (Memref.whole main_v66) S3x2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v67) S3x128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v68) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v69) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v103) S3x2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v104) S3x128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v105) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v106) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v106) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v107) S1x128.size cc2_transform_1 reads2_1 true true 1 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S3x128x128 : Shape := ⟨3, ![3, 128, 128]⟩
abbrev S128 : Shape := ⟨1, ![128]⟩
abbrev S128x2 : Shape := ⟨2, ![128, 2]⟩
abbrev S2 : Shape := ⟨1, ![2]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S1x128x128 : Shape := ⟨3, ![1, 128, 128]⟩
abbrev S128x128 : Shape := ⟨2, ![128, 128]⟩
abbrev S800000x128 : Shape := ⟨2, ![800000, 128]⟩
abbrev S1x128 : Shape := ⟨2, ![1, 128]⟩
abbrev S1x2 : Shape := ⟨2, ![1, 2]⟩

abbrev nBuf : Space → Nat
  | .hbm => 171
  | .vmem => 0
  | .smem => 0
  | _ => 0

abbrev hbmTy0_0 (i : Nat) : BufTy := match i % 128 with
  | 0 => ⟨S50000x128, .f32⟩
  | 1 => ⟨S2x800000, .i32⟩
  | 2 => ⟨S3x128x128, .f32⟩
  | 3 => ⟨S128, .f32⟩
  | 4 => ⟨S3x128x128, .f32⟩
  | 5 => ⟨S128, .f32⟩
  | 6 => ⟨S128x2, .f32⟩
  | 7 => ⟨S2, .f32⟩
  | 8 => ⟨S1x800000, .i32⟩
  | 9 => ⟨S800000, .i32⟩
  | 10 => ⟨S1x800000, .i32⟩
  | 11 => ⟨S800000, .i32⟩
  | 12 => ⟨S_, .f32⟩
  | 13 => ⟨S800000, .f32⟩
  | 14 => ⟨S_, .f32⟩
  | 15 => ⟨S50000, .f32⟩
  | 16 => ⟨S800000x1, .i32⟩
  | 17 => ⟨S50000, .f32⟩
  | 18 => ⟨S_, .f32⟩
  | 19 => ⟨S50000, .f32⟩
  | 20 => ⟨S50000, .i1⟩
  | 21 => ⟨S_, .f32⟩
  | 22 => ⟨S_, .f32⟩
  | 23 => ⟨S50000, .f32⟩
  | 24 => ⟨S50000, .f32⟩
  | 25 => ⟨S_, .f32⟩
  | 26 => ⟨S50000, .f32⟩
  | 27 => ⟨S50000, .i1⟩
  | 28 => ⟨S50000, .f32⟩
  | 29 => ⟨S_, .f32⟩
  | 30 => ⟨S50000, .f32⟩
  | 31 => ⟨S50000, .f32⟩
  | 32 => ⟨S_, .f32⟩
  | 33 => ⟨S_, .f32⟩
  | 34 => ⟨S50000, .f32⟩
  | 35 => ⟨S50000, .f32⟩
  | 36 => ⟨S_, .i32⟩
  | 37 => ⟨S800000, .i32⟩
  | 38 => ⟨S800000, .i1⟩
  | 39 => ⟨S_, .i32⟩
  | 40 => ⟨S800000, .i32⟩
  | 41 => ⟨S800000, .i32⟩
  | 42 => ⟨S800000, .i32⟩
  | 43 => ⟨S800000x1, .i32⟩
  | 44 => ⟨S800000, .f32⟩
  | 45 => ⟨S800000, .f32⟩
  | 46 => ⟨S_, .i32⟩
  | 47 => ⟨S800000, .i32⟩
  | 48 => ⟨S800000, .i1⟩
  | 49 => ⟨S_, .i32⟩
  | 50 => ⟨S800000, .i32⟩
  | 51 => ⟨S800000, .i32⟩
  | 52 => ⟨S800000, .i32⟩
  | 53 => ⟨S800000x1, .i32⟩
  | 54 => ⟨S800000, .f32⟩
  | 55 => ⟨S800000, .f32⟩
  | 56 => ⟨S1x128x128, .f32⟩
  | 57 => ⟨S128x128, .f32⟩
  | 58 => ⟨S50000x128, .f32⟩
  | 59 => ⟨S800000x1, .f32⟩
  | 60 => ⟨S_, .i32⟩
  | 61 => ⟨S800000, .i32⟩
  | 62 => ⟨S800000, .i1⟩
  | 63 => ⟨S_, .i32⟩
  | 64 => ⟨S800000, .i32⟩
  | 65 => ⟨S800000, .i32⟩
  | 66 => ⟨S800000, .i32⟩
  | 67 => ⟨S800000x1, .i32⟩
  | 68 => ⟨S800000x128, .f32⟩
  | 69 => ⟨S800000x128, .f32⟩
  | 70 => ⟨S800000x128, .f32⟩
  | 71 => ⟨S_, .f32⟩
  | 72 => ⟨S50000x128, .f32⟩
  | 73 => ⟨S800000x1, .i32⟩
  | 74 => ⟨S50000x128, .f32⟩
  | 75 => ⟨S1x128x128, .f32⟩
  | 76 => ⟨S128x128, .f32⟩
  | 77 => ⟨S50000x128, .f32⟩
  | 78 => ⟨S50000x128, .f32⟩
  | 79 => ⟨S800000x1, .f32⟩
  | 80 => ⟨S_, .i32⟩
  | 81 => ⟨S800000, .i32⟩
  | 82 => ⟨S800000, .i1⟩
  | 83 => ⟨S_, .i32⟩
  | 84 => ⟨S800000, .i32⟩
  | 85 => ⟨S800000, .i32⟩
  | 86 => ⟨S800000, .i32⟩
  | 87 => ⟨S800000x1, .i32⟩
  | 88 => ⟨S800000x128, .f32⟩
  | 89 => ⟨S800000x128, .f32⟩
  | 90 => ⟨S800000x128, .f32⟩
  | 91 => ⟨S_, .f32⟩
  | 92 => ⟨S50000x128, .f32⟩
  | 93 => ⟨S800000x1, .i32⟩
  | 94 => ⟨S50000x128, .f32⟩
  | 95 => ⟨S_, .f32⟩
  | 96 => ⟨S50000x128, .f32⟩
  | 97 => ⟨S50000x128, .f32⟩
  | 98 => ⟨S50000x128, .f32⟩
  | 99 => ⟨S1x128x128, .f32⟩
  | 100 => ⟨S128x128, .f32⟩
  | 101 => ⟨S50000x128, .f32⟩
  | 102 => ⟨S50000x128, .f32⟩
  | 103 => ⟨S1x128, .f32⟩
  | 104 => ⟨S50000x128, .f32⟩
  | 105 => ⟨S50000x128, .f32⟩
  | 106 => ⟨S_, .f32⟩
  | 107 => ⟨S50000x128, .f32⟩
  | 108 => ⟨S50000x128, .f32⟩
  | 109 => ⟨S1x128x128, .f32⟩
  | 110 => ⟨S128x128, .f32⟩
  | 111 => ⟨S50000x128, .f32⟩
  | 112 => ⟨S800000x1, .f32⟩
  | 113 => ⟨S_, .i32⟩
  | 114 => ⟨S800000, .i32⟩
  | 115 => ⟨S800000, .i1⟩
  | 116 => ⟨S_, .i32⟩
  | 117 => ⟨S800000, .i32⟩
  | 118 => ⟨S800000, .i32⟩
  | 119 => ⟨S800000, .i32⟩
  | 120 => ⟨S800000x1, .i32⟩
  | 121 => ⟨S800000x128, .f32⟩
  | 122 => ⟨S800000x128, .f32⟩
  | 123 => ⟨S800000x128, .f32⟩
  | 124 => ⟨S_, .f32⟩
  | 125 => ⟨S50000x128, .f32⟩
  | 126 => ⟨S800000x1, .i32⟩
  | 127 => ⟨S50000x128, .f32⟩
  | _ => ⟨S50000x128, .f32⟩

abbrev hbmTy0_1 (i : Nat) : BufTy := match i % 128 with
  | 0 => ⟨S1x128x128, .f32⟩
  | 1 => ⟨S128x128, .f32⟩
  | 2 => ⟨S50000x128, .f32⟩
  | 3 => ⟨S50000x128, .f32⟩
  | 4 => ⟨S800000x1, .f32⟩
  | 5 => ⟨S_, .i32⟩
  | 6 => ⟨S800000, .i32⟩
  | 7 => ⟨S800000, .i1⟩
  | 8 => ⟨S_, .i32⟩
  | 9 => ⟨S800000, .i32⟩
  | 10 => ⟨S800000, .i32⟩
  | 11 => ⟨S800000, .i32⟩
  | 12 => ⟨S800000x1, .i32⟩
  | 13 => ⟨S800000x128, .f32⟩
  | 14 => ⟨S800000x128, .f32⟩
  | 15 => ⟨S800000x128, .f32⟩
  | 16 => ⟨S_, .f32⟩
  | 17 => ⟨S50000x128, .f32⟩
  | 18 => ⟨S800000x1, .i32⟩
  | 19 => ⟨S50000x128, .f32⟩
  | 20 => ⟨S_, .f32⟩
  | 21 => ⟨S50000x128, .f32⟩
  | 22 => ⟨S50000x128, .f32⟩
  | 23 => ⟨S50000x128, .f32⟩
  | 24 => ⟨S1x128x128, .f32⟩
  | 25 => ⟨S128x128, .f32⟩
  | 26 => ⟨S50000x128, .f32⟩
  | 27 => ⟨S50000x128, .f32⟩
  | 28 => ⟨S1x128, .f32⟩
  | 29 => ⟨S50000x128, .f32⟩
  | 30 => ⟨S50000x128, .f32⟩
  | 31 => ⟨S_, .f32⟩
  | 32 => ⟨S50000x128, .f32⟩
  | 33 => ⟨S50000x128, .f32⟩
  | 34 => ⟨S_, .f32⟩
  | 35 => ⟨S128, .f32⟩
  | 36 => ⟨S1x128, .f32⟩
  | 37 => ⟨S_, .f32⟩
  | 38 => ⟨S1x128, .f32⟩
  | 39 => ⟨S1x128, .f32⟩
  | 40 => ⟨S1x2, .f32⟩
  | 41 => ⟨S1x2, .f32⟩
  | 42 => ⟨S1x2, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v10 : Ref sig .tc := ⟨.hbm, 24, rfl⟩
abbrev main_cst_3 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_4 : Ref sig .tc := ⟨.hbm, 29, rfl⟩
abbrev main_v14 : Ref sig .tc := ⟨.hbm, 30, rfl⟩
abbrev main_v15 : Ref sig .tc := ⟨.hbm, 31, rfl⟩
abbrev main_cst_5 : Ref sig .tc := ⟨.hbm, 32, rfl⟩
abbrev main_call1_v0 : Ref sig .tc := ⟨.hbm, 33, rfl⟩
abbrev main_call1_v1 : Ref sig .tc := ⟨.hbm, 34, rfl⟩
abbrev main_v16 : Ref sig .tc := ⟨.hbm, 35, rfl⟩
abbrev main_c : Ref sig .tc := ⟨.hbm, 36, rfl⟩
abbrev main_v17 : Ref sig .tc := ⟨.hbm, 37, rfl⟩
abbrev main_v18 : Ref sig .tc := ⟨.hbm, 38, rfl⟩
abbrev main_c_6 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_c_7 : Ref sig .tc := ⟨.hbm, 46, rfl⟩
abbrev main_v25 : Ref sig .tc := ⟨.hbm, 47, rfl⟩
abbrev main_v26 : Ref sig .tc := ⟨.hbm, 48, rfl⟩
abbrev main_c_8 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_c_9 : Ref sig .tc := ⟨.hbm, 60, rfl⟩
abbrev main_v37 : Ref sig .tc := ⟨.hbm, 61, rfl⟩
abbrev main_v38 : Ref sig .tc := ⟨.hbm, 62, rfl⟩
abbrev main_c_10 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_11 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_c_12 : Ref sig .tc := ⟨.hbm, 80, rfl⟩
abbrev main_v54 : Ref sig .tc := ⟨.hbm, 81, rfl⟩
abbrev main_v55 : Ref sig .tc := ⟨.hbm, 82, rfl⟩
abbrev main_c_13 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_cst_14 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_cst_15 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_call2_cst : Ref sig .tc := ⟨.hbm, 106, rfl⟩
abbrev main_call2_v0 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_c_16 : Ref sig .tc := ⟨.hbm, 113, rfl⟩
abbrev main_v81 : Ref sig .tc := ⟨.hbm, 114, rfl⟩
abbrev main_v82 : Ref sig .tc := ⟨.hbm, 115, rfl⟩
abbrev main_c_17 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_cst_18 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_c_19 : Ref sig .tc := ⟨.hbm, 133, rfl⟩
abbrev main_v98 : Ref sig .tc := ⟨.hbm, 134, rfl⟩
abbrev main_v99 : Ref sig .tc := ⟨.hbm, 135, rfl⟩
abbrev main_c_20 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_cst_21 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_cst_22 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_call3_cst : Ref sig .tc := ⟨.hbm, 159, rfl⟩
abbrev main_call3_v0 : Ref sig .tc := ⟨.hbm, 160, rfl⟩
abbrev main_v120 : Ref sig .tc := ⟨.hbm, 161, rfl⟩
abbrev main_cst_23 : Ref sig .tc := ⟨.hbm, 162, rfl⟩
abbrev main_v121 : Ref sig .tc := ⟨.hbm, 163, rfl⟩
abbrev main_v122 : Ref sig .tc := ⟨.hbm, 164, rfl⟩
abbrev main_cst_24 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  slices_S3x128x128_S1x128x128_0_0_0 : S3x128x128.Slices ![0, 0, 0] S1x128x128
  shapeCasts_S1x128x128_S128x128 : S1x128x128.ShapeCasts S128x128
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  slices_S3x128x128_S1x128x128_1_0_0 : S3x128x128.Slices ![1, 0, 0] S1x128x128
  slices_S3x128x128_S1x128x128_2_0_0 : S3x128x128.Slices ![2, 0, 0] S1x128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S1x128 : S_.BroadcastsInDim S1x128 (![] : Fin 0 → Fin S1x128.rank)
  bcast_S2_S1x2_1 : S2.BroadcastsInDim S1x2 (![1] : Fin 1 → Fin S1x2.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S1x128_S128x2_S1x2_1_0_0_1_n_n_wf : DotDims.WF S1x128 S128x2 S1x2 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S1x128_S128x2_S1x2_1_0_0_1_n_n : DotDims S1x128 S128x2 S1x2 where
  lhsContracting := [1]
  rhsContracting := [0]
  lhsNonContracting := [0]
  rhsNonContracting := [1]
  lhsBatch := []
  rhsBatch := []
  wf := dot_S1x128_S128x2_S1x2_1_0_0_1_n_n_wf

class Facts : Prop extends Facts₀ where

variable [Facts]
-- ==== Proof.K.Cheb0.lean ====
/-
  Region 0 of the program: one Chebyshev layer's contraction, tiled over 25 blocks of 2000 rows.

  At grid point `t` the body sees block `t` of the stacked basis (three slabs of 2000 × 128), the whole weight
  stack (three slabs of 128 × 128) and the bias row, and writes block `t` of the output: the three slab
  products accumulated from zero, the bias added to every row, the rectifier. Nothing is carried from one
  point to the next, so what the output block holds after the body is one function of the three input
  blocks (`blockOut0`), and the proof data of the pipeline says exactly that at every point.
  Everything is stated at a parameter `V`: the buffers' contents when the region is entered.
-/
import proofs.«132460_j26242250179009_1_alg».proof.Proof.Gen.Kernel.Launch
import proofs.«132460_j26242250179009_1_alg».proof.Proof.Gen.Kernel.Skeleton
import proofs.«132460_j26242250179009_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at grid point `t`, read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, whether the pipeline fetched it there or
    kept it from an earlier point (the weights and the bias are fetched once: their block index never moves). -/
theorem inBlock0_0 {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem inBlock0_1 {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem inBlock0_2 {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes through -/

/-- Slab `k` of the basis block (2000 rows), slab `k` of the weights, the bias row, the whole output block. -/
abbrev rX0_0 : Rect S3x2000x128 := Rect.unit (s := S3x2000x128) ![0, 0, 0] S1x2000x128.size inb_S3x2000x128_S1x2000x128_0_0_0
abbrev rX0_1 : Rect S3x2000x128 := Rect.unit (s := S3x2000x128) ![1, 0, 0] S1x2000x128.size inb_S3x2000x128_S1x2000x128_1_0_0
abbrev rX0_2 : Rect S3x2000x128 := Rect.unit (s := S3x2000x128) ![2, 0, 0] S1x2000x128.size inb_S3x2000x128_S1x2000x128_2_0_0
abbrev rW0_0 : Rect S3x128x128 := Rect.unit (s := S3x128x128) ![0, 0, 0] S1x128x128.size inb_S3x128x128_S1x128x128_0_0_0
abbrev rW0_1 : Rect S3x128x128 := Rect.unit (s := S3x128x128) ![1, 0, 0] S1x128x128.size inb_S3x128x128_S1x128x128_1_0_0
abbrev rW0_2 : Rect S3x128x128 := Rect.unit (s := S3x128x128) ![2, 0, 0] S1x128x128.size inb_S3x128x128_S1x128x128_2_0_0
abbrev rB0 : Rect S1x128 := Rect.unit (s := S1x128) ![0, 0] S1x128.size inb_S1x128_S1x128_0_0
abbrev rO0 : Rect S2000x128 := Rect.unit (s := S2000x128) ![0, 0] S2000x128.size inb_S2000x128_S2000x128_0_0

/-- What the body leaves in the output block's buffer, from the three input blocks: its one store, of the
    layer's arithmetic on the slabs it loaded. -/
def blockOut0 (x0 : Vec F S3x2000x128 .bf16) (x1 : Vec F S3x128x128 .bf16) (x2 : Vec F S1x128 .f32) : Vec F S2000x128 .f32 :=
  View.canon [⟨rO0, k0_pay1 (View.ld x0 rX0_0) (View.ld x1 rW0_0) (View.ld x0 rX0_1) (View.ld x1 rW0_1) (View.ld x0 rX0_2) (View.ld x1 rW0_2) (View.ld x2 rB0)⟩]

/-- The one store is of the whole block, so it covers the buffer. -/
theorem blockOut0_cover (p0 : Vec F S2000x128 .f32) (y : S2000x128.Idx) :
    ∃ pc ∈ ([⟨rO0, p0⟩] : List (View.Piece (Elt F) S2000x128 .f32)), y ∈ pc.1.set :=
  View.cover_of_tiled [⟨rO0, p0⟩] S2000x128.size (by rfl) y

/-! ## The body's triple -/

set_option maxHeartbeats 4000000 in
/-- On whole staging memrefs — the inputs' holding `x0`, `x1`, `x2`, the output's anything — the body runs to its
    continuation with the inputs as they were and the output's buffer at `blockOut0 x0 x1 x2`. -/
theorem bodyTriple0 (c : Dev nD) (E : Set ℕ) (i : grid0.Coords)
    (arg1 : Memref sig .tc .vmem S3x2000x128 .bf16) (harg1 : arg1.IsWhole) (arg2 : Memref sig .tc .vmem S3x128x128 .bf16) (harg2 : arg2.IsWhole)
    (arg3 : Memref sig .tc .vmem S1x128 .f32) (harg3 : arg3.IsWhole) (arg4 : Memref sig .tc .vmem S2000x128 .f32) (harg4 : arg4.IsWhole)
    (x0 : Vec F S3x2000x128 .bf16) (x1 : Vec F S3x128x128 .bf16) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (blockOut0 x0 x1 x2)) -∗ K ⟨⟩))
      ⊢ wp frame (wpE (defs₀ (F := F)) Variants.none c none) E (cc0__cheb_matmul_kernel i arg1 harg1 arg2 harg2 arg3 harg3 arg4 harg4) K := by
  simp only [cc0__cheb_matmul_kernel_eq_skeleton]; unfold cc0__cheb_matmul_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (blockOut0_cover _)

/-! ## The pipeline's proof data -/

/-- The arrays are what the region finds; after the body at point `t` each input's buffer still holds its
    block and the output's holds `blockOut0` of the three blocks; the invariant is the scoped rest and the
    generator register, untouched; nothing is owed; shares are full. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => blockOut0 (iblk0 V c 0 t) (iblk0 V c 1 t) (iblk0 V c 2 t)
  Φ _ := Pipeline.ΦA spec0 c
  q _ := fullShare
  owed _ := 0

theorem dat0_A (c : Dev nD) (w : Fin cfg0.W) : (dat0 V c).A w = V c (Pipeline.arrRef spec0 w) := by
  dsimp only [dat0]

theorem dat0_after_0 (c : Dev nD) (t : Fin cfg0.N) : (dat0 V c).after 0 t = iblk0 V c 0 t := by dsimp only [dat0]
theorem dat0_after_1 (c : Dev nD) (t : Fin cfg0.N) : (dat0 V c).after 1 t = iblk0 V c 1 t := by dsimp only [dat0]
theorem dat0_after_2 (c : Dev nD) (t : Fin cfg0.N) : (dat0 V c).after 2 t = iblk0 V c 2 t := by dsimp only [dat0]
theorem dat0_after_3 (c : Dev nD) (t : Fin cfg0.N) :
    (dat0 V c).after 3 t = blockOut0 (iblk0 V c 0 t) (iblk0 V c 1 t) (iblk0 V c 2 t) := by dsimp only [dat0]

theorem dat0_before_0 (c : Dev nD) (t : Fin cfg0.N) (d) : (dat0 V c).before 0 t d = iblk0 V c 0 t :=
  inBlock0_0 V (dat0 V c) (dat0_A V c 0) (dat0_after_0 V c) t d
theorem dat0_before_1 (c : Dev nD) (t : Fin cfg0.N) (d) : (dat0 V c).before 1 t d = iblk0 V c 1 t :=
  inBlock0_1 V (dat0 V c) (dat0_A V c 1) (dat0_after_1 V c) t d
theorem dat0_before_2 (c : Dev nD) (t : Fin cfg0.N) (d) : (dat0 V c).before 2 t d = iblk0 V c 2 t :=
  inBlock0_2 V (dat0 V c) (dat0_A V c 2) (dat0_after_2 V c) t d

/-! ## The body obligation -/

/-- What the pipeline calls the body with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it must give back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

set_option maxHeartbeats 2000000 in
/-- The body at any point: the inputs' buffers hold their blocks, so the triple applies; the invariant and the
    core's dues pass through unread. -/
theorem bodySound0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [dat0_before_0, dat0_before_1, dat0_before_2]
  rw [show (dat0 V c).Φ t.succ = (dat0 V c).Φ t.castSucc from rfl,
    show (dat0 V c).owesAt () t.succ = (dat0 V c).owesAt () t.castSucc from rfl,
    dat0_after_0, dat0_after_1, dat0_after_2, dat0_after_3]
  iintro ⟨HΦ, Ho, ⟨%d0, H0⟩, ⟨%d1, H1⟩, ⟨%d2, H2⟩, ⟨%d3, H3⟩⟩
  iapply (bodyTriple0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem bodyObligation0 (c : Dev nD) : BodyObligation (dat0 (F := F) V c) (defs₀ (F := F)) Variants.none () Set.univ := fun t => by
  rw [bigSep_W0, bigSep_W0]
  exact bodySound0 V c t

end

/-! ## What the region's arrays hold at its exit -/

/-- If `V'` agrees with `V` off the output array and holds the write-backs' fold at it, then at the region's exit
    every array of the pipeline holds `V'`'s contents: an input array is left as it was found. -/
theorem exitArr0 (V V' : (c : Dev nD) → (b : Ref sig .tc) → Buf (Elt F) ((c : Thread nD τ).loc b)) (c : Dev nD)
    (hkeep : ∀ r : Ref sig .tc, r ∉ ([main_v69] : List (Ref sig .tc)) → V' c r = V c r)
    (hout : V' c main_v69 = (dat0 V c).arrAt 3 cfg0.N) (w : Fin cfg0.W) :
    (dat0 V c).arrAt w cfg0.N = V' c (Pipeline.arrRef spec0 w) := by
  match w with
  | ⟨0, _⟩ => exact (((dat0 V c).arrAt_in 0 rfl _).trans (dat0_A V c 0)).trans (hkeep main_v66 (by decide)).symm
  | ⟨1, _⟩ => exact (((dat0 V c).arrAt_in 1 rfl _).trans (dat0_A V c 1)).trans (hkeep main_v67 (by decide)).symm
  | ⟨2, _⟩ => exact (((dat0 V c).arrAt_in 2 rfl _).trans (dat0_A V c 2)).trans (hkeep main_v68 (by decide)).symm
  | ⟨3, _⟩ => exact hout.symm

theorem exitRest0 (V V' : (c : Dev nD) → (b : Ref sig .tc) → Buf (Elt F) ((c : Thread nD τ).loc b)) (c : Dev nD)
    (hkeep : ∀ r : Ref sig .tc, r ∉ ([main_v69] : List (Ref sig .tc)) → V' c r = V c r) :
    ∀ b, b ∉ Finset.univ.image (Pipeline.arrRef spec0) → V' c b = V c b :=
  fun b hb => hkeep b (fun h => by
    rcases List.mem_singleton.mp h with rfl
    exact hb (Finset.mem_image.mpr ⟨3, Finset.mem_univ _, rfl⟩))

end Cert.Kernel.Hand

end
-- ==== Proof.K.Cheb1.lean ====
/-
  Region 1 of the program: one Chebyshev layer's contraction, tiled over 25 blocks of 2000 rows.

  At grid point `t` the body sees block `t` of the stacked basis (three slabs of 2000 × 128), the whole weight
  stack (three slabs of 128 × 128) and the bias row, and writes block `t` of the output: the three slab
  products accumulated from zero, the bias added to every row, the rectifier. Nothing is carried from one
  point to the next, so what the output block holds after the body is one function of the three input
  blocks (`blockOut1`), and the proof data of the pipeline says exactly that at every point.
  Everything is stated at a parameter `V`: the buffers' contents when the region is entered.
-/
import proofs.«132460_j26242250179009_1_alg».proof.Proof.Gen.Kernel.Launch
import proofs.«132460_j26242250179009_1_alg».proof.Proof.Gen.Kernel.Skeleton
import proofs.«132460_j26242250179009_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at grid point `t`, read off the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, whether the pipeline fetched it there or
    kept it from an earlier point (the weights and the bias are fetched once: their block index never moves). -/
theorem inBlock1_0 {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem inBlock1_1 {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem inBlock1_2 {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the body reads and writes through -/

/-- Slab `k` of the basis block (2000 rows), slab `k` of the weights, the bias row, the whole output block. -/
abbrev rX1_0 : Rect S3x2000x128 := Rect.unit (s := S3x2000x128) ![0, 0, 0] S1x2000x128.size inb_S3x2000x128_S1x2000x128_0_0_0
abbrev rX1_1 : Rect S3x2000x128 := Rect.unit (s := S3x2000x128) ![1, 0, 0] S1x2000x128.size inb_S3x2000x128_S1x2000x128_1_0_0
abbrev rX1_2 : Rect S3x2000x128 := Rect.unit (s := S3x2000x128) ![2, 0, 0] S1x2000x128.size inb_S3x2000x128_S1x2000x128_2_0_0
abbrev rW1_0 : Rect S3x128x128 := Rect.unit (s := S3x128x128) ![0, 0, 0] S1x128x128.size inb_S3x128x128_S1x128x128_0_0_0
abbrev rW1_1 : Rect S3x128x128 := Rect.unit (s := S3x128x128) ![1, 0, 0] S1x128x128.size inb_S3x128x128_S1x128x128_1_0_0
abbrev rW1_2 : Rect S3x128x128 := Rect.unit (s := S3x128x128) ![2, 0, 0] S1x128x128.size inb_S3x128x128_S1x128x128_2_0_0
abbrev rB1 : Rect S1x128 := Rect.unit (s := S1x128) ![0, 0] S1x128.size inb_S1x128_S1x128_0_0
abbrev rO1 : Rect S2000x128 := Rect.unit (s := S2000x128) ![0, 0] S2000x128.size inb_S2000x128_S2000x128_0_0

/-- What the body leaves in the output block's buffer, from the three input blocks: its one store, of the
    layer's arithmetic on the slabs it loaded. -/
def blockOut1 (x0 : Vec F S3x2000x128 .bf16) (x1 : Vec F S3x128x128 .bf16) (x2 : Vec F S1x128 .f32) : Vec F S2000x128 .f32 :=
  View.canon [⟨rO1, k1_pay1 (View.ld x0 rX1_0) (View.ld x1 rW1_0) (View.ld x0 rX1_1) (View.ld x1 rW1_1) (View.ld x0 rX1_2) (View.ld x1 rW1_2) (View.ld x2 rB1)⟩]

/-- The one store is of the whole block, so it covers the buffer. -/
theorem blockOut1_cover (p0 : Vec F S2000x128 .f32) (y : S2000x128.Idx) :
    ∃ pc ∈ ([⟨rO1, p0⟩] : List (View.Piece (Elt F) S2000x128 .f32)), y ∈ pc.1.set :=
  View.cover_of_tiled [⟨rO1, p0⟩] S2000x128.size (by rfl) y

/-! ## The body's triple -/

set_option maxHeartbeats 4000000 in
/-- On whole staging memrefs — the inputs' holding `x0`, `x1`, `x2`, the output's anything — the body runs to its
    continuation with the inputs as they were and the output's buffer at `blockOut1 x0 x1 x2`. -/
theorem bodyTriple1 (c : Dev nD) (E : Set ℕ) (i : grid1.Coords)
    (arg1 : Memref sig .tc .vmem S3x2000x128 .bf16) (harg1 : arg1.IsWhole) (arg2 : Memref sig .tc .vmem S3x128x128 .bf16) (harg2 : arg2.IsWhole)
    (arg3 : Memref sig .tc .vmem S1x128 .f32) (harg3 : arg3.IsWhole) (arg4 : Memref sig .tc .vmem S2000x128 .f32) (harg4 : arg4.IsWhole)
    (x0 : Vec F S3x2000x128 .bf16) (x1 : Vec F S3x128x128 .bf16) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (blockOut1 x0 x1 x2)) -∗ K ⟨⟩))
      ⊢ wp frame (wpE (defs₀ (F := F)) Variants.none c none) E (cc1__cheb_matmul_kernel i arg1 harg1 arg2 harg2 arg3 harg3 arg4 harg4) K := by
  simp only [cc1__cheb_matmul_kernel_eq_skeleton]; unfold cc1__cheb_matmul_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (blockOut1_cover _)

/-! ## The pipeline's proof data -/

/-- The arrays are what the region finds; after the body at point `t` each input's buffer still holds its
    block and the output's holds `blockOut1` of the three blocks; the invariant is the scoped rest and the
    generator register, untouched; nothing is owed; shares are full. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => blockOut1 (iblk1 V c 0 t) (iblk1 V c 1 t) (iblk1 V c 2 t)
  Φ _ := Pipeline.ΦA spec1 c
  q _ := fullShare
  owed _ := 0

theorem dat1_A (c : Dev nD) (w : Fin cfg1.W) : (dat1 V c).A w = V c (Pipeline.arrRef spec1 w) := by
  dsimp only [dat1]

theorem dat1_after_0 (c : Dev nD) (t : Fin cfg1.N) : (dat1 V c).after 0 t = iblk1 V c 0 t := by dsimp only [dat1]
theorem dat1_after_1 (c : Dev nD) (t : Fin cfg1.N) : (dat1 V c).after 1 t = iblk1 V c 1 t := by dsimp only [dat1]
theorem dat1_after_2 (c : Dev nD) (t : Fin cfg1.N) : (dat1 V c).after 2 t = iblk1 V c 2 t := by dsimp only [dat1]
theorem dat1_after_3 (c : Dev nD) (t : Fin cfg1.N) :
    (dat1 V c).after 3 t = blockOut1 (iblk1 V c 0 t) (iblk1 V c 1 t) (iblk1 V c 2 t) := by dsimp only [dat1]

theorem dat1_before_0 (c : Dev nD) (t : Fin cfg1.N) (d) : (dat1 V c).before 0 t d = iblk1 V c 0 t :=
  inBlock1_0 V (dat1 V c) (dat1_A V c 0) (dat1_after_0 V c) t d
theorem dat1_before_1 (c : Dev nD) (t : Fin cfg1.N) (d) : (dat1 V c).before 1 t d = iblk1 V c 1 t :=
  inBlock1_1 V (dat1 V c) (dat1_A V c 1) (dat1_after_1 V c) t d
theorem dat1_before_2 (c : Dev nD) (t : Fin cfg1.N) (d) : (dat1 V c).before 2 t d = iblk1 V c 2 t :=
  inBlock1_2 V (dat1 V c) (dat1_A V c 2) (dat1_after_2 V c) t d

/-! ## The body obligation -/

/-- What the pipeline calls the body with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it must give back. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

set_option maxHeartbeats 2000000 in
/-- The body at any point: the inputs' buffers hold their blocks, so the triple applies; the invariant and the
    core's dues pass through unread. -/
theorem bodySound1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [dat1_before_0, dat1_before_1, dat1_before_2]
  rw [show (dat1 V c).Φ t.succ = (dat1 V c).Φ t.castSucc from rfl,
    show (dat1 V c).owesAt () t.succ = (dat1 V c).owesAt () t.castSucc from rfl,
    dat1_after_0, dat1_after_1, dat1_after_2, dat1_after_3]
  iintro ⟨HΦ, Ho, ⟨%d0, H0⟩, ⟨%d1, H1⟩, ⟨%d2, H2⟩, ⟨%d3, H3⟩⟩
  iapply (bodyTriple1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem bodyObligation1 (c : Dev nD) : BodyObligation (dat1 (F := F) V c) (defs₀ (F := F)) Variants.none () Set.univ := fun t => by
  rw [bigSep_W1, bigSep_W1]
  exact bodySound1 V c t

end

/-! ## What the region's arrays hold at its exit -/

/-- If `V'` agrees with `V` off the output array and holds the write-backs' fold at it, then at the region's exit
    every array of the pipeline holds `V'`'s contents: an input array is left as it was found. -/
theorem exitArr1 (V V' : (c : Dev nD) → (b : Ref sig .tc) → Buf (Elt F) ((c : Thread nD τ).loc b)) (c : Dev nD)
    (hkeep : ∀ r : Ref sig .tc, r ∉ ([main_v106] : List (Ref sig .tc)) → V' c r = V c r)
    (hout : V' c main_v106 = (dat1 V c).arrAt 3 cfg1.N) (w : Fin cfg1.W) :
    (dat1 V c).arrAt w cfg1.N = V' c (Pipeline.arrRef spec1 w) := by
  match w with
  | ⟨0, _⟩ => exact (((dat1 V c).arrAt_in 0 rfl _).trans (dat1_A V c 0)).trans (hkeep main_v103 (by decide)).symm
  | ⟨1, _⟩ => exact (((dat1 V c).arrAt_in 1 rfl _).trans (dat1_A V c 1)).trans (hkeep main_v104 (by decide)).symm
  | ⟨2, _⟩ => exact (((dat1 V c).arrAt_in 2 rfl _).trans (dat1_A V c 2)).trans (hkeep main_v105 (by decide)).symm
  | ⟨3, _⟩ => exact hout.symm

theorem exitRest1 (V V' : (c : Dev nD) → (b : Ref sig .tc) → Buf (Elt F) ((c : Thread nD τ).loc b)) (c : Dev nD)
    (hkeep : ∀ r : Ref sig .tc, r ∉ ([main_v106] : List (Ref sig .tc)) → V' c r = V c r) :
    ∀ b, b ∉ Finset.univ.image (Pipeline.arrRef spec1) → V' c b = V c b :=
  fun b hb => hkeep b (fun h => by
    rcases List.mem_singleton.mp h with rfl
    exact hb (Finset.mem_image.mpr ⟨3, Finset.mem_univ _, rfl⟩))

end Cert.Kernel.Hand

end
-- ==== Proof.K.Mean2.lean ====
/-
  Region 2 of the program: the mean over the 50000 rows, accumulated over 25 grid points in ONE output block.

  The output window is a single row of 128 columns whose block index never moves, so the pipeline keeps its
  buffer from point to point and writes it back only after the last one. At the first point the body clears
  the row and adds the column sums of its 2000-row block; at each later point it adds the block's column sums
  to what the point before left; at the last point it also multiplies the finished sums by the reciprocal of
  the row count. So there are three control cases, decided by the grid coordinate alone, and what the row
  holds after point `t` is defined by recursion on `t` (`rowAfter2`).
  Everything is stated at a parameter `V`: the buffers' contents when the region is entered.
-/
import proofs.«132460_j26242250179009_1_alg».proof.Proof.Gen.Kernel.Launch
import proofs.«132460_j26242250179009_1_alg».proof.Proof.Gen.Kernel.Skeleton
import proofs.«132460_j26242250179009_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions of the body, from the grid coordinate -/

/-- "This is the first point": the body's first conditional, its scalar chain spelled out. -/
abbrev isFirst2 (i : grid2.Coords) : Prop :=
  (Scalar.cmpi .ne (Scalar.extui (Scalar.cmpi .eq (BitVec.ofNat 32 (i 0).val) 0#32)) 0#32) = 1#1
/-- "This is the last point": the body's second conditional. -/
abbrev isLast2 (i : grid2.Coords) : Prop :=
  (Scalar.cmpi .ne (Scalar.extui (Scalar.cmpi .eq (BitVec.ofNat 32 (i 0).val) 24#32)) 0#32) = 1#1

theorem isFirst2_iff : ∀ t : Fin cfg2.N, isFirst2 (grid2.coords t) ↔ t.val % 25 = 0 :=
  (by decide +kernel : ∀ t : Fin grid2.N, isFirst2 (grid2.coords t) ↔ t.val % 25 = 0)
theorem isLast2_iff : ∀ t : Fin cfg2.N, isLast2 (grid2.coords t) ↔ t.val % 25 = 24 :=
  (by decide +kernel : ∀ t : Fin grid2.N, isLast2 (grid2.coords t) ↔ t.val % 25 = 24)

/-! ## The staging memrefs at a point -/

/-- One buffer of the output window, through which its contents are stated (any view of the shape reads the
    same once the stores cover it). -/
abbrev rowView2 : View sig .tc .vmem S1x128 .f32 := (Memref.whole cc2_stg1_0 : Memref sig .tc .vmem S1x128 .f32).view
abbrev inMem2 (t : Fin cfg2.N) : Memref sig .tc .vmem S2000x128 .f32 := win2_0.stage (cfg2.slots t 0)
abbrev inWhole2 (t : Fin cfg2.N) : (inMem2 t).IsWhole := hstage2_0 ((cfg2.slots t 0).cast nbuf2_0)
abbrev rowMem2 (t : Fin cfg2.N) : Memref sig .tc .vmem S1x128 .f32 := win2_1.stage (cfg2.slots t 1)
abbrev rowWhole2 (t : Fin cfg2.N) : (rowMem2 t).IsWhole := hstage2_1 ((cfg2.slots t 1).cast nbuf2_1)

/-! ## The body's triple, case by case

Each case's stores into the output row are found by running the body symbolically: the list of pieces is the
witness of a subtype whose property is the triple. -/

set_option maxHeartbeats 2000000 in
/-- FIRST point: clear, then add the block's column sums. -/
noncomputable def firstRun2 (c : Dev nD) (i : grid2.Coords) (arg1 : Memref sig .tc .vmem S2000x128 .f32) (harg1 : arg1.IsWhole)
    (arg2 : Memref sig .tc .vmem S1x128 .f32) (harg2 : arg2.IsWhole) (h0 : isFirst2 i) (h1 : ¬isLast2 i)
    (x0 : Vec F S2000x128 .f32) :
    { L1 : List (View.Piece (Elt F) S1x128 .f32) //
      ∀ (E : Set ℕ) (K : PUnit → sProp 𝕄),
        iprop(owns (c : Thread nD τ) arg1 fullShare x0 ∗ (∃ d, owns (c : Thread nD τ) arg2 fullShare d)
            ∗ (iprop(owns (c : Thread nD τ) arg1 fullShare x0 ∗ (∃ f, arg2.view.loc (c : Thread nD τ) ↦[arg2.view.set]{fullShare} arg2.view.writes (Elt F) f L1)) -∗ K ⟨⟩))
          ⊢ wp frame (wpE (defs₀ (F := F)) Variants.none c none) E (cc2__mean_kernel i arg1 harg1 arg2 harg2) K } := by
  refine ⟨?_, fun E K => ?run⟩
  case run =>
    simp only [cc2__mean_kernel_eq_skeleton]; unfold cc2__mean_kernel_skel
    unfold owns
    iintro ⟨⟨%f0, %hf0, H0⟩, ⟨%d1, %f1, -, H1⟩, Hk⟩
    obtain rfl := harg1.eq_unread hf0
    sl_exec (disch := first | exact h0 | exact h1)
    sl_step
    iapply Hk
    isplitl [H0]
    · iexists _; isplitr; · ipureintro; exact harg1.read_unread _
      iexact H0
    iexists _; iexact H1

set_option maxHeartbeats 2000000 in
/-- A MIDDLE point: add the block's column sums to the row as the point before left it (`xo`). -/
noncomputable def midRun2 (c : Dev nD) (i : grid2.Coords) (arg1 : Memref sig .tc .vmem S2000x128 .f32) (harg1 : arg1.IsWhole)
    (arg2 : Memref sig .tc .vmem S1x128 .f32) (harg2 : arg2.IsWhole) (h0 : ¬isFirst2 i) (h1 : ¬isLast2 i)
    (x0 : Vec F S2000x128 .f32) (xo : Vec F S1x128 .f32) :
    { L1 : List (View.Piece (Elt F) S1x128 .f32) //
      ∀ (E : Set ℕ) (K : PUnit → sProp 𝕄),
        iprop(owns (c : Thread nD τ) arg1 fullShare x0 ∗ owns (c : Thread nD τ) arg2 fullShare xo
            ∗ (iprop(owns (c : Thread nD τ) arg1 fullShare x0 ∗ (∃ f, arg2.view.loc (c : Thread nD τ) ↦[arg2.view.set]{fullShare} arg2.view.writes (Elt F) f L1)) -∗ K ⟨⟩))
          ⊢ wp frame (wpE (defs₀ (F := F)) Variants.none c none) E (cc2__mean_kernel i arg1 harg1 arg2 harg2) K } := by
  refine ⟨?_, fun E K => ?run⟩
  case run =>
    simp only [cc2__mean_kernel_eq_skeleton]; unfold cc2__mean_kernel_skel
    unfold owns
    iintro ⟨⟨%f0, %hf0, H0⟩, ⟨%f1, %hf1, H1⟩, Hk⟩
    obtain rfl := harg1.eq_unread hf0; obtain rfl := harg2.eq_unread hf1
    sl_exec (disch := first | exact h0 | exact h1)
    sl_step
    iapply Hk
    isplitl [H0]
    · iexists _; isplitr; · ipureintro; exact harg1.read_unread _
      iexact H0
    iexists _; iexact H1

set_option maxHeartbeats 2000000 in
/-- The LAST point: add the block's column sums to what the point before left, then scale the sums. -/
noncomputable def lastRun2 (c : Dev nD) (i : grid2.Coords) (arg1 : Memref sig .tc .vmem S2000x128 .f32) (harg1 : arg1.IsWhole)
    (arg2 : Memref sig .tc .vmem S1x128 .f32) (harg2 : arg2.IsWhole) (h0 : ¬isFirst2 i) (h1 : isLast2 i)
    (x0 : Vec F S2000x128 .f32) (xo : Vec F S1x128 .f32) :
    { L1 : List (View.Piece (Elt F) S1x128 .f32) //
      ∀ (E : Set ℕ) (K : PUnit → sProp 𝕄),
        iprop(owns (c : Thread nD τ) arg1 fullShare x0 ∗ owns (c : Thread nD τ) arg2 fullShare xo
            ∗ (iprop(owns (c : Thread nD τ) arg1 fullShare x0 ∗ (∃ f, arg2.view.loc (c : Thread nD τ) ↦[arg2.view.set]{fullShare} arg2.view.writes (Elt F) f L1)) -∗ K ⟨⟩))
          ⊢ wp frame (wpE (defs₀ (F := F)) Variants.none c none) E (cc2__mean_kernel i arg1 harg1 arg2 harg2) K } := by
  refine ⟨?_, fun E K => ?run⟩
  case run =>
    simp only [cc2__mean_kernel_eq_skeleton]; unfold cc2__mean_kernel_skel
    unfold owns
    iintro ⟨⟨%f0, %hf0, H0⟩, ⟨%f1, %hf1, H1⟩, Hk⟩
    obtain rfl := harg1.eq_unread hf0; obtain rfl := harg2.eq_unread hf1
    sl_exec (disch := first | exact h0 | exact h1)
    sl_step
    iapply Hk
    isplitl [H0]
    · iexists _; isplitr; · ipureintro; exact harg1.read_unread _
      iexact H0
    iexists _; iexact H1

/-- In every case the stores are of the whole row, so they cover it. -/
theorem firstRun2_cover (c : Dev nD) (i : grid2.Coords) (arg1 : Memref sig .tc .vmem S2000x128 .f32) (harg1 : arg1.IsWhole)
    (arg2 : Memref sig .tc .vmem S1x128 .f32) (harg2 : arg2.IsWhole) (h0 : isFirst2 i) (h1 : ¬isLast2 i)
    (x0 : Vec F S2000x128 .f32) (y : S1x128.Idx) :
    ∃ pc ∈ (firstRun2 c i arg1 harg1 arg2 harg2 h0 h1 x0).1, y ∈ pc.1.set :=
  View.cover_of_tiledL (firstRun2 c i arg1 harg1 arg2 harg2 h0 h1 x0).1 S1x128.size (by sl_kernel_rfl) y
theorem midRun2_cover (c : Dev nD) (i : grid2.Coords) (arg1 : Memref sig .tc .vmem S2000x128 .f32) (harg1 : arg1.IsWhole)
    (arg2 : Memref sig .tc .vmem S1x128 .f32) (harg2 : arg2.IsWhole) (h0 : ¬isFirst2 i) (h1 : ¬isLast2 i)
    (x0 : Vec F S2000x128 .f32) (xo : Vec F S1x128 .f32) (y : S1x128.Idx) :
    ∃ pc ∈ (midRun2 c i arg1 harg1 arg2 harg2 h0 h1 x0 xo).1, y ∈ pc.1.set :=
  View.cover_of_tiledL (midRun2 c i arg1 harg1 arg2 harg2 h0 h1 x0 xo).1 S1x128.size (by sl_kernel_rfl) y
theorem lastRun2_cover (c : Dev nD) (i : grid2.Coords) (arg1 : Memref sig .tc .vmem S2000x128 .f32) (harg1 : arg1.IsWhole)
    (arg2 : Memref sig .tc .vmem S1x128 .f32) (harg2 : arg2.IsWhole) (h0 : ¬isFirst2 i) (h1 : isLast2 i)
    (x0 : Vec F S2000x128 .f32) (xo : Vec F S1x128 .f32) (y : S1x128.Idx) :
    ∃ pc ∈ (lastRun2 c i arg1 harg1 arg2 harg2 h0 h1 x0 xo).1, y ∈ pc.1.set :=
  View.cover_of_tiledL (lastRun2 c i arg1 harg1 arg2 harg2 h0 h1 x0 xo).1 S1x128.size (by sl_kernel_rfl) y

/-- What each case leaves in the output row: its stores read back. -/
def firstRow2 (c : Dev nD) (i : grid2.Coords) (arg1 : Memref sig .tc .vmem S2000x128 .f32) (harg1 : arg1.IsWhole)
    (arg2 : Memref sig .tc .vmem S1x128 .f32) (harg2 : arg2.IsWhole) (h0 : isFirst2 i) (h1 : ¬isLast2 i)
    (x0 : Vec F S2000x128 .f32) : Vec F S1x128 .f32 :=
  rowView2.read (Elt F) (rowView2.writes (Elt F) rowView2.junk (firstRun2 c i arg1 harg1 arg2 harg2 h0 h1 x0).1)
def midRow2 (c : Dev nD) (i : grid2.Coords) (arg1 : Memref sig .tc .vmem S2000x128 .f32) (harg1 : arg1.IsWhole)
    (arg2 : Memref sig .tc .vmem S1x128 .f32) (harg2 : arg2.IsWhole) (h0 : ¬isFirst2 i) (h1 : ¬isLast2 i)
    (x0 : Vec F S2000x128 .f32) (xo : Vec F S1x128 .f32) : Vec F S1x128 .f32 :=
  rowView2.read (Elt F) (rowView2.writes (Elt F) rowView2.junk (midRun2 c i arg1 harg1 arg2 harg2 h0 h1 x0 xo).1)
def lastRow2 (c : Dev nD) (i : grid2.Coords) (arg1 : Memref sig .tc .vmem S2000x128 .f32) (harg1 : arg1.IsWhole)
    (arg2 : Memref sig .tc .vmem S1x128 .f32) (harg2 : arg2.IsWhole) (h0 : ¬isFirst2 i) (h1 : isLast2 i)
    (x0 : Vec F S2000x128 .f32) (xo : Vec F S1x128 .f32) : Vec F S1x128 .f32 :=
  rowView2.read (Elt F) (rowView2.writes (Elt F) rowView2.junk (lastRun2 c i arg1 harg1 arg2 harg2 h0 h1 x0 xo).1)

theorem lt25_2 {n : ℕ} (hn : n < cfg2.N) : n < 25 := lt_of_lt_of_eq hn (show cfg2.N = 25 from N_2)

section
variable (V : (c : Dev nD) → (b : Ref sig .tc) → Buf (Elt F) ((c : Thread nD τ).loc b))

/-- Window `w`'s block at grid point `t`, read off the window's array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The input window's staging buffer holds its block at every point. -/
theorem inBlock2_0 {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-! ## The accumulation -/

/-- What the output row holds after the body at point `n`: the first point's case at 0; afterwards the middle
    or the last case over what point `n - 1` left. -/
def rowAfter2 (c : Dev nD) : (n : ℕ) → n < cfg2.N → Vec F S1x128 .f32
  | 0, hn => firstRow2 c (grid2.coords ⟨0, hn⟩) (inMem2 ⟨0, hn⟩) (inWhole2 ⟨0, hn⟩) (rowMem2 ⟨0, hn⟩) (rowWhole2 ⟨0, hn⟩)
      ((isFirst2_iff ⟨0, hn⟩).mpr (Nat.zero_mod _)) (fun h => by have := (isLast2_iff ⟨0, hn⟩).mp h; dsimp only at this; omega) (iblk2 V c 0 ⟨0, hn⟩)
  | n + 1, hn =>
    if hl : (n + 1) % 25 = 24 then
      lastRow2 c (grid2.coords ⟨n + 1, hn⟩) (inMem2 ⟨n + 1, hn⟩) (inWhole2 ⟨n + 1, hn⟩) (rowMem2 ⟨n + 1, hn⟩) (rowWhole2 ⟨n + 1, hn⟩)
        (fun h => by have := (isFirst2_iff ⟨n + 1, hn⟩).mp h; have := lt25_2 hn; dsimp only at *; omega) ((isLast2_iff ⟨n + 1, hn⟩).mpr hl)
        (iblk2 V c 0 ⟨n + 1, hn⟩) (rowAfter2 c n (Nat.lt_of_succ_lt hn))
    else
      midRow2 c (grid2.coords ⟨n + 1, hn⟩) (inMem2 ⟨n + 1, hn⟩) (inWhole2 ⟨n + 1, hn⟩) (rowMem2 ⟨n + 1, hn⟩) (rowWhole2 ⟨n + 1, hn⟩)
        (fun h => by have := (isFirst2_iff ⟨n + 1, hn⟩).mp h; have := lt25_2 hn; dsimp only at *; omega) (fun h => hl ((isLast2_iff ⟨n + 1, hn⟩).mp h))
        (iblk2 V c 0 ⟨n + 1, hn⟩) (rowAfter2 c n (Nat.lt_of_succ_lt hn))

theorem rowAfter2_first (c : Dev nD) (t : Fin cfg2.N) (h0 : t.val % 25 = 0) (hf : isFirst2 (grid2.coords t)) (hl : ¬isLast2 (grid2.coords t)) :
    rowAfter2 V c t.val t.isLt = firstRow2 c (grid2.coords t) (inMem2 t) (inWhole2 t) (rowMem2 t) (rowWhole2 t) hf hl (iblk2 V c 0 t) := by
  obtain ⟨n, hn⟩ := t
  have := lt25_2 hn
  cases n with
  | zero => exact rfl
  | succ n => exact absurd h0 (by dsimp only; omega)

theorem rowAfter2_mid (c : Dev nD) (t : Fin cfg2.N) (h0 : ¬t.val % 25 = 0) (h1 : ¬t.val % 25 = 24) (hf : ¬isFirst2 (grid2.coords t)) (hl : ¬isLast2 (grid2.coords t)) :
    rowAfter2 V c t.val t.isLt = midRow2 c (grid2.coords t) (inMem2 t) (inWhole2 t) (rowMem2 t) (rowWhole2 t) hf hl (iblk2 V c 0 t)
      (rowAfter2 V c (t.val - 1) (Nat.lt_of_le_of_lt (Nat.sub_le _ _) t.isLt)) := by
  obtain ⟨n, hn⟩ := t
  cases n with
  | zero => exact absurd (Nat.zero_mod _) h0
  | succ n => exact (dif_neg h1).trans rfl

theorem rowAfter2_last (c : Dev nD) (t : Fin cfg2.N) (h0 : ¬t.val % 25 = 0) (h1 : t.val % 25 = 24) (hf : ¬isFirst2 (grid2.coords t)) (hl : isLast2 (grid2.coords t)) :
    rowAfter2 V c t.val t.isLt = lastRow2 c (grid2.coords t) (inMem2 t) (inWhole2 t) (rowMem2 t) (rowWhole2 t) hf hl (iblk2 V c 0 t)
      (rowAfter2 V c (t.val - 1) (Nat.lt_of_le_of_lt (Nat.sub_le _ _) t.isLt)) := by
  obtain ⟨n, hn⟩ := t
  cases n with
  | zero => exact absurd (Nat.zero_mod _) h0
  | succ n => exact (dif_pos h1).trans rfl

/-! ## The pipeline's proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => rowAfter2 V c t.val t.isLt
  Φ _ := Pipeline.ΦA spec2 c
  q _ := fullShare
  owed _ := 0

theorem dat2_A (c : Dev nD) (w : Fin cfg2.W) : (dat2 V c).A w = V c (Pipeline.arrRef spec2 w) := by
  dsimp only [dat2]
theorem dat2_after_0 (c : Dev nD) (t : Fin cfg2.N) : (dat2 V c).after 0 t = iblk2 V c 0 t := by dsimp only [dat2]
theorem dat2_after_1 (c : Dev nD) (t : Fin cfg2.N) : (dat2 V c).after 1 t = rowAfter2 V c t.val t.isLt := by dsimp only [dat2]
theorem dat2_before_0 (c : Dev nD) (t : Fin cfg2.N) (d) : (dat2 V c).before 0 t d = iblk2 V c 0 t :=
  inBlock2_0 V (dat2 V c) (dat2_A V c 0) (dat2_after_0 V c) t d

/-- After the first point the output row's buffer holds what the body left at the point before: the pipeline
    writes the row back only after the last point. -/
theorem dat2_before_1 (c : Dev nD) (t : Fin cfg2.N) (h0 : ¬t.val % 25 = 0) (d) :
    (dat2 V c).before 1 t d = rowAfter2 V c (t.val - 1) (Nat.lt_of_le_of_lt (Nat.sub_le _ _) t.isLt) := by
  have hN : t.val < 25 := lt25_2 t.isLt
  rw [Dat.before_out_kept _ 1 rfl t (by omega) (Bool.eq_false_iff.mpr fun h => by have := (flush2_1 _).mp h; dsimp only at this; omega)
    (fun _ => rfl) (fun _ _ => rfl)]
  dsimp only [dat2]

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (inMem2 t) fullShare ((dat2 V c).before 0 t d))
    ∗ (∃ d, owns (c : Thread nD τ) (rowMem2 t) fullShare ((dat2 V c).before 1 t d)))

def bodyPost2 (c : Dev nD) (t : Fin cfg2.N) : sProp 𝕄 :=
  iprop((dat2 V c).Φ t.succ ∗ (dat2 V c).owesAt () t.succ
    ∗ owns (c : Thread nD τ) (inMem2 t) fullShare ((dat2 V c).after 0 t)
    ∗ owns (c : Thread nD τ) (rowMem2 t) fullShare ((dat2 V c).after 1 t))

set_option maxHeartbeats 2000000 in
/-- The body at any point: the grid coordinate says which case the point is in; after the first point the
    output row's buffer holds what the point before left. -/
theorem bodySound2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [dat2_before_0]
  rw [show (dat2 V c).Φ t.succ = (dat2 V c).Φ t.castSucc from rfl,
    show (dat2 V c).owesAt () t.succ = (dat2 V c).owesAt () t.castSucc from rfl,
    dat2_after_0, dat2_after_1]
  have hN : t.val < 25 := lt25_2 t.isLt
  by_cases h0 : t.val % 25 = 0
  · have hf : isFirst2 (grid2.coords t) := (isFirst2_iff t).mpr h0
    have hl : ¬isLast2 (grid2.coords t) := fun h => by have := (isLast2_iff t).mp h; omega
    rw [rowAfter2_first V c t h0 hf hl]
    unfold firstRow2
    iintro ⟨HΦ, Ho, ⟨%d0, H0⟩, ⟨%d1, H1⟩⟩
    iapply ((firstRun2 c (grid2.coords t) _ _ _ _ hf hl (iblk2 V c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (firstRun2_cover c _ _ _ _ _ _ _ _)
  · have hf : ¬isFirst2 (grid2.coords t) := fun h => h0 ((isFirst2_iff t).mp h)
    simp only [dat2_before_1 V c t h0]
    by_cases h1 : t.val % 25 = 24
    · have hl : isLast2 (grid2.coords t) := (isLast2_iff t).mpr h1
      rw [rowAfter2_last V c t h0 h1 hf hl]
      unfold lastRow2
      iintro ⟨HΦ, Ho, ⟨%d0, H0⟩, ⟨%d1, H1⟩⟩
      iapply ((lastRun2 c (grid2.coords t) _ _ _ _ hf hl (iblk2 V c 0 t) _).2 Set.univ _)
      isplitl [H0]; · iexact H0
      isplitl [H1]; · iexact H1
      iintro ⟨H0, ⟨%e1, H1⟩⟩
      isplitl [HΦ]; · iexact HΦ
      isplitl [Ho]; · iexact Ho
      isplitl [H0]; · iexact H0
      unfold owns; iexists _; isplitr
      swap; · iexact H1
      ipureintro; exact View.read_writes_of_cover _ _ _ _ _ (lastRun2_cover c _ _ _ _ _ _ _ _ _)
    · have hl : ¬isLast2 (grid2.coords t) := fun h => h1 ((isLast2_iff t).mp h)
      rw [rowAfter2_mid V c t h0 h1 hf hl]
      unfold midRow2
      iintro ⟨HΦ, Ho, ⟨%d0, H0⟩, ⟨%d1, H1⟩⟩
      iapply ((midRun2 c (grid2.coords t) _ _ _ _ hf hl (iblk2 V c 0 t) _).2 Set.univ _)
      isplitl [H0]; · iexact H0
      isplitl [H1]; · iexact H1
      iintro ⟨H0, ⟨%e1, H1⟩⟩
      isplitl [HΦ]; · iexact HΦ
      isplitl [Ho]; · iexact Ho
      isplitl [H0]; · iexact H0
      unfold owns; iexists _; isplitr
      swap; · iexact H1
      ipureintro; exact View.read_writes_of_cover _ _ _ _ _ (midRun2_cover c _ _ _ _ _ _ _ _ _)

theorem bodyObligation2 (c : Dev nD) : BodyObligation (dat2 (F := F) V c) (defs₀ (F := F)) Variants.none () Set.univ := fun t => by
  rw [bigSep_W2, bigSep_W2]
  exact bodySound2 V c t

end

/-! ## What the region's arrays hold at its exit -/

theorem exitArr2 (V V' : (c : Dev nD) → (b : Ref sig .tc) → Buf (Elt F) ((c : Thread nD τ).loc b)) (c : Dev nD)
    (hkeep : ∀ r : Ref sig .tc, r ∉ ([main_v107] : List (Ref sig .tc)) → V' c r = V c r)
    (hout : V' c main_v107 = (dat2 V c).arrAt 1 cfg2.N) (w : Fin cfg2.W) :
    (dat2 V c).arrAt w cfg2.N = V' c (Pipeline.arrRef spec2 w) := by
  match w with
  | ⟨0, _⟩ => exact (((dat2 V c).arrAt_in 0 rfl _).trans (dat2_A V c 0)).trans (hkeep main_v106 (by decide)).symm
  | ⟨1, _⟩ => exact hout.symm

theorem exitRest2 (V V' : (c : Dev nD) → (b : Ref sig .tc) → Buf (Elt F) ((c : Thread nD τ).loc b)) (c : Dev nD)
    (hkeep : ∀ r : Ref sig .tc, r ∉ ([main_v107] : List (Ref sig .tc)) → V' c r = V c r) :
    ∀ b, b ∉ Finset.univ.image (Pipeline.arrRef spec2) → V' c b = V c b :=
  fun b hb => hkeep b (fun h => by
    rcases List.mem_singleton.mp h with rfl
    exact hb (Finset.mem_image.mpr ⟨1, Finset.mem_univ _, rfl⟩))

end Cert.Kernel.Hand

end
-- ==== Proof.K.Run.lean ====
/-
  The whole program's run, from the three regions' halves.

  @main is ten items in a row: five stretches of host operations, the first matmul region, a stretch, the
  second matmul region, the mean region, a last stretch. Between two items a core holds every unscoped buffer
  at a VALUATION: the launch contents, then each stretch's operations applied in order, then at each region's
  output array what that region's pipeline leaves there (`left0`, `left1`, `left2`: the fold of its
  write-backs). Each region is entered from the valuation before it and left at the one after it; chaining
  the ten items gives: every weakly fair execution terminates, and at the end every unscoped buffer holds the
  last valuation's contents (`run_main`). The argument arrays are written by no item, so they end as
  launched (`frame`).
-/
import proofs.«132460_j26242250179009_1_alg».proof.Proof.Gen.Kernel.Launch
import proofs.«132460_j26242250179009_1_alg».proof.Proof.Gen.Kernel.Skeleton
import proofs.«132460_j26242250179009_1_alg».proof.Proof.Gen.Kernel.Points
import proofs.«132460_j26242250179009_1_alg».proof.Proof.Gen.Kernel.Regions
import proofs.«132460_j26242250179009_1_alg».proof.Proof.K.Cheb0
import proofs.«132460_j26242250179009_1_alg».proof.Proof.K.Cheb1
import proofs.«132460_j26242250179009_1_alg».proof.Proof.K.Mean2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## What the regions leave, and the valuations between the items -/

/-- A choice of contents for the three arrays the regions write: `o6` for the first matmul region's output,
    `o8` for the second's, `o9` for the mean's; any other buffer (never read at these points) its launch
    contents. -/
def pick (o6 : (c : Dev nD) → Buf (Elt F) ((c : Thread nD τ).loc main_v69))
    (o8 : (c : Dev nD) → Buf (Elt F) ((c : Thread nD τ).loc main_v106))
    (o9 : (c : Dev nD) → Buf (Elt F) ((c : Thread nD τ).loc main_v107)) : Outs (F := F) :=
  fun _ r c =>
    if h : r = main_v69 then h ▸ o6 c
    else if h : r = main_v106 then h ▸ o8 c
    else if h : r = main_v107 then h ▸ o9 c
    else m ((c : Thread nD τ).loc r)

theorem pick_69 (o6 o8 o9) (J : ℕ) (c : Dev nD) : pick m o6 o8 o9 J main_v69 c = o6 c := by
  unfold pick; rw [dif_pos rfl]
theorem pick_106 (o6 o8 o9) (J : ℕ) (c : Dev nD) : pick m o6 o8 o9 J main_v106 c = o8 c := by
  unfold pick; rw [dif_neg (by decide), dif_pos rfl]
theorem pick_107 (o6 o8 o9) (J : ℕ) (c : Dev nD) : pick m o6 o8 o9 J main_v107 c = o9 c := by
  unfold pick; rw [dif_neg (by decide), dif_neg (by decide), dif_pos rfl]

/-- The buffers as the first matmul region finds them, read at the TensorCore's references. -/
abbrev at5 (c : Dev nD) (b : Ref sig .tc) : Buf (Elt F) ((c : Thread nD τ).loc b) := V5 m c b
/-- What the first matmul region leaves in its output array. -/
def left0 (c : Dev nD) : Buf (Elt F) ((c : Thread nD τ).loc main_v69) := (dat0 (at5 m) c).arrAt 3 cfg0.N

/-- The valuations up to the second matmul region depend only on `left0`. -/
def outsA : Outs (F := F) := pick m (left0 m) (fun c => m _) (fun c => m _)
abbrev at7 (c : Dev nD) (b : Ref sig .tc) : Buf (Elt F) ((c : Thread nD τ).loc b) := V7 m (outsA m) c b
/-- What the second matmul region leaves in its output array. -/
def left1 (c : Dev nD) : Buf (Elt F) ((c : Thread nD τ).loc main_v106) := (dat1 (at7 m) c).arrAt 3 cfg1.N

def outsB : Outs (F := F) := pick m (left0 m) (left1 m) (fun c => m _)
abbrev at8 (c : Dev nD) (b : Ref sig .tc) : Buf (Elt F) ((c : Thread nD τ).loc b) := V8 m (outsB m) c b
/-- What the mean region leaves in its output row. -/
def left2 (c : Dev nD) : Buf (Elt F) ((c : Thread nD τ).loc main_v107) := (dat2 (at8 m) c).arrAt 1 cfg2.N

/-- What the three regions leave. -/
def outs : Outs (F := F) := pick m (left0 m) (left1 m) (left2 m)

theorem V7_stage (c : Dev nD) : V7 m (outs m) c = V7 m (outsA m) c := by
  dsimp only [V7, V6]; unfold outs outsA; rw [pick_69, pick_69]
theorem V8_stage (c : Dev nD) : V8 m (outs m) c = V8 m (outsB m) c := by
  dsimp only [V8, V7, V6]; unfold outs outsB; rw [pick_69, pick_69, pick_106, pick_106]

/-- The valuations after each region, read at the TensorCore's references. -/
abbrev at6 (c : Dev nD) (b : Ref sig .tc) : Buf (Elt F) ((c : Thread nD τ).loc b) := V6 m (outs m) c b
abbrev at8o (c : Dev nD) (b : Ref sig .tc) : Buf (Elt F) ((c : Thread nD τ).loc b) := V8 m (outs m) c b
abbrev at9 (c : Dev nD) (b : Ref sig .tc) : Buf (Elt F) ((c : Thread nD τ).loc b) := V9 m (outs m) c b

theorem at6_keep (c : Dev nD) (r : Ref sig .tc) (h : r ∉ ([main_v69] : List (Ref sig .tc))) : at6 m c r = at5 m c r :=
  V6_of m (outs m) c r h
theorem at6_out (c : Dev nD) : at6 m c main_v69 = (dat0 (at5 m) c).arrAt 3 cfg0.N := by
  show Function.update (V5 m c) (Proc.devRef .tc main_v69) (outs m 6 main_v69 c) (Proc.devRef .tc main_v69) = _
  rw [Function.update_self]; unfold outs; rw [pick_69]; rfl
theorem at8o_keep (c : Dev nD) (r : Ref sig .tc) (h : r ∉ ([main_v106] : List (Ref sig .tc))) : at8o m c r = at7 m c r :=
  (V8_of m (outs m) c r h).trans (congrFun (V7_stage m c) _)
theorem at8o_out (c : Dev nD) : at8o m c main_v106 = (dat1 (at7 m) c).arrAt 3 cfg1.N := by
  show Function.update (V7 m (outs m) c) (Proc.devRef .tc main_v106) (outs m 8 main_v106 c) (Proc.devRef .tc main_v106) = _
  rw [Function.update_self]; unfold outs; rw [pick_106]; rfl
theorem at9_keep (c : Dev nD) (r : Ref sig .tc) (h : r ∉ ([main_v107] : List (Ref sig .tc))) : at9 m c r = at8 m c r :=
  (V9_of m (outs m) c r h).trans (congrFun (V8_stage m c) _)
theorem at9_out (c : Dev nD) : at9 m c main_v107 = (dat2 (at8 m) c).arrAt 1 cfg2.N := by
  show Function.update (V8 m (outs m) c) (Proc.devRef .tc main_v107) (outs m 9 main_v107 c) (Proc.devRef .tc main_v107) = _
  rw [Function.update_self]; unfold outs; rw [pick_107]; rfl

/-! ## The proof data family and the thread state -/

/-- Every pipeline's proof data, each at its region's entry contents. -/
def pdats : (p : Fin 3) → (c : Dev nD) → Dat τ (Elt F) Unit ℕ (UR sig nD τ) ℕ (cfgs p) c
  | ⟨0, _⟩ => fun c => dat0 (at5 m) c
  | ⟨1, _⟩ => fun c => dat1 (at7 m) c
  | ⟨2, _⟩ => fun c => dat2 (at8 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at
    nothing. -/
abbrev R (c : Dev nD) : sProp 𝕄 := iprop((∃ r, prngReg c r) ∗ ∃ W, owes (c : Thread nD τ) (0 : CellTallies nD τ sig Unit) W)

/-- At region 0's exit each of its arrays holds the exit valuation's contents, and every other buffer is as the
    region found it. -/
theorem exit0_arr (c : Dev nD) (w : Fin cfg0.W) :
    (pdats m 0 c).arrAt w cfg0.N = at6 m c (Pipeline.arrRef spec0 w) :=
  exitArr0 (at5 m) (at6 m) c (at6_keep m c) (at6_out m c) w
theorem exit0_rest (c : Dev nD) : ∀ b, b ∉ Finset.univ.image (Pipeline.arrRef spec0) → at6 m c b = at5 m c b :=
  exitRest0 (at5 m) (at6 m) c (at6_keep m c)

set_option backward.isDefEq.respectTransparency.types false in
/-- REGION 0 as a segment: entered with every unscoped buffer at the entry valuation, left with them at the exit
    valuation; its arrays are split out of the unscoped buffers and put back; the generator register goes into
    the pipeline's invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (bodyObligation0 (at5 m) c).loose
  hwaits := Pipeline.hwaits_of_owed_zero _ _ _ _ L lv 0 fun _ _ => rfl
  pre c := iprop(StableHlo.held (c : Thread nD τ) (Pipeline.ucRefs τ sig) (V5 m c) ∗ R c)
  post c := iprop(StableHlo.held (c : Thread nD τ) (Pipeline.ucRefs τ sig) (V6 m (outs m) c) ∗ R c)
  X c := iprop(∃ r, prngReg c r)
  Y c := iprop(∃ r, prngReg c r)
  Z c := Pipeline.unscopedRest (Ix := Unit) (Name := ℕ) (U := UR sig nD τ) (Lvl := ℕ) spec0 c (at5 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (at5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (at5 m c) (at6 m c) ((pdats m 0 c).arrAt · cfg0.N) (exit0_arr m c) (exit0_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At region 1's exit each of its arrays holds the exit valuation's contents, and every other buffer is as the
    region found it. -/
theorem exit1_arr (c : Dev nD) (w : Fin cfg1.W) :
    (pdats m 1 c).arrAt w cfg1.N = at8o m c (Pipeline.arrRef spec1 w) :=
  exitArr1 (at7 m) (at8o m) c (at8o_keep m c) (at8o_out m c) w
theorem exit1_rest (c : Dev nD) : ∀ b, b ∉ Finset.univ.image (Pipeline.arrRef spec1) → at8o m c b = at7 m c b :=
  exitRest1 (at7 m) (at8o m) c (at8o_keep m c)

set_option backward.isDefEq.respectTransparency.types false in
/-- REGION 1 as a segment: entered with every unscoped buffer at the entry valuation, left with them at the exit
    valuation; its arrays are split out of the unscoped buffers and put back; the generator register goes into
    the pipeline's invariant and comes out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (bodyObligation1 (at7 m) c).loose
  hwaits := Pipeline.hwaits_of_owed_zero _ _ _ _ L lv 1 fun _ _ => rfl
  pre c := iprop(StableHlo.held (c : Thread nD τ) (Pipeline.ucRefs τ sig) (V7 m (outsA m) c) ∗ R c)
  post c := iprop(StableHlo.held (c : Thread nD τ) (Pipeline.ucRefs τ sig) (V8 m (outs m) c) ∗ R c)
  X c := iprop(∃ r, prngReg c r)
  Y c := iprop(∃ r, prngReg c r)
  Z c := Pipeline.unscopedRest (Ix := Unit) (Name := ℕ) (U := UR sig nD τ) (Lvl := ℕ) spec1 c (at7 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (at7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (at7 m c) (at8o m c) ((pdats m 1 c).arrAt · cfg1.N) (exit1_arr m c) (exit1_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At region 2's exit each of its arrays holds the exit valuation's contents, and every other buffer is as the
    region found it. -/
theorem exit2_arr (c : Dev nD) (w : Fin cfg2.W) :
    (pdats m 2 c).arrAt w cfg2.N = at9 m c (Pipeline.arrRef spec2 w) :=
  exitArr2 (at8 m) (at9 m) c (at9_keep m c) (at9_out m c) w
theorem exit2_rest (c : Dev nD) : ∀ b, b ∉ Finset.univ.image (Pipeline.arrRef spec2) → at9 m c b = at8 m c b :=
  exitRest2 (at8 m) (at9 m) c (at9_keep m c)

set_option backward.isDefEq.respectTransparency.types false in
/-- REGION 2 as a segment: entered with every unscoped buffer at the entry valuation, left with them at the exit
    valuation; its arrays are split out of the unscoped buffers and put back; the generator register goes into
    the pipeline's invariant and comes out; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (bodyObligation2 (at8 m) c).loose
  hwaits := Pipeline.hwaits_of_owed_zero _ _ _ _ L lv 2 fun _ _ => rfl
  pre c := iprop(StableHlo.held (c : Thread nD τ) (Pipeline.ucRefs τ sig) (V8 m (outsB m) c) ∗ R c)
  post c := iprop(StableHlo.held (c : Thread nD τ) (Pipeline.ucRefs τ sig) (V9 m (outs m) c) ∗ R c)
  X c := iprop(∃ r, prngReg c r)
  Y c := iprop(∃ r, prngReg c r)
  Z c := Pipeline.unscopedRest (Ix := Unit) (Name := ℕ) (U := UR sig nD τ) (Lvl := ℕ) spec2 c (at8 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (at8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (at8 m c) (at9 m c) ((pdats m 2 c).arrAt · cfg2.N) (exit2_arr m c) (exit2_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

variable (ρ : Dev nD → PrngReg)

set_option backward.isDefEq.respectTransparency.types false in
/-- Every weakly fair execution of @main from memory `m` with zero counters terminates, and at the end every
    unscoped buffer of every core holds the last valuation's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = V10 m (outs m) c b) := by
  refine Pipeline.θ_run_regions_kit_dev (pcfgs (F := F)) adm (pdats m) () cellOf_inj emb₁ defs₀ 𝒱₀ L lv m ρ main
    (segs m (outs m) 𝒱₀ L lv (fun _ => R) () (pdats m) (reg0 m) (reg1 m) (reg2 m))
    (fun c Q => by
      rewrite [main_chain c, Seg.run_eq_chain,
        show (segs m (outs m) 𝒱₀ L lv (fun _ => R) () (pdats m) (reg0 m) (reg1 m) (reg2 m) c).map Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          StableHlo.seq hostOps1,
          Prog.lift (.customCall (Pipeline.entry 1) ()),
          Prog.lift (.customCall (Pipeline.entry 2) ()),
          StableHlo.seq hostOps3 ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => StableHlo.held (c : Thread nD τ) (Pipeline.ucRefs τ sig) (V10 m (outs m) c))
    (hch := fun c => ⟨.rfl, .rfl, .rfl, .rfl, .rfl, .rfl, .rfl,
      (by
        show (iprop(StableHlo.held (c : Thread nD τ) (Pipeline.ucRefs τ sig) (V7 m (outs m) c) ∗ R c) : sProp 𝕄)
          ⊢ iprop(StableHlo.held (c : Thread nD τ) (Pipeline.ucRefs τ sig) (V7 m (outsA m) c) ∗ R c)
        rw [V7_stage]),
      (by
        show (iprop(StableHlo.held (c : Thread nD τ) (Pipeline.ucRefs τ sig) (V8 m (outs m) c) ∗ R c) : sProp 𝕄)
          ⊢ iprop(StableHlo.held (c : Thread nD τ) (Pipeline.ucRefs τ sig) (V8 m (outsB m) c) ∗ R c)
        rw [V8_stage]), .rfl,
      sep_mono .rfl (by iintro ⟨-, H⟩; iexact H)⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V10 m (outs m) c b)
    (hfin := fun c s' => by
      iintro ⟨Hh, HSI⟩
      unfold StableHlo.held
      imodintro
      iapply (pointsTo_read_all (Pipeline.ucRefs τ sig) (fun b => (((c : Thread nD τ)).1, b)) (V10 m (outs m) c) s')
      isplitl [Hh] <;> iassumption)
    (hQ := fun _ h => h)

/-- An unscoped TensorCore reference is among those the last thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE FRAME: every weakly fair execution terminates and every argument array ends as launched — no item of
    @main writes one. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨(h c _ (mem_uc main_arg0 (by decide))).trans (V10_main_arg0 m (outs m) c),
     (h c _ (mem_uc main_arg1 (by decide))).trans (V10_main_arg1 m (outs m) c),
     (h c _ (mem_uc main_arg2 (by decide))).trans (V10_main_arg2 m (outs m) c),
     (h c _ (mem_uc main_arg3 (by decide))).trans (V10_main_arg3 m (outs m) c),
     (h c _ (mem_uc main_arg4 (by decide))).trans (V10_main_arg4 m (outs m) c),
     (h c _ (mem_uc main_arg5 (by decide))).trans (V10_main_arg5 m (outs m) c),
     (h c _ (mem_uc main_arg6 (by decide))).trans (V10_main_arg6 m (outs m) c),
     (h c _ (mem_uc main_arg7 (by decide))).trans (V10_main_arg7 m (outs m) c)⟩) (run_main m ρ)

end Cert.Kernel.Hand

end
-- ==== Proof.KI.Cheb0.lean ====
/-
  Region 0 of the program: one Chebyshev layer's contraction, tiled over 25 blocks of 2000 rows.

  At grid point `t` the body sees block `t` of the stacked basis (three slabs of 2000 × 128), the whole weight
  stack (three slabs of 128 × 128) and the bias row, and writes block `t` of the output: the three slab
  products accumulated from zero, the bias added to every row, the rectifier. Nothing is carried from one
  point to the next, so what the output block holds after the body is one function of the three input
  blocks (`blockOut0`), and the proof data of the pipeline says exactly that at every point.
  Everything is stated at a parameter `V`: the buffers' contents when the region is entered.
-/
import proofs.«132460_j26242250179009_1_alg».proof.Proof.Gen.KernelIdeal.Launch
import proofs.«132460_j26242250179009_1_alg».proof.Proof.Gen.KernelIdeal.Skeleton
import proofs.«132460_j26242250179009_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section
variable (V : (c : Dev nD) → (b : Ref sig .tc) → Buf (Elt F) ((c : Thread nD τ).loc b))

/-- Window `w`'s block at grid point `t`, read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, whether the pipeline fetched it there or
    kept it from an earlier point (the weights and the bias are fetched once: their block index never moves). -/
theorem inBlock0_0 {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem inBlock0_1 {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem inBlock0_2 {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes through -/

/-- Slab `k` of the basis block (2000 rows), slab `k` of the weights, the bias row, the whole output block. -/
abbrev rX0_0 : Rect S3x2000x128 := Rect.unit (s := S3x2000x128) ![0, 0, 0] S1x2000x128.size inb_S3x2000x128_S1x2000x128_0_0_0
abbrev rX0_1 : Rect S3x2000x128 := Rect.unit (s := S3x2000x128) ![1, 0, 0] S1x2000x128.size inb_S3x2000x128_S1x2000x128_1_0_0
abbrev rX0_2 : Rect S3x2000x128 := Rect.unit (s := S3x2000x128) ![2, 0, 0] S1x2000x128.size inb_S3x2000x128_S1x2000x128_2_0_0
abbrev rW0_0 : Rect S3x128x128 := Rect.unit (s := S3x128x128) ![0, 0, 0] S1x128x128.size inb_S3x128x128_S1x128x128_0_0_0
abbrev rW0_1 : Rect S3x128x128 := Rect.unit (s := S3x128x128) ![1, 0, 0] S1x128x128.size inb_S3x128x128_S1x128x128_1_0_0
abbrev rW0_2 : Rect S3x128x128 := Rect.unit (s := S3x128x128) ![2, 0, 0] S1x128x128.size inb_S3x128x128_S1x128x128_2_0_0
abbrev rB0 : Rect S1x128 := Rect.unit (s := S1x128) ![0, 0] S1x128.size inb_S1x128_S1x128_0_0
abbrev rO0 : Rect S2000x128 := Rect.unit (s := S2000x128) ![0, 0] S2000x128.size inb_S2000x128_S2000x128_0_0

/-- What the body leaves in the output block's buffer, from the three input blocks: its one store, of the
    layer's arithmetic on the slabs it loaded. -/
def blockOut0 (x0 : Vec F S3x2000x128 .bf16) (x1 : Vec F S3x128x128 .bf16) (x2 : Vec F S1x128 .f32) : Vec F S2000x128 .f32 :=
  View.canon [⟨rO0, k0_pay1 (View.ld x0 rX0_0) (View.ld x1 rW0_0) (View.ld x0 rX0_1) (View.ld x1 rW0_1) (View.ld x0 rX0_2) (View.ld x1 rW0_2) (View.ld x2 rB0)⟩]

/-- The one store is of the whole block, so it covers the buffer. -/
theorem blockOut0_cover (p0 : Vec F S2000x128 .f32) (y : S2000x128.Idx) :
    ∃ pc ∈ ([⟨rO0, p0⟩] : List (View.Piece (Elt F) S2000x128 .f32)), y ∈ pc.1.set :=
  View.cover_of_tiled [⟨rO0, p0⟩] S2000x128.size (by rfl) y

/-! ## The body's triple -/

set_option maxHeartbeats 4000000 in
/-- On whole staging memrefs — the inputs' holding `x0`, `x1`, `x2`, the output's anything — the body runs to its
    continuation with the inputs as they were and the output's buffer at `blockOut0 x0 x1 x2`. -/
theorem bodyTriple0 (c : Dev nD) (E : Set ℕ) (i : grid0.Coords)
    (arg1 : Memref sig .tc .vmem S3x2000x128 .bf16) (harg1 : arg1.IsWhole) (arg2 : Memref sig .tc .vmem S3x128x128 .bf16) (harg2 : arg2.IsWhole)
    (arg3 : Memref sig .tc .vmem S1x128 .f32) (harg3 : arg3.IsWhole) (arg4 : Memref sig .tc .vmem S2000x128 .f32) (harg4 : arg4.IsWhole)
    (x0 : Vec F S3x2000x128 .bf16) (x1 : Vec F S3x128x128 .bf16) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (blockOut0 x0 x1 x2)) -∗ K ⟨⟩))
      ⊢ wp frame (wpE (defs₀ (F := F)) Variants.none c none) E (cc0__cheb_matmul_kernel i arg1 harg1 arg2 harg2 arg3 harg3 arg4 harg4) K := by
  simp only [cc0__cheb_matmul_kernel_eq_skeleton]; unfold cc0__cheb_matmul_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (blockOut0_cover _)

/-! ## The pipeline's proof data -/

/-- The arrays are what the region finds; after the body at point `t` each input's buffer still holds its
    block and the output's holds `blockOut0` of the three blocks; the invariant is the scoped rest and the
    generator register, untouched; nothing is owed; shares are full. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => blockOut0 (iblk0 V c 0 t) (iblk0 V c 1 t) (iblk0 V c 2 t)
  Φ _ := Pipeline.ΦA spec0 c
  q _ := fullShare
  owed _ := 0

theorem dat0_A (c : Dev nD) (w : Fin cfg0.W) : (dat0 V c).A w = V c (Pipeline.arrRef spec0 w) := by
  dsimp only [dat0]

theorem dat0_after_0 (c : Dev nD) (t : Fin cfg0.N) : (dat0 V c).after 0 t = iblk0 V c 0 t := by dsimp only [dat0]
theorem dat0_after_1 (c : Dev nD) (t : Fin cfg0.N) : (dat0 V c).after 1 t = iblk0 V c 1 t := by dsimp only [dat0]
theorem dat0_after_2 (c : Dev nD) (t : Fin cfg0.N) : (dat0 V c).after 2 t = iblk0 V c 2 t := by dsimp only [dat0]
theorem dat0_after_3 (c : Dev nD) (t : Fin cfg0.N) :
    (dat0 V c).after 3 t = blockOut0 (iblk0 V c 0 t) (iblk0 V c 1 t) (iblk0 V c 2 t) := by dsimp only [dat0]

theorem dat0_before_0 (c : Dev nD) (t : Fin cfg0.N) (d) : (dat0 V c).before 0 t d = iblk0 V c 0 t :=
  inBlock0_0 V (dat0 V c) (dat0_A V c 0) (dat0_after_0 V c) t d
theorem dat0_before_1 (c : Dev nD) (t : Fin cfg0.N) (d) : (dat0 V c).before 1 t d = iblk0 V c 1 t :=
  inBlock0_1 V (dat0 V c) (dat0_A V c 1) (dat0_after_1 V c) t d
theorem dat0_before_2 (c : Dev nD) (t : Fin cfg0.N) (d) : (dat0 V c).before 2 t d = iblk0 V c 2 t :=
  inBlock0_2 V (dat0 V c) (dat0_A V c 2) (dat0_after_2 V c) t d

/-! ## The body obligation -/

/-- What the pipeline calls the body with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it must give back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

set_option maxHeartbeats 2000000 in
/-- The body at any point: the inputs' buffers hold their blocks, so the triple applies; the invariant and the
    core's dues pass through unread. -/
theorem bodySound0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [dat0_before_0, dat0_before_1, dat0_before_2]
  rw [show (dat0 V c).Φ t.succ = (dat0 V c).Φ t.castSucc from rfl,
    show (dat0 V c).owesAt () t.succ = (dat0 V c).owesAt () t.castSucc from rfl,
    dat0_after_0, dat0_after_1, dat0_after_2, dat0_after_3]
  iintro ⟨HΦ, Ho, ⟨%d0, H0⟩, ⟨%d1, H1⟩, ⟨%d2, H2⟩, ⟨%d3, H3⟩⟩
  iapply (bodyTriple0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem bodyObligation0 (c : Dev nD) : BodyObligation (dat0 (F := F) V c) (defs₀ (F := F)) Variants.none () Set.univ := fun t => by
  rw [bigSep_W0, bigSep_W0]
  exact bodySound0 V c t

end

/-! ## What the region's arrays hold at its exit -/

/-- If `V'` agrees with `V` off the output array and holds the write-backs' fold at it, then at the region's exit
    every array of the pipeline holds `V'`'s contents: an input array is left as it was found. -/
theorem exitArr0 (V V' : (c : Dev nD) → (b : Ref sig .tc) → Buf (Elt F) ((c : Thread nD τ).loc b)) (c : Dev nD)
    (hkeep : ∀ r : Ref sig .tc, r ∉ ([main_v69] : List (Ref sig .tc)) → V' c r = V c r)
    (hout : V' c main_v69 = (dat0 V c).arrAt 3 cfg0.N) (w : Fin cfg0.W) :
    (dat0 V c).arrAt w cfg0.N = V' c (Pipeline.arrRef spec0 w) := by
  match w with
  | ⟨0, _⟩ => exact (((dat0 V c).arrAt_in 0 rfl _).trans (dat0_A V c 0)).trans (hkeep main_v66 (by decide)).symm
  | ⟨1, _⟩ => exact (((dat0 V c).arrAt_in 1 rfl _).trans (dat0_A V c 1)).trans (hkeep main_v67 (by decide)).symm
  | ⟨2, _⟩ => exact (((dat0 V c).arrAt_in 2 rfl _).trans (dat0_A V c 2)).trans (hkeep main_v68 (by decide)).symm
  | ⟨3, _⟩ => exact hout.symm

theorem exitRest0 (V V' : (c : Dev nD) → (b : Ref sig .tc) → Buf (Elt F) ((c : Thread nD τ).loc b)) (c : Dev nD)
    (hkeep : ∀ r : Ref sig .tc, r ∉ ([main_v69] : List (Ref sig .tc)) → V' c r = V c r) :
    ∀ b, b ∉ Finset.univ.image (Pipeline.arrRef spec0) → V' c b = V c b :=
  fun b hb => hkeep b (fun h => by
    rcases List.mem_singleton.mp h with rfl
    exact hb (Finset.mem_image.mpr ⟨3, Finset.mem_univ _, rfl⟩))

end Cert.KernelIdeal.Hand

end
-- ==== Proof.KI.Cheb1.lean ====
/-
  Region 1 of the program: one Chebyshev layer's contraction, tiled over 25 blocks of 2000 rows.

  At grid point `t` the body sees block `t` of the stacked basis (three slabs of 2000 × 128), the whole weight
  stack (three slabs of 128 × 128) and the bias row, and writes block `t` of the output: the three slab
  products accumulated from zero, the bias added to every row, the rectifier. Nothing is carried from one
  point to the next, so what the output block holds after the body is one function of the three input
  blocks (`blockOut1`), and the proof data of the pipeline says exactly that at every point.
  Everything is stated at a parameter `V`: the buffers' contents when the region is entered.
-/
import proofs.«132460_j26242250179009_1_alg».proof.Proof.Gen.KernelIdeal.Launch
import proofs.«132460_j26242250179009_1_alg».proof.Proof.Gen.KernelIdeal.Skeleton
import proofs.«132460_j26242250179009_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section
variable (V : (c : Dev nD) → (b : Ref sig .tc) → Buf (Elt F) ((c : Thread nD τ).loc b))

/-- Window `w`'s block at grid point `t`, read off the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, whether the pipeline fetched it there or
    kept it from an earlier point (the weights and the bias are fetched once: their block index never moves). -/
theorem inBlock1_0 {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem inBlock1_1 {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem inBlock1_2 {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the body reads and writes through -/

/-- Slab `k` of the basis block (2000 rows), slab `k` of the weights, the bias row, the whole output block. -/
abbrev rX1_0 : Rect S3x2000x128 := Rect.unit (s := S3x2000x128) ![0, 0, 0] S1x2000x128.size inb_S3x2000x128_S1x2000x128_0_0_0
abbrev rX1_1 : Rect S3x2000x128 := Rect.unit (s := S3x2000x128) ![1, 0, 0] S1x2000x128.size inb_S3x2000x128_S1x2000x128_1_0_0
abbrev rX1_2 : Rect S3x2000x128 := Rect.unit (s := S3x2000x128) ![2, 0, 0] S1x2000x128.size inb_S3x2000x128_S1x2000x128_2_0_0
abbrev rW1_0 : Rect S3x128x128 := Rect.unit (s := S3x128x128) ![0, 0, 0] S1x128x128.size inb_S3x128x128_S1x128x128_0_0_0
abbrev rW1_1 : Rect S3x128x128 := Rect.unit (s := S3x128x128) ![1, 0, 0] S1x128x128.size inb_S3x128x128_S1x128x128_1_0_0
abbrev rW1_2 : Rect S3x128x128 := Rect.unit (s := S3x128x128) ![2, 0, 0] S1x128x128.size inb_S3x128x128_S1x128x128_2_0_0
abbrev rB1 : Rect S1x128 := Rect.unit (s := S1x128) ![0, 0] S1x128.size inb_S1x128_S1x128_0_0
abbrev rO1 : Rect S2000x128 := Rect.unit (s := S2000x128) ![0, 0] S2000x128.size inb_S2000x128_S2000x128_0_0

/-- What the body leaves in the output block's buffer, from the three input blocks: its one store, of the
    layer's arithmetic on the slabs it loaded. -/
def blockOut1 (x0 : Vec F S3x2000x128 .bf16) (x1 : Vec F S3x128x128 .bf16) (x2 : Vec F S1x128 .f32) : Vec F S2000x128 .f32 :=
  View.canon [⟨rO1, k1_pay1 (View.ld x0 rX1_0) (View.ld x1 rW1_0) (View.ld x0 rX1_1) (View.ld x1 rW1_1) (View.ld x0 rX1_2) (View.ld x1 rW1_2) (View.ld x2 rB1)⟩]

/-- The one store is of the whole block, so it covers the buffer. -/
theorem blockOut1_cover (p0 : Vec F S2000x128 .f32) (y : S2000x128.Idx) :
    ∃ pc ∈ ([⟨rO1, p0⟩] : List (View.Piece (Elt F) S2000x128 .f32)), y ∈ pc.1.set :=
  View.cover_of_tiled [⟨rO1, p0⟩] S2000x128.size (by rfl) y

/-! ## The body's triple -/

set_option maxHeartbeats 4000000 in
/-- On whole staging memrefs — the inputs' holding `x0`, `x1`, `x2`, the output's anything — the body runs to its
    continuation with the inputs as they were and the output's buffer at `blockOut1 x0 x1 x2`. -/
theorem bodyTriple1 (c : Dev nD) (E : Set ℕ) (i : grid1.Coords)
    (arg1 : Memref sig .tc .vmem S3x2000x128 .bf16) (harg1 : arg1.IsWhole) (arg2 : Memref sig .tc .vmem S3x128x128 .bf16) (harg2 : arg2.IsWhole)
    (arg3 : Memref sig .tc .vmem S1x128 .f32) (harg3 : arg3.IsWhole) (arg4 : Memref sig .tc .vmem S2000x128 .f32) (harg4 : arg4.IsWhole)
    (x0 : Vec F S3x2000x128 .bf16) (x1 : Vec F S3x128x128 .bf16) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (blockOut1 x0 x1 x2)) -∗ K ⟨⟩))
      ⊢ wp frame (wpE (defs₀ (F := F)) Variants.none c none) E (cc1__cheb_matmul_kernel i arg1 harg1 arg2 harg2 arg3 harg3 arg4 harg4) K := by
  simp only [cc1__cheb_matmul_kernel_eq_skeleton]; unfold cc1__cheb_matmul_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (blockOut1_cover _)

/-! ## The pipeline's proof data -/

/-- The arrays are what the region finds; after the body at point `t` each input's buffer still holds its
    block and the output's holds `blockOut1` of the three blocks; the invariant is the scoped rest and the
    generator register, untouched; nothing is owed; shares are full. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => blockOut1 (iblk1 V c 0 t) (iblk1 V c 1 t) (iblk1 V c 2 t)
  Φ _ := Pipeline.ΦA spec1 c
  q _ := fullShare
  owed _ := 0

theorem dat1_A (c : Dev nD) (w : Fin cfg1.W) : (dat1 V c).A w = V c (Pipeline.arrRef spec1 w) := by
  dsimp only [dat1]

theorem dat1_after_0 (c : Dev nD) (t : Fin cfg1.N) : (dat1 V c).after 0 t = iblk1 V c 0 t := by dsimp only [dat1]
theorem dat1_after_1 (c : Dev nD) (t : Fin cfg1.N) : (dat1 V c).after 1 t = iblk1 V c 1 t := by dsimp only [dat1]
theorem dat1_after_2 (c : Dev nD) (t : Fin cfg1.N) : (dat1 V c).after 2 t = iblk1 V c 2 t := by dsimp only [dat1]
theorem dat1_after_3 (c : Dev nD) (t : Fin cfg1.N) :
    (dat1 V c).after 3 t = blockOut1 (iblk1 V c 0 t) (iblk1 V c 1 t) (iblk1 V c 2 t) := by dsimp only [dat1]

theorem dat1_before_0 (c : Dev nD) (t : Fin cfg1.N) (d) : (dat1 V c).before 0 t d = iblk1 V c 0 t :=
  inBlock1_0 V (dat1 V c) (dat1_A V c 0) (dat1_after_0 V c) t d
theorem dat1_before_1 (c : Dev nD) (t : Fin cfg1.N) (d) : (dat1 V c).before 1 t d = iblk1 V c 1 t :=
  inBlock1_1 V (dat1 V c) (dat1_A V c 1) (dat1_after_1 V c) t d
theorem dat1_before_2 (c : Dev nD) (t : Fin cfg1.N) (d) : (dat1 V c).before 2 t d = iblk1 V c 2 t :=
  inBlock1_2 V (dat1 V c) (dat1_A V c 2) (dat1_after_2 V c) t d

/-! ## The body obligation -/

/-- What the pipeline calls the body with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it must give back. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

set_option maxHeartbeats 2000000 in
/-- The body at any point: the inputs' buffers hold their blocks, so the triple applies; the invariant and the
    core's dues pass through unread. -/
theorem bodySound1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [dat1_before_0, dat1_before_1, dat1_before_2]
  rw [show (dat1 V c).Φ t.succ = (dat1 V c).Φ t.castSucc from rfl,
    show (dat1 V c).owesAt () t.succ = (dat1 V c).owesAt () t.castSucc from rfl,
    dat1_after_0, dat1_after_1, dat1_after_2, dat1_after_3]
  iintro ⟨HΦ, Ho, ⟨%d0, H0⟩, ⟨%d1, H1⟩, ⟨%d2, H2⟩, ⟨%d3, H3⟩⟩
  iapply (bodyTriple1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem bodyObligation1 (c : Dev nD) : BodyObligation (dat1 (F := F) V c) (defs₀ (F := F)) Variants.none () Set.univ := fun t => by
  rw [bigSep_W1, bigSep_W1]
  exact bodySound1 V c t

end

/-! ## What the region's arrays hold at its exit -/

/-- If `V'` agrees with `V` off the output array and holds the write-backs' fold at it, then at the region's exit
    every array of the pipeline holds `V'`'s contents: an input array is left as it was found. -/
theorem exitArr1 (V V' : (c : Dev nD) → (b : Ref sig .tc) → Buf (Elt F) ((c : Thread nD τ).loc b)) (c : Dev nD)
    (hkeep : ∀ r : Ref sig .tc, r ∉ ([main_v106] : List (Ref sig .tc)) → V' c r = V c r)
    (hout : V' c main_v106 = (dat1 V c).arrAt 3 cfg1.N) (w : Fin cfg1.W) :
    (dat1 V c).arrAt w cfg1.N = V' c (Pipeline.arrRef spec1 w) := by
  match w with
  | ⟨0, _⟩ => exact (((dat1 V c).arrAt_in 0 rfl _).trans (dat1_A V c 0)).trans (hkeep main_v103 (by decide)).symm
  | ⟨1, _⟩ => exact (((dat1 V c).arrAt_in 1 rfl _).trans (dat1_A V c 1)).trans (hkeep main_v104 (by decide)).symm
  | ⟨2, _⟩ => exact (((dat1 V c).arrAt_in 2 rfl _).trans (dat1_A V c 2)).trans (hkeep main_v105 (by decide)).symm
  | ⟨3, _⟩ => exact hout.symm

theorem exitRest1 (V V' : (c : Dev nD) → (b : Ref sig .tc) → Buf (Elt F) ((c : Thread nD τ).loc b)) (c : Dev nD)
    (hkeep : ∀ r : Ref sig .tc, r ∉ ([main_v106] : List (Ref sig .tc)) → V' c r = V c r) :
    ∀ b, b ∉ Finset.univ.image (Pipeline.arrRef spec1) → V' c b = V c b :=
  fun b hb => hkeep b (fun h => by
    rcases List.mem_singleton.mp h with rfl
    exact hb (Finset.mem_image.mpr ⟨3, Finset.mem_univ _, rfl⟩))

end Cert.KernelIdeal.Hand

end
-- ==== Proof.KI.Mean2.lean ====
/-
  Region 2 of the program: the mean over the 50000 rows, accumulated over 25 grid points in ONE output block.

  The output window is a single row of 128 columns whose block index never moves, so the pipeline keeps its
  buffer from point to point and writes it back only after the last one. At the first point the body clears
  the row and adds the column sums of its 2000-row block; at each later point it adds the block's column sums
  to what the point before left; at the last point it also multiplies the finished sums by the reciprocal of
  the row count. So there are three control cases, decided by the grid coordinate alone, and what the row
  holds after point `t` is defined by recursion on `t` (`rowAfter2`).
  Everything is stated at a parameter `V`: the buffers' contents when the region is entered.
-/
import proofs.«132460_j26242250179009_1_alg».proof.Proof.Gen.KernelIdeal.Launch
import proofs.«132460_j26242250179009_1_alg».proof.Proof.Gen.KernelIdeal.Skeleton
import proofs.«132460_j26242250179009_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The two conditions of the body, from the grid coordinate -/

/-- "This is the first point": the body's first conditional, its scalar chain spelled out. -/
abbrev isFirst2 (i : grid2.Coords) : Prop :=
  (Scalar.cmpi .ne (Scalar.extui (Scalar.cmpi .eq (BitVec.ofNat 32 (i 0).val) 0#32)) 0#32) = 1#1
/-- "This is the last point": the body's second conditional. -/
abbrev isLast2 (i : grid2.Coords) : Prop :=
  (Scalar.cmpi .ne (Scalar.extui (Scalar.cmpi .eq (BitVec.ofNat 32 (i 0).val) 24#32)) 0#32) = 1#1

theorem isFirst2_iff : ∀ t : Fin cfg2.N, isFirst2 (grid2.coords t) ↔ t.val % 25 = 0 :=
  (by decide +kernel : ∀ t : Fin grid2.N, isFirst2 (grid2.coords t) ↔ t.val % 25 = 0)
theorem isLast2_iff : ∀ t : Fin cfg2.N, isLast2 (grid2.coords t) ↔ t.val % 25 = 24 :=
  (by decide +kernel : ∀ t : Fin grid2.N, isLast2 (grid2.coords t) ↔ t.val % 25 = 24)

/-! ## The staging memrefs at a point -/

/-- One buffer of the output window, through which its contents are stated (any view of the shape reads the
    same once the stores cover it). -/
abbrev rowView2 : View sig .tc .vmem S1x128 .f32 := (Memref.whole cc2_stg1_0 : Memref sig .tc .vmem S1x128 .f32).view
abbrev inMem2 (t : Fin cfg2.N) : Memref sig .tc .vmem S2000x128 .f32 := win2_0.stage (cfg2.slots t 0)
abbrev inWhole2 (t : Fin cfg2.N) : (inMem2 t).IsWhole := hstage2_0 ((cfg2.slots t 0).cast nbuf2_0)
abbrev rowMem2 (t : Fin cfg2.N) : Memref sig .tc .vmem S1x128 .f32 := win2_1.stage (cfg2.slots t 1)
abbrev rowWhole2 (t : Fin cfg2.N) : (rowMem2 t).IsWhole := hstage2_1 ((cfg2.slots t 1).cast nbuf2_1)

/-! ## The body's triple, case by case

Each case's stores into the output row are found by running the body symbolically: the list of pieces is the
witness of a subtype whose property is the triple. -/

set_option maxHeartbeats 2000000 in
/-- FIRST point: clear, then add the block's column sums. -/
noncomputable def firstRun2 (c : Dev nD) (i : grid2.Coords) (arg1 : Memref sig .tc .vmem S2000x128 .f32) (harg1 : arg1.IsWhole)
    (arg2 : Memref sig .tc .vmem S1x128 .f32) (harg2 : arg2.IsWhole) (h0 : isFirst2 i) (h1 : ¬isLast2 i)
    (x0 : Vec F S2000x128 .f32) :
    { L1 : List (View.Piece (Elt F) S1x128 .f32) //
      ∀ (E : Set ℕ) (K : PUnit → sProp 𝕄),
        iprop(owns (c : Thread nD τ) arg1 fullShare x0 ∗ (∃ d, owns (c : Thread nD τ) arg2 fullShare d)
            ∗ (iprop(owns (c : Thread nD τ) arg1 fullShare x0 ∗ (∃ f, arg2.view.loc (c : Thread nD τ) ↦[arg2.view.set]{fullShare} arg2.view.writes (Elt F) f L1)) -∗ K ⟨⟩))
          ⊢ wp frame (wpE (defs₀ (F := F)) Variants.none c none) E (cc2__mean_kernel i arg1 harg1 arg2 harg2) K } := by
  refine ⟨?_, fun E K => ?run⟩
  case run =>
    simp only [cc2__mean_kernel_eq_skeleton]; unfold cc2__mean_kernel_skel
    unfold owns
    iintro ⟨⟨%f0, %hf0, H0⟩, ⟨%d1, %f1, -, H1⟩, Hk⟩
    obtain rfl := harg1.eq_unread hf0
    sl_exec (disch := first | exact h0 | exact h1)
    sl_step
    iapply Hk
    isplitl [H0]
    · iexists _; isplitr; · ipureintro; exact harg1.read_unread _
      iexact H0
    iexists _; iexact H1

set_option maxHeartbeats 2000000 in
/-- A MIDDLE point: add the block's column sums to the row as the point before left it (`xo`). -/
noncomputable def midRun2 (c : Dev nD) (i : grid2.Coords) (arg1 : Memref sig .tc .vmem S2000x128 .f32) (harg1 : arg1.IsWhole)
    (arg2 : Memref sig .tc .vmem S1x128 .f32) (harg2 : arg2.IsWhole) (h0 : ¬isFirst2 i) (h1 : ¬isLast2 i)
    (x0 : Vec F S2000x128 .f32) (xo : Vec F S1x128 .f32) :
    { L1 : List (View.Piece (Elt F) S1x128 .f32) //
      ∀ (E : Set ℕ) (K : PUnit → sProp 𝕄),
        iprop(owns (c : Thread nD τ) arg1 fullShare x0 ∗ owns (c : Thread nD τ) arg2 fullShare xo
            ∗ (iprop(owns (c : Thread nD τ) arg1 fullShare x0 ∗ (∃ f, arg2.view.loc (c : Thread nD τ) ↦[arg2.view.set]{fullShare} arg2.view.writes (Elt F) f L1)) -∗ K ⟨⟩))
          ⊢ wp frame (wpE (defs₀ (F := F)) Variants.none c none) E (cc2__mean_kernel i arg1 harg1 arg2 harg2) K } := by
  refine ⟨?_, fun E K => ?run⟩
  case run =>
    simp only [cc2__mean_kernel_eq_skeleton]; unfold cc2__mean_kernel_skel
    unfold owns
    iintro ⟨⟨%f0, %hf0, H0⟩, ⟨%f1, %hf1, H1⟩, Hk⟩
    obtain rfl := harg1.eq_unread hf0; obtain rfl := harg2.eq_unread hf1
    sl_exec (disch := first | exact h0 | exact h1)
    sl_step
    iapply Hk
    isplitl [H0]
    · iexists _; isplitr; · ipureintro; exact harg1.read_unread _
      iexact H0
    iexists _; iexact H1

set_option maxHeartbeats 2000000 in
/-- The LAST point: add the block's column sums to what the point before left, then scale the sums. -/
noncomputable def lastRun2 (c : Dev nD) (i : grid2.Coords) (arg1 : Memref sig .tc .vmem S2000x128 .f32) (harg1 : arg1.IsWhole)
    (arg2 : Memref sig .tc .vmem S1x128 .f32) (harg2 : arg2.IsWhole) (h0 : ¬isFirst2 i) (h1 : isLast2 i)
    (x0 : Vec F S2000x128 .f32) (xo : Vec F S1x128 .f32) :
    { L1 : List (View.Piece (Elt F) S1x128 .f32) //
      ∀ (E : Set ℕ) (K : PUnit → sProp 𝕄),
        iprop(owns (c : Thread nD τ) arg1 fullShare x0 ∗ owns (c : Thread nD τ) arg2 fullShare xo
            ∗ (iprop(owns (c : Thread nD τ) arg1 fullShare x0 ∗ (∃ f, arg2.view.loc (c : Thread nD τ) ↦[arg2.view.set]{fullShare} arg2.view.writes (Elt F) f L1)) -∗ K ⟨⟩))
          ⊢ wp frame (wpE (defs₀ (F := F)) Variants.none c none) E (cc2__mean_kernel i arg1 harg1 arg2 harg2) K } := by
  refine ⟨?_, fun E K => ?run⟩
  case run =>
    simp only [cc2__mean_kernel_eq_skeleton]; unfold cc2__mean_kernel_skel
    unfold owns
    iintro ⟨⟨%f0, %hf0, H0⟩, ⟨%f1, %hf1, H1⟩, Hk⟩
    obtain rfl := harg1.eq_unread hf0; obtain rfl := harg2.eq_unread hf1
    sl_exec (disch := first | exact h0 | exact h1)
    sl_step
    iapply Hk
    isplitl [H0]
    · iexists _; isplitr; · ipureintro; exact harg1.read_unread _
      iexact H0
    iexists _; iexact H1

/-- In every case the stores are of the whole row, so they cover it. -/
theorem firstRun2_cover (c : Dev nD) (i : grid2.Coords) (arg1 : Memref sig .tc .vmem S2000x128 .f32) (harg1 : arg1.IsWhole)
    (arg2 : Memref sig .tc .vmem S1x128 .f32) (harg2 : arg2.IsWhole) (h0 : isFirst2 i) (h1 : ¬isLast2 i)
    (x0 : Vec F S2000x128 .f32) (y : S1x128.Idx) :
    ∃ pc ∈ (firstRun2 c i arg1 harg1 arg2 harg2 h0 h1 x0).1, y ∈ pc.1.set :=
  View.cover_of_tiledL (firstRun2 c i arg1 harg1 arg2 harg2 h0 h1 x0).1 S1x128.size (by sl_kernel_rfl) y
theorem midRun2_cover (c : Dev nD) (i : grid2.Coords) (arg1 : Memref sig .tc .vmem S2000x128 .f32) (harg1 : arg1.IsWhole)
    (arg2 : Memref sig .tc .vmem S1x128 .f32) (harg2 : arg2.IsWhole) (h0 : ¬isFirst2 i) (h1 : ¬isLast2 i)
    (x0 : Vec F S2000x128 .f32) (xo : Vec F S1x128 .f32) (y : S1x128.Idx) :
    ∃ pc ∈ (midRun2 c i arg1 harg1 arg2 harg2 h0 h1 x0 xo).1, y ∈ pc.1.set :=
  View.cover_of_tiledL (midRun2 c i arg1 harg1 arg2 harg2 h0 h1 x0 xo).1 S1x128.size (by sl_kernel_rfl) y
theorem lastRun2_cover (c : Dev nD) (i : grid2.Coords) (arg1 : Memref sig .tc .vmem S2000x128 .f32) (harg1 : arg1.IsWhole)
    (arg2 : Memref sig .tc .vmem S1x128 .f32) (harg2 : arg2.IsWhole) (h0 : ¬isFirst2 i) (h1 : isLast2 i)
    (x0 : Vec F S2000x128 .f32) (xo : Vec F S1x128 .f32) (y : S1x128.Idx) :
    ∃ pc ∈ (lastRun2 c i arg1 harg1 arg2 harg2 h0 h1 x0 xo).1, y ∈ pc.1.set :=
  View.cover_of_tiledL (lastRun2 c i arg1 harg1 arg2 harg2 h0 h1 x0 xo).1 S1x128.size (by sl_kernel_rfl) y

/-- What each case leaves in the output row: its stores read back. -/
def firstRow2 (c : Dev nD) (i : grid2.Coords) (arg1 : Memref sig .tc .vmem S2000x128 .f32) (harg1 : arg1.IsWhole)
    (arg2 : Memref sig .tc .vmem S1x128 .f32) (harg2 : arg2.IsWhole) (h0 : isFirst2 i) (h1 : ¬isLast2 i)
    (x0 : Vec F S2000x128 .f32) : Vec F S1x128 .f32 :=
  rowView2.read (Elt F) (rowView2.writes (Elt F) rowView2.junk (firstRun2 c i arg1 harg1 arg2 harg2 h0 h1 x0).1)
def midRow2 (c : Dev nD) (i : grid2.Coords) (arg1 : Memref sig .tc .vmem S2000x128 .f32) (harg1 : arg1.IsWhole)
    (arg2 : Memref sig .tc .vmem S1x128 .f32) (harg2 : arg2.IsWhole) (h0 : ¬isFirst2 i) (h1 : ¬isLast2 i)
    (x0 : Vec F S2000x128 .f32) (xo : Vec F S1x128 .f32) : Vec F S1x128 .f32 :=
  rowView2.read (Elt F) (rowView2.writes (Elt F) rowView2.junk (midRun2 c i arg1 harg1 arg2 harg2 h0 h1 x0 xo).1)
def lastRow2 (c : Dev nD) (i : grid2.Coords) (arg1 : Memref sig .tc .vmem S2000x128 .f32) (harg1 : arg1.IsWhole)
    (arg2 : Memref sig .tc .vmem S1x128 .f32) (harg2 : arg2.IsWhole) (h0 : ¬isFirst2 i) (h1 : isLast2 i)
    (x0 : Vec F S2000x128 .f32) (xo : Vec F S1x128 .f32) : Vec F S1x128 .f32 :=
  rowView2.read (Elt F) (rowView2.writes (Elt F) rowView2.junk (lastRun2 c i arg1 harg1 arg2 harg2 h0 h1 x0 xo).1)

theorem lt25_2 {n : ℕ} (hn : n < cfg2.N) : n < 25 := lt_of_lt_of_eq hn (show cfg2.N = 25 from N_2)

section
variable (V : (c : Dev nD) → (b : Ref sig .tc) → Buf (Elt F) ((c : Thread nD τ).loc b))

/-- Window `w`'s block at grid point `t`, read off the window's array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The input window's staging buffer holds its block at every point. -/
theorem inBlock2_0 {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-! ## The accumulation -/

/-- What the output row holds after the body at point `n`: the first point's case at 0; afterwards the middle
    or the last case over what point `n - 1` left. -/
def rowAfter2 (c : Dev nD) : (n : ℕ) → n < cfg2.N → Vec F S1x128 .f32
  | 0, hn => firstRow2 c (grid2.coords ⟨0, hn⟩) (inMem2 ⟨0, hn⟩) (inWhole2 ⟨0, hn⟩) (rowMem2 ⟨0, hn⟩) (rowWhole2 ⟨0, hn⟩)
      ((isFirst2_iff ⟨0, hn⟩).mpr (Nat.zero_mod _)) (fun h => by have := (isLast2_iff ⟨0, hn⟩).mp h; dsimp only at this; omega) (iblk2 V c 0 ⟨0, hn⟩)
  | n + 1, hn =>
    if hl : (n + 1) % 25 = 24 then
      lastRow2 c (grid2.coords ⟨n + 1, hn⟩) (inMem2 ⟨n + 1, hn⟩) (inWhole2 ⟨n + 1, hn⟩) (rowMem2 ⟨n + 1, hn⟩) (rowWhole2 ⟨n + 1, hn⟩)
        (fun h => by have := (isFirst2_iff ⟨n + 1, hn⟩).mp h; have := lt25_2 hn; dsimp only at *; omega) ((isLast2_iff ⟨n + 1, hn⟩).mpr hl)
        (iblk2 V c 0 ⟨n + 1, hn⟩) (rowAfter2 c n (Nat.lt_of_succ_lt hn))
    else
      midRow2 c (grid2.coords ⟨n + 1, hn⟩) (inMem2 ⟨n + 1, hn⟩) (inWhole2 ⟨n + 1, hn⟩) (rowMem2 ⟨n + 1, hn⟩) (rowWhole2 ⟨n + 1, hn⟩)
        (fun h => by have := (isFirst2_iff ⟨n + 1, hn⟩).mp h; have := lt25_2 hn; dsimp only at *; omega) (fun h => hl ((isLast2_iff ⟨n + 1, hn⟩).mp h))
        (iblk2 V c 0 ⟨n + 1, hn⟩) (rowAfter2 c n (Nat.lt_of_succ_lt hn))

theorem rowAfter2_first (c : Dev nD) (t : Fin cfg2.N) (h0 : t.val % 25 = 0) (hf : isFirst2 (grid2.coords t)) (hl : ¬isLast2 (grid2.coords t)) :
    rowAfter2 V c t.val t.isLt = firstRow2 c (grid2.coords t) (inMem2 t) (inWhole2 t) (rowMem2 t) (rowWhole2 t) hf hl (iblk2 V c 0 t) := by
  obtain ⟨n, hn⟩ := t
  have := lt25_2 hn
  cases n with
  | zero => exact rfl
  | succ n => exact absurd h0 (by dsimp only; omega)

theorem rowAfter2_mid (c : Dev nD) (t : Fin cfg2.N) (h0 : ¬t.val % 25 = 0) (h1 : ¬t.val % 25 = 24) (hf : ¬isFirst2 (grid2.coords t)) (hl : ¬isLast2 (grid2.coords t)) :
    rowAfter2 V c t.val t.isLt = midRow2 c (grid2.coords t) (inMem2 t) (inWhole2 t) (rowMem2 t) (rowWhole2 t) hf hl (iblk2 V c 0 t)
      (rowAfter2 V c (t.val - 1) (Nat.lt_of_le_of_lt (Nat.sub_le _ _) t.isLt)) := by
  obtain ⟨n, hn⟩ := t
  cases n with
  | zero => exact absurd (Nat.zero_mod _) h0
  | succ n => exact (dif_neg h1).trans rfl

theorem rowAfter2_last (c : Dev nD) (t : Fin cfg2.N) (h0 : ¬t.val % 25 = 0) (h1 : t.val % 25 = 24) (hf : ¬isFirst2 (grid2.coords t)) (hl : isLast2 (grid2.coords t)) :
    rowAfter2 V c t.val t.isLt = lastRow2 c (grid2.coords t) (inMem2 t) (inWhole2 t) (rowMem2 t) (rowWhole2 t) hf hl (iblk2 V c 0 t)
      (rowAfter2 V c (t.val - 1) (Nat.lt_of_le_of_lt (Nat.sub_le _ _) t.isLt)) := by
  obtain ⟨n, hn⟩ := t
  cases n with
  | zero => exact absurd (Nat.zero_mod _) h0
  | succ n => exact (dif_pos h1).trans rfl

/-! ## The pipeline's proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => rowAfter2 V c t.val t.isLt
  Φ _ := Pipeline.ΦA spec2 c
  q _ := fullShare
  owed _ := 0

theorem dat2_A (c : Dev nD) (w : Fin cfg2.W) : (dat2 V c).A w = V c (Pipeline.arrRef spec2 w) := by
  dsimp only [dat2]
theorem dat2_after_0 (c : Dev nD) (t : Fin cfg2.N) : (dat2 V c).after 0 t = iblk2 V c 0 t := by dsimp only [dat2]
theorem dat2_after_1 (c : Dev nD) (t : Fin cfg2.N) : (dat2 V c).after 1 t = rowAfter2 V c t.val t.isLt := by dsimp only [dat2]
theorem dat2_before_0 (c : Dev nD) (t : Fin cfg2.N) (d) : (dat2 V c).before 0 t d = iblk2 V c 0 t :=
  inBlock2_0 V (dat2 V c) (dat2_A V c 0) (dat2_after_0 V c) t d

/-- After the first point the output row's buffer holds what the body left at the point before: the pipeline
    writes the row back only after the last point. -/
theorem dat2_before_1 (c : Dev nD) (t : Fin cfg2.N) (h0 : ¬t.val % 25 = 0) (d) :
    (dat2 V c).before 1 t d = rowAfter2 V c (t.val - 1) (Nat.lt_of_le_of_lt (Nat.sub_le _ _) t.isLt) := by
  have hN : t.val < 25 := lt25_2 t.isLt
  rw [Dat.before_out_kept _ 1 rfl t (by omega) (Bool.eq_false_iff.mpr fun h => by have := (flush2_1 _).mp h; dsimp only at this; omega)
    (fun _ => rfl) (fun _ _ => rfl)]
  dsimp only [dat2]

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (inMem2 t) fullShare ((dat2 V c).before 0 t d))
    ∗ (∃ d, owns (c : Thread nD τ) (rowMem2 t) fullShare ((dat2 V c).before 1 t d)))

def bodyPost2 (c : Dev nD) (t : Fin cfg2.N) : sProp 𝕄 :=
  iprop((dat2 V c).Φ t.succ ∗ (dat2 V c).owesAt () t.succ
    ∗ owns (c : Thread nD τ) (inMem2 t) fullShare ((dat2 V c).after 0 t)
    ∗ owns (c : Thread nD τ) (rowMem2 t) fullShare ((dat2 V c).after 1 t))

set_option maxHeartbeats 2000000 in
/-- The body at any point: the grid coordinate says which case the point is in; after the first point the
    output row's buffer holds what the point before left. -/
theorem bodySound2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [dat2_before_0]
  rw [show (dat2 V c).Φ t.succ = (dat2 V c).Φ t.castSucc from rfl,
    show (dat2 V c).owesAt () t.succ = (dat2 V c).owesAt () t.castSucc from rfl,
    dat2_after_0, dat2_after_1]
  have hN : t.val < 25 := lt25_2 t.isLt
  by_cases h0 : t.val % 25 = 0
  · have hf : isFirst2 (grid2.coords t) := (isFirst2_iff t).mpr h0
    have hl : ¬isLast2 (grid2.coords t) := fun h => by have := (isLast2_iff t).mp h; omega
    rw [rowAfter2_first V c t h0 hf hl]
    unfold firstRow2
    iintro ⟨HΦ, Ho, ⟨%d0, H0⟩, ⟨%d1, H1⟩⟩
    iapply ((firstRun2 c (grid2.coords t) _ _ _ _ hf hl (iblk2 V c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (firstRun2_cover c _ _ _ _ _ _ _ _)
  · have hf : ¬isFirst2 (grid2.coords t) := fun h => h0 ((isFirst2_iff t).mp h)
    simp only [dat2_before_1 V c t h0]
    by_cases h1 : t.val % 25 = 24
    · have hl : isLast2 (grid2.coords t) := (isLast2_iff t).mpr h1
      rw [rowAfter2_last V c t h0 h1 hf hl]
      unfold lastRow2
      iintro ⟨HΦ, Ho, ⟨%d0, H0⟩, ⟨%d1, H1⟩⟩
      iapply ((lastRun2 c (grid2.coords t) _ _ _ _ hf hl (iblk2 V c 0 t) _).2 Set.univ _)
      isplitl [H0]; · iexact H0
      isplitl [H1]; · iexact H1
      iintro ⟨H0, ⟨%e1, H1⟩⟩
      isplitl [HΦ]; · iexact HΦ
      isplitl [Ho]; · iexact Ho
      isplitl [H0]; · iexact H0
      unfold owns; iexists _; isplitr
      swap; · iexact H1
      ipureintro; exact View.read_writes_of_cover _ _ _ _ _ (lastRun2_cover c _ _ _ _ _ _ _ _ _)
    · have hl : ¬isLast2 (grid2.coords t) := fun h => h1 ((isLast2_iff t).mp h)
      rw [rowAfter2_mid V c t h0 h1 hf hl]
      unfold midRow2
      iintro ⟨HΦ, Ho, ⟨%d0, H0⟩, ⟨%d1, H1⟩⟩
      iapply ((midRun2 c (grid2.coords t) _ _ _ _ hf hl (iblk2 V c 0 t) _).2 Set.univ _)
      isplitl [H0]; · iexact H0
      isplitl [H1]; · iexact H1
      iintro ⟨H0, ⟨%e1, H1⟩⟩
      isplitl [HΦ]; · iexact HΦ
      isplitl [Ho]; · iexact Ho
      isplitl [H0]; · iexact H0
      unfold owns; iexists _; isplitr
      swap; · iexact H1
      ipureintro; exact View.read_writes_of_cover _ _ _ _ _ (midRun2_cover c _ _ _ _ _ _ _ _ _)

theorem bodyObligation2 (c : Dev nD) : BodyObligation (dat2 (F := F) V c) (defs₀ (F := F)) Variants.none () Set.univ := fun t => by
  rw [bigSep_W2, bigSep_W2]
  exact bodySound2 V c t

end

/-! ## What the region's arrays hold at its exit -/

theorem exitArr2 (V V' : (c : Dev nD) → (b : Ref sig .tc) → Buf (Elt F) ((c : Thread nD τ).loc b)) (c : Dev nD)
    (hkeep : ∀ r : Ref sig .tc, r ∉ ([main_v107] : List (Ref sig .tc)) → V' c r = V c r)
    (hout : V' c main_v107 = (dat2 V c).arrAt 1 cfg2.N) (w : Fin cfg2.W) :
    (dat2 V c).arrAt w cfg2.N = V' c (Pipeline.arrRef spec2 w) := by
  match w with
  | ⟨0, _⟩ => exact (((dat2 V c).arrAt_in 0 rfl _).trans (dat2_A V c 0)).trans (hkeep main_v106 (by decide)).symm
  | ⟨1, _⟩ => exact hout.symm

theorem exitRest2 (V V' : (c : Dev nD) → (b : Ref sig .tc) → Buf (Elt F) ((c : Thread nD τ).loc b)) (c : Dev nD)
    (hkeep : ∀ r : Ref sig .tc, r ∉ ([main_v107] : List (Ref sig .tc)) → V' c r = V c r) :
    ∀ b, b ∉ Finset.univ.image (Pipeline.arrRef spec2) → V' c b = V c b :=
  fun b hb => hkeep b (fun h => by
    rcases List.mem_singleton.mp h with rfl
    exact hb (Finset.mem_image.mpr ⟨1, Finset.mem_univ _, rfl⟩))

end Cert.KernelIdeal.Hand

end
-- ==== Proof.KI.Run.lean ====
/-
  The whole program's run, from the three regions' halves.

  @main is ten items in a row: five stretches of host operations, the first matmul region, a stretch, the
  second matmul region, the mean region, a last stretch. Between two items a core holds every unscoped buffer
  at a VALUATION: the launch contents, then each stretch's operations applied in order, then at each region's
  output array what that region's pipeline leaves there (`left0`, `left1`, `left2`: the fold of its
  write-backs). Each region is entered from the valuation before it and left at the one after it; chaining
  the ten items gives: every weakly fair execution terminates, and at the end every unscoped buffer holds the
  last valuation's contents (`run_main`). The argument arrays are written by no item, so they end as
  launched (`frame`).
-/
import proofs.«132460_j26242250179009_1_alg».proof.Proof.Gen.KernelIdeal.Launch
import proofs.«132460_j26242250179009_1_alg».proof.Proof.Gen.KernelIdeal.Skeleton
import proofs.«132460_j26242250179009_1_alg».proof.Proof.Gen.KernelIdeal.Points
import proofs.«132460_j26242250179009_1_alg».proof.Proof.Gen.KernelIdeal.Regions
import proofs.«132460_j26242250179009_1_alg».proof.Proof.KI.Cheb0
import proofs.«132460_j26242250179009_1_alg».proof.Proof.KI.Cheb1
import proofs.«132460_j26242250179009_1_alg».proof.Proof.KI.Mean2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F] [Named F]

local notation "𝕄" => MT nD τ sig Unit (Elt F) ℕ (UR sig nD τ) ℕ

variable (m : (ℓ : Loc nD τ sig) → Buf (Elt F) ℓ)

/-! ## What the regions leave, and the valuations between the items -/

/-- A choice of contents for the three arrays the regions write: `o6` for the first matmul region's output,
    `o8` for the second's, `o9` for the mean's; any other buffer (never read at these points) its launch
    contents. -/
def pick (o6 : (c : Dev nD) → Buf (Elt F) ((c : Thread nD τ).loc main_v69))
    (o8 : (c : Dev nD) → Buf (Elt F) ((c : Thread nD τ).loc main_v106))
    (o9 : (c : Dev nD) → Buf (Elt F) ((c : Thread nD τ).loc main_v107)) : Outs (F := F) :=
  fun _ r c =>
    if h : r = main_v69 then h ▸ o6 c
    else if h : r = main_v106 then h ▸ o8 c
    else if h : r = main_v107 then h ▸ o9 c
    else m ((c : Thread nD τ).loc r)

theorem pick_69 (o6 o8 o9) (J : ℕ) (c : Dev nD) : pick m o6 o8 o9 J main_v69 c = o6 c := by
  unfold pick; rw [dif_pos rfl]
theorem pick_106 (o6 o8 o9) (J : ℕ) (c : Dev nD) : pick m o6 o8 o9 J main_v106 c = o8 c := by
  unfold pick; rw [dif_neg (by decide), dif_pos rfl]
theorem pick_107 (o6 o8 o9) (J : ℕ) (c : Dev nD) : pick m o6 o8 o9 J main_v107 c = o9 c := by
  unfold pick; rw [dif_neg (by decide), dif_neg (by decide), dif_pos rfl]

/-- The buffers as the first matmul region finds them, read at the TensorCore's references. -/
abbrev at5 (c : Dev nD) (b : Ref sig .tc) : Buf (Elt F) ((c : Thread nD τ).loc b) := V5 m c b
/-- What the first matmul region leaves in its output array. -/
def left0 (c : Dev nD) : Buf (Elt F) ((c : Thread nD τ).loc main_v69) := (dat0 (at5 m) c).arrAt 3 cfg0.N

/-- The valuations up to the second matmul region depend only on `left0`. -/
def outsA : Outs (F := F) := pick m (left0 m) (fun c => m _) (fun c => m _)
abbrev at7 (c : Dev nD) (b : Ref sig .tc) : Buf (Elt F) ((c : Thread nD τ).loc b) := V7 m (outsA m) c b
/-- What the second matmul region leaves in its output array. -/
def left1 (c : Dev nD) : Buf (Elt F) ((c : Thread nD τ).loc main_v106) := (dat1 (at7 m) c).arrAt 3 cfg1.N

def outsB : Outs (F := F) := pick m (left0 m) (left1 m) (fun c => m _)
abbrev at8 (c : Dev nD) (b : Ref sig .tc) : Buf (Elt F) ((c : Thread nD τ).loc b) := V8 m (outsB m) c b
/-- What the mean region leaves in its output row. -/
def left2 (c : Dev nD) : Buf (Elt F) ((c : Thread nD τ).loc main_v107) := (dat2 (at8 m) c).arrAt 1 cfg2.N

/-- What the three regions leave. -/
def outs : Outs (F := F) := pick m (left0 m) (left1 m) (left2 m)

theorem V7_stage (c : Dev nD) : V7 m (outs m) c = V7 m (outsA m) c := by
  dsimp only [V7, V6]; unfold outs outsA; rw [pick_69, pick_69]
theorem V8_stage (c : Dev nD) : V8 m (outs m) c = V8 m (outsB m) c := by
  dsimp only [V8, V7, V6]; unfold outs outsB; rw [pick_69, pick_69, pick_106, pick_106]

/-- The valuations after each region, read at the TensorCore's references. -/
abbrev at6 (c : Dev nD) (b : Ref sig .tc) : Buf (Elt F) ((c : Thread nD τ).loc b) := V6 m (outs m) c b
abbrev at8o (c : Dev nD) (b : Ref sig .tc) : Buf (Elt F) ((c : Thread nD τ).loc b) := V8 m (outs m) c b
abbrev at9 (c : Dev nD) (b : Ref sig .tc) : Buf (Elt F) ((c : Thread nD τ).loc b) := V9 m (outs m) c b

theorem at6_keep (c : Dev nD) (r : Ref sig .tc) (h : r ∉ ([main_v69] : List (Ref sig .tc))) : at6 m c r = at5 m c r :=
  V6_of m (outs m) c r h
theorem at6_out (c : Dev nD) : at6 m c main_v69 = (dat0 (at5 m) c).arrAt 3 cfg0.N := by
  show Function.update (V5 m c) (Proc.devRef .tc main_v69) (outs m 6 main_v69 c) (Proc.devRef .tc main_v69) = _
  rw [Function.update_self]; unfold outs; rw [pick_69]; rfl
theorem at8o_keep (c : Dev nD) (r : Ref sig .tc) (h : r ∉ ([main_v106] : List (Ref sig .tc))) : at8o m c r = at7 m c r :=
  (V8_of m (outs m) c r h).trans (congrFun (V7_stage m c) _)
theorem at8o_out (c : Dev nD) : at8o m c main_v106 = (dat1 (at7 m) c).arrAt 3 cfg1.N := by
  show Function.update (V7 m (outs m) c) (Proc.devRef .tc main_v106) (outs m 8 main_v106 c) (Proc.devRef .tc main_v106) = _
  rw [Function.update_self]; unfold outs; rw [pick_106]; rfl
theorem at9_keep (c : Dev nD) (r : Ref sig .tc) (h : r ∉ ([main_v107] : List (Ref sig .tc))) : at9 m c r = at8 m c r :=
  (V9_of m (outs m) c r h).trans (congrFun (V8_stage m c) _)
theorem at9_out (c : Dev nD) : at9 m c main_v107 = (dat2 (at8 m) c).arrAt 1 cfg2.N := by
  show Function.update (V8 m (outs m) c) (Proc.devRef .tc main_v107) (outs m 9 main_v107 c) (Proc.devRef .tc main_v107) = _
  rw [Function.update_self]; unfold outs; rw [pick_107]; rfl

/-! ## The proof data family and the thread state -/

/-- Every pipeline's proof data, each at its region's entry contents. -/
def pdats : (p : Fin 3) → (c : Dev nD) → Dat τ (Elt F) Unit ℕ (UR sig nD τ) ℕ (cfgs p) c
  | ⟨0, _⟩ => fun c => dat0 (at5 m) c
  | ⟨1, _⟩ => fun c => dat1 (at7 m) c
  | ⟨2, _⟩ => fun c => dat2 (at8 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at
    nothing. -/
abbrev R (c : Dev nD) : sProp 𝕄 := iprop((∃ r, prngReg c r) ∗ ∃ W, owes (c : Thread nD τ) (0 : CellTallies nD τ sig Unit) W)

/-- At region 0's exit each of its arrays holds the exit valuation's contents, and every other buffer is as the
    region found it. -/
theorem exit0_arr (c : Dev nD) (w : Fin cfg0.W) :
    (pdats m 0 c).arrAt w cfg0.N = at6 m c (Pipeline.arrRef spec0 w) :=
  exitArr0 (at5 m) (at6 m) c (at6_keep m c) (at6_out m c) w
theorem exit0_rest (c : Dev nD) : ∀ b, b ∉ Finset.univ.image (Pipeline.arrRef spec0) → at6 m c b = at5 m c b :=
  exitRest0 (at5 m) (at6 m) c (at6_keep m c)

set_option backward.isDefEq.respectTransparency.types false in
/-- REGION 0 as a segment: entered with every unscoped buffer at the entry valuation, left with them at the exit
    valuation; its arrays are split out of the unscoped buffers and put back; the generator register goes into
    the pipeline's invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (bodyObligation0 (at5 m) c).loose
  hwaits := Pipeline.hwaits_of_owed_zero _ _ _ _ L lv 0 fun _ _ => rfl
  pre c := iprop(StableHlo.held (c : Thread nD τ) (Pipeline.ucRefs τ sig) (V5 m c) ∗ R c)
  post c := iprop(StableHlo.held (c : Thread nD τ) (Pipeline.ucRefs τ sig) (V6 m (outs m) c) ∗ R c)
  X c := iprop(∃ r, prngReg c r)
  Y c := iprop(∃ r, prngReg c r)
  Z c := Pipeline.unscopedRest (Ix := Unit) (Name := ℕ) (U := UR sig nD τ) (Lvl := ℕ) spec0 c (at5 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (at5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (at5 m c) (at6 m c) ((pdats m 0 c).arrAt · cfg0.N) (exit0_arr m c) (exit0_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At region 1's exit each of its arrays holds the exit valuation's contents, and every other buffer is as the
    region found it. -/
theorem exit1_arr (c : Dev nD) (w : Fin cfg1.W) :
    (pdats m 1 c).arrAt w cfg1.N = at8o m c (Pipeline.arrRef spec1 w) :=
  exitArr1 (at7 m) (at8o m) c (at8o_keep m c) (at8o_out m c) w
theorem exit1_rest (c : Dev nD) : ∀ b, b ∉ Finset.univ.image (Pipeline.arrRef spec1) → at8o m c b = at7 m c b :=
  exitRest1 (at7 m) (at8o m) c (at8o_keep m c)

set_option backward.isDefEq.respectTransparency.types false in
/-- REGION 1 as a segment: entered with every unscoped buffer at the entry valuation, left with them at the exit
    valuation; its arrays are split out of the unscoped buffers and put back; the generator register goes into
    the pipeline's invariant and comes out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (bodyObligation1 (at7 m) c).loose
  hwaits := Pipeline.hwaits_of_owed_zero _ _ _ _ L lv 1 fun _ _ => rfl
  pre c := iprop(StableHlo.held (c : Thread nD τ) (Pipeline.ucRefs τ sig) (V7 m (outsA m) c) ∗ R c)
  post c := iprop(StableHlo.held (c : Thread nD τ) (Pipeline.ucRefs τ sig) (V8 m (outs m) c) ∗ R c)
  X c := iprop(∃ r, prngReg c r)
  Y c := iprop(∃ r, prngReg c r)
  Z c := Pipeline.unscopedRest (Ix := Unit) (Name := ℕ) (U := UR sig nD τ) (Lvl := ℕ) spec1 c (at7 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (at7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (at7 m c) (at8o m c) ((pdats m 1 c).arrAt · cfg1.N) (exit1_arr m c) (exit1_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At region 2's exit each of its arrays holds the exit valuation's contents, and every other buffer is as the
    region found it. -/
theorem exit2_arr (c : Dev nD) (w : Fin cfg2.W) :
    (pdats m 2 c).arrAt w cfg2.N = at9 m c (Pipeline.arrRef spec2 w) :=
  exitArr2 (at8 m) (at9 m) c (at9_keep m c) (at9_out m c) w
theorem exit2_rest (c : Dev nD) : ∀ b, b ∉ Finset.univ.image (Pipeline.arrRef spec2) → at9 m c b = at8 m c b :=
  exitRest2 (at8 m) (at9 m) c (at9_keep m c)

set_option backward.isDefEq.respectTransparency.types false in
/-- REGION 2 as a segment: entered with every unscoped buffer at the entry valuation, left with them at the exit
    valuation; its arrays are split out of the unscoped buffers and put back; the generator register goes into
    the pipeline's invariant and comes out; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (bodyObligation2 (at8 m) c).loose
  hwaits := Pipeline.hwaits_of_owed_zero _ _ _ _ L lv 2 fun _ _ => rfl
  pre c := iprop(StableHlo.held (c : Thread nD τ) (Pipeline.ucRefs τ sig) (V8 m (outsB m) c) ∗ R c)
  post c := iprop(StableHlo.held (c : Thread nD τ) (Pipeline.ucRefs τ sig) (V9 m (outs m) c) ∗ R c)
  X c := iprop(∃ r, prngReg c r)
  Y c := iprop(∃ r, prngReg c r)
  Z c := Pipeline.unscopedRest (Ix := Unit) (Name := ℕ) (U := UR sig nD τ) (Lvl := ℕ) spec2 c (at8 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (at8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (at8 m c) (at9 m c) ((pdats m 2 c).arrAt · cfg2.N) (exit2_arr m c) (exit2_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

variable (ρ : Dev nD → PrngReg)

set_option backward.isDefEq.respectTransparency.types false in
/-- Every weakly fair execution of @main from memory `m` with zero counters terminates, and at the end every
    unscoped buffer of every core holds the last valuation's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = V10 m (outs m) c b) := by
  refine Pipeline.θ_run_regions_kit_dev (pcfgs (F := F)) adm (pdats m) () cellOf_inj emb₁ defs₀ 𝒱₀ L lv m ρ main
    (segs m (outs m) 𝒱₀ L lv (fun _ => R) () (pdats m) (reg0 m) (reg1 m) (reg2 m))
    (fun c Q => by
      rewrite [main_chain c, Seg.run_eq_chain,
        show (segs m (outs m) 𝒱₀ L lv (fun _ => R) () (pdats m) (reg0 m) (reg1 m) (reg2 m) c).map Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          StableHlo.seq hostOps1,
          Prog.lift (.customCall (Pipeline.entry 1) ()),
          Prog.lift (.customCall (Pipeline.entry 2) ()),
          StableHlo.seq hostOps3 ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => StableHlo.held (c : Thread nD τ) (Pipeline.ucRefs τ sig) (V10 m (outs m) c))
    (hch := fun c => ⟨.rfl, .rfl, .rfl, .rfl, .rfl, .rfl, .rfl,
      (by
        show (iprop(StableHlo.held (c : Thread nD τ) (Pipeline.ucRefs τ sig) (V7 m (outs m) c) ∗ R c) : sProp 𝕄)
          ⊢ iprop(StableHlo.held (c : Thread nD τ) (Pipeline.ucRefs τ sig) (V7 m (outsA m) c) ∗ R c)
        rw [V7_stage]),
      (by
        show (iprop(StableHlo.held (c : Thread nD τ) (Pipeline.ucRefs τ sig) (V8 m (outs m) c) ∗ R c) : sProp 𝕄)
          ⊢ iprop(StableHlo.held (c : Thread nD τ) (Pipeline.ucRefs τ sig) (V8 m (outsB m) c) ∗ R c)
        rw [V8_stage]), .rfl,
      sep_mono .rfl (by iintro ⟨-, H⟩; iexact H)⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V10 m (outs m) c b)
    (hfin := fun c s' => by
      iintro ⟨Hh, HSI⟩
      unfold StableHlo.held
      imodintro
      iapply (pointsTo_read_all (Pipeline.ucRefs τ sig) (fun b => (((c : Thread nD τ)).1, b)) (V10 m (outs m) c) s')
      isplitl [Hh] <;> iassumption)
    (hQ := fun _ h => h)

/-- An unscoped TensorCore reference is among those the last thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE FRAME: every weakly fair execution terminates and every argument array ends as launched — no item of
    @main writes one. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨(h c _ (mem_uc main_arg0 (by decide))).trans (V10_main_arg0 m (outs m) c),
     (h c _ (mem_uc main_arg1 (by decide))).trans (V10_main_arg1 m (outs m) c),
     (h c _ (mem_uc main_arg2 (by decide))).trans (V10_main_arg2 m (outs m) c),
     (h c _ (mem_uc main_arg3 (by decide))).trans (V10_main_arg3 m (outs m) c),
     (h c _ (mem_uc main_arg4 (by decide))).trans (V10_main_arg4 m (outs m) c),
     (h c _ (mem_uc main_arg5 (by decide))).trans (V10_main_arg5 m (outs m) c),
     (h c _ (mem_uc main_arg6 (by decide))).trans (V10_main_arg6 m (outs m) c),
     (h c _ (mem_uc main_arg7 (by decide))).trans (V10_main_arg7 m (outs m) c)⟩) (run_main m ρ)

end Cert.KernelIdeal.Hand

end
-- ==== Proof.Spec.Layer.lean ====
/-
  The two dense pieces of the network as whole-array functions, spelled with the host operations the reference
  program applies, over any float interpretation.

  * `chebLayer X0 X1 X2 W b`: one Chebyshev layer on a basis already built — the three products
    `X_k · W[k]` (the `k`-th 128 × 128 slab of `W`), summed left to right, a bias added to every row, then
    the rectifier `max(·, 0)`.
  * `meanRows h`: the mean of the 50000 rows of `h`, kept as one row: the column sums divided by 50000.
-/
import proofs.«132460_j26242250179009_1_alg».proof.Proof.Gen.ReferenceIdeal

noncomputable section

namespace Cert.Spec

open Idealize.ShloMosaic Cert.ReferenceIdeal Cert.ReferenceIdeal.Gen

variable {F : FTy → Type} [FloatOps F]

/-- The `k`-th slab of a stack of three 128 × 128 matrices, as a matrix (`k` given by the slab's offset and its
    in-bounds fact, as the reference slices it). -/
abbrev slab0 (W : FVec F S3x128x128 .f32) : FVec F S128x128 .f32 :=
  shapeCast _ (extractStridedSlice S1x128x128 ![0, 0, 0] W slices_S3x128x128_S1x128x128_0_0_0) shapeCasts_S1x128x128_S128x128
abbrev slab1 (W : FVec F S3x128x128 .f32) : FVec F S128x128 .f32 :=
  shapeCast _ (extractStridedSlice S1x128x128 ![1, 0, 0] W slices_S3x128x128_S1x128x128_1_0_0) shapeCasts_S1x128x128_S128x128
abbrev slab2 (W : FVec F S3x128x128 .f32) : FVec F S128x128 .f32 :=
  shapeCast _ (extractStridedSlice S1x128x128 ![2, 0, 0] W slices_S3x128x128_S1x128x128_2_0_0) shapeCasts_S1x128x128_S128x128

/-- One Chebyshev layer on the basis `X0, X1, X2`: `max((X0·W[0] + X1·W[1]) + X2·W[2] + b, 0)`, the bias a
    vector added to every row. -/
def chebLayer (X0 X1 X2 : FVec F S50000x128 .f32) (W : FVec F S3x128x128 .f32) (b : FVec F S128 .f32) :
    FVec F S50000x128 .f32 :=
  maximumf
    (addf
      (addf
        (addf (Host.dotGeneral dot_S50000x128_S128x128_S50000x128_1_0_0_1_n_n none X0 (slab0 W))
          (Host.dotGeneral dot_S50000x128_S128x128_S50000x128_1_0_0_1_n_n none X1 (slab1 W)))
        (Host.dotGeneral dot_S50000x128_S128x128_S50000x128_1_0_0_1_n_n none X2 (slab2 W)))
      (broadcastInDim S50000x128 ![0, 1] bcast_S1x128_S50000x128_0_1 (broadcastInDim S1x128 ![1] bcast_S128_S1x128_1 b)))
    (broadcastInDim S50000x128 ![] bcast_S_S50000x128 (constant S_ .f32 0x00000000#32))

/-- The mean over the 50000 rows, as one row: each column's sum divided by 50000. -/
def meanRows (h : FVec F S50000x128 .f32) : FVec F S1x128 .f32 :=
  Host.divf
    (broadcastInDim S1x128 ![1] bcast_S128_S1x128_1
      (Host.reduceAdd h (constant S_ .f32 0x00000000#32) reducesTo_S50000x128_S128_d0 h_S_))
    (broadcastInDim S1x128 ![] bcast_S_S1x128 (constant S_ .f32 0x47435000#32))

end Cert.Spec

end
-- ==== Proof.Val.ChebSpecAt.lean ====
/-
  One Chebyshev layer read at one entry.

  Entry (r, q) of `chebLayer X0 X1 X2 W b` is
      max (((Σ_k X0[r,k]·W[0,k,q] + Σ_k X1[r,k]·W[1,k,q]) + Σ_k X2[r,k]·W[2,k,q]) + b[q]) 0
  over the extended reals: a matrix product at an entry is the sum over the contracted axis of the products of the
  two operands' entries; the k-th slab of the weight stack read at (j, q) is the stack at (k, j, q); the bias row
  broadcast over the rows reads the bias at the column; the broadcast zero constant is the extended real 0.
-/
import proofs.«132460_j26242250179009_1_alg».proof.Proof.Spec.Layer
import Idealize.ShloMosaic.Lib.ValueLayout
import Idealize.ShloMosaic.PureOps.Ideal.Laws

noncomputable section

namespace Cert.Spec.ChebAt

open Idealize.ShloMosaic Idealize.ShloMosaic.ValueIdx Cert.ReferenceIdeal
open scoped BigOperators
open Cert.ReferenceIdeal.Gen

/-! ## A product of a 50000 × 128 matrix with a 128 × 128 matrix at an entry -/

/-- The left operand's index has the output's row on axis 0 … -/
theorem lhs_row (i : S50000x128.Idx) (κ : dot_S50000x128_S128x128_S50000x128_1_0_0_1_n_n.contr.Idx) :
    (dot_S50000x128_S128x128_S50000x128_1_0_0_1_n_n.lhsIdx i κ 0).val = (i 0).val := by
  unfold DotDims.lhsIdx
  rw [dif_neg (show ¬(0 : Fin S50000x128.rank) ∈ dot_S50000x128_S128x128_S50000x128_1_0_0_1_n_n.lhsBatch from List.not_mem_nil),
    dif_pos (show (0 : Fin S50000x128.rank) ∈ dot_S50000x128_S128x128_S50000x128_1_0_0_1_n_n.lhsNonContracting from List.mem_singleton.mpr rfl)]
  rfl
/-- … and the right operand's has the output's column on axis 1. -/
theorem rhs_col (i : S50000x128.Idx) (κ : dot_S50000x128_S128x128_S50000x128_1_0_0_1_n_n.contr.Idx) :
    (dot_S50000x128_S128x128_S50000x128_1_0_0_1_n_n.rhsIdx i κ 1).val = (i 1).val := by
  unfold DotDims.rhsIdx
  rw [dif_neg (show ¬(1 : Fin S128x128.rank) ∈ dot_S50000x128_S128x128_S50000x128_1_0_0_1_n_n.rhsBatch from List.not_mem_nil),
    dif_pos (show (1 : Fin S128x128.rank) ∈ dot_S50000x128_S128x128_S50000x128_1_0_0_1_n_n.rhsNonContracting from List.mem_singleton.mpr rfl)]
  rfl

/-- Entry (r, q) of the product X · Y is Σ_k X[r, k] · Y[k, q]. -/
theorem dot_apply (X : FVec Ideal S50000x128 .f32) (Y : FVec Ideal S128x128 .f32) (r : Fin 50000) (q : Fin 128) :
    Host.dotGeneral (F := Ideal) dot_S50000x128_S128x128_S50000x128_1_0_0_1_n_n none X Y (ix2 r q) = ∑ k : Fin 128, X (ix2 r k) * Y (ix2 k q) := by
  simp only [Host.dotGeneral]
  rw [Ideal.dotGeneral_apply, ← Equiv.sum_comp (contrEquiv1 dot_S50000x128_S128x128_S50000x128_1_0_0_1_n_n 128 rfl rfl).symm]
  refine Finset.sum_congr rfl fun k _ => ?_
  have hk := contrEquiv1_symm_val dot_S50000x128_S128x128_S50000x128_1_0_0_1_n_n 128 rfl rfl k
  have el : dot_S50000x128_S128x128_S50000x128_1_0_0_1_n_n.lhsIdx (ix2 r q) ((contrEquiv1 dot_S50000x128_S128x128_S50000x128_1_0_0_1_n_n 128 rfl rfl).symm k) = ix2 r k :=
    funext fun a => Fin.ext (by
      match a with
      | ⟨0, _⟩ => exact lhs_row _ _
      | ⟨1, _⟩ => exact (dot_S50000x128_S128x128_S50000x128_1_0_0_1_n_n.lhsIdx_val_of_single rfl _ _).trans hk)
  have er : dot_S50000x128_S128x128_S50000x128_1_0_0_1_n_n.rhsIdx (ix2 r q) ((contrEquiv1 dot_S50000x128_S128x128_S50000x128_1_0_0_1_n_n 128 rfl rfl).symm k) = ix2 k q :=
    funext fun a => Fin.ext (by
      match a with
      | ⟨0, _⟩ => exact (dot_S50000x128_S128x128_S50000x128_1_0_0_1_n_n.rhsIdx_val_of_single rfl _ _).trans hk
      | ⟨1, _⟩ => exact rhs_col _ _)
  rw [el, er]

/-! ## The slabs of the weight stack, the bias row and the zero, at an entry -/

/-- A slice of one slab (offset `o` on axis 0) of a stack of three matrices, with the unit axis dropped, read at
    (j, q), is the stack at (o, j, q). -/
theorem slab_apply (o : Nat) (ho : o < 3) (W : FVec Ideal S3x128x128 .f32) (hs : S3x128x128.Slices ![o, 0, 0] S1x128x128)
    (hc : S1x128x128.ShapeCasts S128x128) (j q : Fin 128) :
    shapeCast S128x128 (extractStridedSlice S1x128x128 ![o, 0, 0] W hs) hc (ix2 j q) = W (ix3 (⟨o, ho⟩ : Fin 3) j q) := by
  refine (shapeCast_1ab_ab_apply _ hc j q).trans ?_
  refine extractStridedSlice_apply _ W hs _ (ix3 (⟨o, ho⟩ : Fin 3) j q) fun a => ?_
  match a with
  | ⟨0, _⟩ => show o = o + 0; omega
  | ⟨1, _⟩ => show j.val = 0 + j.val; omega
  | ⟨2, _⟩ => show q.val = 0 + q.val; omega

/-- The three slabs of the weight stack at (j, q). -/
theorem slab0_apply (W : FVec Ideal S3x128x128 .f32) (j q : Fin 128) : Cert.Spec.slab0 W (ix2 j q) = W (ix3 (0 : Fin 3) j q) :=
  slab_apply 0 (by decide) W _ _ j q
theorem slab1_apply (W : FVec Ideal S3x128x128 .f32) (j q : Fin 128) : Cert.Spec.slab1 W (ix2 j q) = W (ix3 (1 : Fin 3) j q) :=
  slab_apply 1 (by decide) W _ _ j q
theorem slab2_apply (W : FVec Ideal S3x128x128 .f32) (j q : Fin 128) : Cert.Spec.slab2 W (ix2 j q) = W (ix3 (2 : Fin 3) j q) :=
  slab_apply 2 (by decide) W _ _ j q

/-- The bias vector laid out as a row and broadcast over the 50000 rows reads, at (r, q), the bias at q. -/
theorem bias_apply (b : FVec Ideal S128 .f32) (h1 : S128.BroadcastsInDim S1x128 (![1] : Fin 1 → Fin S1x128.rank))
    (h2 : S1x128.BroadcastsInDim S50000x128 (![0, 1] : Fin 2 → Fin S50000x128.rank)) (r : Fin 50000) (q : Fin 128) :
    broadcastInDim S50000x128 ![0, 1] h2 (broadcastInDim S1x128 ![1] h1 b) (ix2 r q) = b (ix1 q) := by
  refine (broadcastInDim_apply _ h2 _ (ix2 r q) (ix2 (0 : Fin 1) q) fun a => ?_).trans ?_
  · match a with
    | ⟨0, _⟩ => rfl
    | ⟨1, _⟩ => show q.val = if (128 : Nat) = 1 then 0 else q.val; rw [if_neg (by decide)]
  · refine broadcastInDim_apply _ h1 b (ix2 (0 : Fin 1) q) (ix1 q) fun a => ?_
    match a with
    | ⟨0, _⟩ => show q.val = if (128 : Nat) = 1 then 0 else q.val; rw [if_neg (by decide)]

/-- The broadcast zero constant is the extended real 0 everywhere. -/
theorem zero_apply (h : S_.BroadcastsInDim S50000x128 (![] : Fin 0 → Fin S50000x128.rank)) (i : S50000x128.Idx) :
    broadcastInDim S50000x128 ![] h (constant (F := Ideal) S_ .f32 0x00000000#32) i = 0 := by
  refine (broadcastInDim_apply _ h _ i ix0 fun a => a.elim0).trans ?_
  rw [constant_apply, Ideal.ofBits_zero_f32]

/-! ## The layer at an entry -/

/-- Entry (r, q) of the layer: the three products' entries summed left to right, the bias at q added, the maximum
    with 0. -/
theorem chebLayer_apply (X0 X1 X2 : FVec Ideal S50000x128 .f32) (W : FVec Ideal S3x128x128 .f32) (b : FVec Ideal S128 .f32)
    (r : Fin 50000) (q : Fin 128) :
    Cert.Spec.chebLayer X0 X1 X2 W b (ix2 r q)
      = max ((((∑ k : Fin 128, X0 (ix2 r k) * W (ix3 (0 : Fin 3) k q)) + ∑ k : Fin 128, X1 (ix2 r k) * W (ix3 (1 : Fin 3) k q))
              + ∑ k : Fin 128, X2 (ix2 r k) * W (ix3 (2 : Fin 3) k q)) + b (ix1 q)) 0 := by
  unfold Cert.Spec.chebLayer
  rw [maximumf_apply, addf_apply, addf_apply, addf_apply, dot_apply, dot_apply, dot_apply, bias_apply, zero_apply]
  simp only [slab0_apply, slab1_apply, slab2_apply]

end Cert.Spec.ChebAt

end
-- ==== Proof.Val.ChebBlockAt.lean ====
/-
  What the body of matmul region 0 leaves in its output block, read at one entry.

  Entry (p, q) of the 2000 × 128 output block is
      max (((Σ_k x0[0,p,k]·x1[0,k,q] + Σ_k x0[1,p,k]·x1[1,k,q]) + Σ_k x0[2,p,k]·x1[2,k,q]) + x2[0,q]) 0
  over the extended reals, where x0 is the 3 × 2000 × 128 basis block, x1 the 3 × 128 × 128 weight stack and x2
  the 1 × 128 bias row: each matrix product into a zero accumulator is the plain sum of products over the
  contracted axis, the running sum starts from the zero splat (0 + a = a), the bias row is broadcast over the
  rows, and the one store of the whole block leaves exactly this value.
-/
import proofs.«132460_j26242250179009_1_alg».proof.Proof.KI.Cheb0
import Idealize.ShloMosaic.Lib.ValueLayout
import Idealize.ShloMosaic.PureOps.Ideal.Laws

noncomputable section

namespace Cert.KernelIdeal.Val

open Cert.KernelIdeal Cert.KernelIdeal.Gen Cert.KernelIdeal.Hand
open Idealize.ShloMosaic Idealize.ShloMosaic.ValueIdx
open scoped BigOperators

/-! ## A product of a 2000 × 128 block with a 128 × 128 matrix, into a zero accumulator, at an entry -/

/-- The left operand's index has the output's row on axis 0 … -/
theorem mm_lhs_row (i : S2000x128.Idx) (κ : dot_S2000x128_S128x128_S2000x128_1_0_0_1_n_n.contr.Idx) :
    (dot_S2000x128_S128x128_S2000x128_1_0_0_1_n_n.lhsIdx i κ 0).val = (i 0).val := by
  unfold DotDims.lhsIdx
  rw [dif_neg (show ¬(0 : Fin S2000x128.rank) ∈ dot_S2000x128_S128x128_S2000x128_1_0_0_1_n_n.lhsBatch from List.not_mem_nil),
    dif_pos (show (0 : Fin S2000x128.rank) ∈ dot_S2000x128_S128x128_S2000x128_1_0_0_1_n_n.lhsNonContracting from List.mem_singleton.mpr rfl)]
  rfl
/-- … and the right operand's has the output's column on axis 1. -/
theorem mm_rhs_col (i : S2000x128.Idx) (κ : dot_S2000x128_S128x128_S2000x128_1_0_0_1_n_n.contr.Idx) :
    (dot_S2000x128_S128x128_S2000x128_1_0_0_1_n_n.rhsIdx i κ 1).val = (i 1).val := by
  unfold DotDims.rhsIdx
  rw [dif_neg (show ¬(1 : Fin S128x128.rank) ∈ dot_S2000x128_S128x128_S2000x128_1_0_0_1_n_n.rhsBatch from List.not_mem_nil),
    dif_pos (show (1 : Fin S128x128.rank) ∈ dot_S2000x128_S128x128_S2000x128_1_0_0_1_n_n.rhsNonContracting from List.mem_singleton.mpr rfl)]
  rfl

/-- Entry (p, q) of A · B accumulated into the zero splat is Σ_k A[p, k] · B[k, q]. -/
theorem mm_apply (A : FVec Ideal S2000x128 .bf16) (B : FVec Ideal S128x128 .bf16) (p : Fin 2000) (q : Fin 128) :
    matmul dot_S2000x128_S128x128_S2000x128_1_0_0_1_n_n none A B (constant (F := Ideal) S2000x128 .f32 0x00000000#32) (ix2 p q)
      = ∑ k : Fin 128, A (ix2 p k) * B (ix2 k q) := by
  simp only [matmul]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k :=
    funext fun a => Fin.ext (by
      match a with
      | ⟨0, _⟩ => exact mm_lhs_row _ _
      | ⟨1, _⟩ => exact (dot_S2000x128_S128x128_S2000x128_1_0_0_1_n_n.lhsIdx_val_of_single rfl _ _).trans hk)
  have er : dot_S2000x128_S128x128_S2000x128_1_0_0_1_n_n.rhsIdx (ix2 p q) ((contrEquiv1 dot_S2000x128_S128x128_S2000x128_1_0_0_1_n_n 128 rfl rfl).symm k) = ix2 k q :=
    funext fun a => Fin.ext (by
      match a with
      | ⟨0, _⟩ => exact (dot_S2000x128_S128x128_S2000x128_1_0_0_1_n_n.rhsIdx_val_of_single rfl _ _).trans hk
      | ⟨1, _⟩ => exact mm_rhs_col _ _)
  rw [el, er]

/-! ## The loaded slabs at an entry -/

/-- Slab `o` of the basis block, loaded with its unit axis, reads at (u, p, k) the block at (o, p, k). -/
theorem ldX_apply (o : Nat) (ho : o < 3) (x0 : Vec Ideal S3x2000x128 .bf16)
    (inb : ∀ a, (![o, 0, 0] : Fin 3 → Nat) a + S1x2000x128.size a ≤ S3x2000x128.size a) (u : Fin 1) (p : Fin 2000) (k : Fin 128) :
    View.ld x0 (Rect.unit (s := S3x2000x128) ![o, 0, 0] S1x2000x128.size inb) (ix3 u p k) = x0 (ix3 (⟨o, ho⟩ : Fin 3) p k) := by
  refine congrArg x0 (funext fun a => Fin.ext ?_)
  match a with
  | ⟨0, _⟩ => show o + 1 * u.val = o; have := u.isLt; omega
  | ⟨1, _⟩ => show 0 + 1 * p.val = p.val; omega
  | ⟨2, _⟩ => show 0 + 1 * k.val = k.val; omega

/-- Slab `o` of the weight stack, loaded with its unit axis, reads at (u, k, q) the stack at (o, k, q). -/
theorem ldW_apply (o : Nat) (ho : o < 3) (x1 : Vec Ideal S3x128x128 .bf16)
    (inb : ∀ a, (![o, 0, 0] : Fin 3 → Nat) a + S1x128x128.size a ≤ S3x128x128.size a) (u : Fin 1) (k q : Fin 128) :
    View.ld x1 (Rect.unit (s := S3x128x128) ![o, 0, 0] S1x128x128.size inb) (ix3 u k q) = x1 (ix3 (⟨o, ho⟩ : Fin 3) k q) := by
  refine congrArg x1 (funext fun a => Fin.ext ?_)
  match a with
  | ⟨0, _⟩ => show o + 1 * u.val = o; have := u.isLt; omega
  | ⟨1, _⟩ => show 0 + 1 * k.val = k.val; omega
  | ⟨2, _⟩ => show 0 + 1 * q.val = q.val; omega

/-- The basis block's slab `o` as a 2000 × 128 matrix (unit axis dropped) at (p, k) … -/
theorem slabX_apply (o : Nat) (ho : o < 3) (x0 : Vec Ideal S3x2000x128 .bf16)
    (inb : ∀ a, (![o, 0, 0] : Fin 3 → Nat) a + S1x2000x128.size a ≤ S3x2000x128.size a)
    (hc : S1x2000x128.ShapeCasts S2000x128) (p : Fin 2000) (k : Fin 128) :
    shapeCast S2000x128 (View.ld x0 (Rect.unit (s := S3x2000x128) ![o, 0, 0] S1x2000x128.size inb)) hc (ix2 p k)
      = x0 (ix3 (⟨o, ho⟩ : Fin 3) p k) :=
  (shapeCast_1ab_ab_apply _ hc p k).trans (ldX_apply o ho x0 inb 0 p k)
/-- … and the weight stack's slab `o` as a 128 × 128 matrix at (k, q). -/
theorem slabW_apply (o : Nat) (ho : o < 3) (x1 : Vec Ideal S3x128x128 .bf16)
    (inb : ∀ a, (![o, 0, 0] : Fin 3 → Nat) a + S1x128x128.size a ≤ S3x128x128.size a)
    (hc : S1x128x128.ShapeCasts S128x128) (k q : Fin 128) :
    shapeCast S128x128 (View.ld x1 (Rect.unit (s := S3x128x128) ![o, 0, 0] S1x128x128.size inb)) hc (ix2 k q)
      = x1 (ix3 (⟨o, ho⟩ : Fin 3) k q) :=
  (shapeCast_1ab_ab_apply _ hc k q).trans (ldW_apply o ho x1 inb 0 k q)

/-- Slab `o` of the basis block times slab `o` of the weight stack, into the zero accumulator, at (p, q). -/
theorem mmSlab_apply (o : Nat) (ho : o < 3) (x0 : Vec Ideal S3x2000x128 .bf16) (x1 : Vec Ideal S3x128x128 .bf16)
    (inbX : ∀ a, (![o, 0, 0] : Fin 3 → Nat) a + S1x2000x128.size a ≤ S3x2000x128.size a)
    (inbW : ∀ a, (![o, 0, 0] : Fin 3 → Nat) a + S1x128x128.size a ≤ S3x128x128.size a)
    (hcX : S1x2000x128.ShapeCasts S2000x128) (hcW : S1x128x128.ShapeCasts S128x128) (p : Fin 2000) (q : Fin 128) :
    matmul (φ₁ := .bf16) (φ₂ := .bf16) dot_S2000x128_S128x128_S2000x128_1_0_0_1_n_n none
        (shapeCast S2000x128 (View.ld x0 (Rect.unit (s := S3x2000x128) ![o, 0, 0] S1x2000x128.size inbX)) hcX : FVec Ideal S2000x128 .bf16)
        (shapeCast S128x128 (View.ld x1 (Rect.unit (s := S3x128x128) ![o, 0, 0] S1x128x128.size inbW)) hcW : FVec Ideal S128x128 .bf16)
        (constant (F := Ideal) S2000x128 .f32 0x00000000#32) (ix2 p q)
      = ∑ k : Fin 128, x0 (ix3 (⟨o, ho⟩ : Fin 3) p k) * x1 (ix3 (⟨o, ho⟩ : Fin 3) k q) := by
  rw [mm_apply]
  exact Finset.sum_congr rfl fun k _ => by rw [slabX_apply o ho, slabW_apply o ho]

/-- The zero offsets of a whole-block rectangle of rank 2. -/
theorem hz2 : (![0, 0] : Fin 2 → Nat) = fun _ => 0 := funext fun a => by fin_cases a <;> rfl

/-! ## The output block at an entry -/

/-- Entry (p, q) of what the body leaves in the output block. -/
theorem blockOut0_apply (x0 : Vec Ideal S3x2000x128 .bf16) (x1 : Vec Ideal S3x128x128 .bf16) (x2 : Vec Ideal S1x128 .f32)
    (p : Fin 2000) (q : Fin 128) :
    blockOut0 x0 x1 x2 (ix2 p q)
      = max ((((∑ k : Fin 128, x0 (ix3 (0 : Fin 3) p k) * x1 (ix3 (0 : Fin 3) k q)) + ∑ k : Fin 128, x0 (ix3 (1 : Fin 3) p k) * x1 (ix3 (1 : Fin 3) k q))
              + ∑ k : Fin 128, x0 (ix3 (2 : Fin 3) p k) * x1 (ix3 (2 : Fin 3) k q)) + x2 (ix2 (0 : Fin 1) q)) 0 := by
  unfold blockOut0
  rw [View.canon_unit_zero hz2]
  unfold k0_pay1
  have hzero : (FloatOps.ofBits FTy.f32 0x00000000#32 : Ideal .f32) = 0 := Ideal.ofBits_zero_f32
  rw [maximumf_apply, addf_apply, addf_apply, addf_apply, addf_apply,
    mmSlab_apply 0 (by decide), mmSlab_apply 1 (by decide), mmSlab_apply 2 (by decide),
    broadcast_apply, hzero, zero_add, broadcastTo_1b_ab_apply, shapeCast_self, View.ld_unit_zero (S := S1x128) hz2]
  rfl

end Cert.KernelIdeal.Val

end
-- ==== Proof.Spec.Stack.lean ====
/-
  What the host hands a matmul region of the kernel program, as functions of the layer's mathematical inputs:
  the three basis arrays stacked along a new leading axis and converted to the narrow float format, the weight
  stack converted likewise, and the bias vector laid out as one row.
-/
import proofs.«132460_j26242250179009_1_alg».proof.Proof.Gen.KernelIdeal

noncomputable section

namespace Cert.Spec

open Idealize.ShloMosaic Cert.KernelIdeal Cert.KernelIdeal.Gen

variable {F : FTy → Type} [FloatOps F]

/-- Three 50000 × 128 arrays as one 3 × 50000 × 128 array (each given a leading unit axis, then concatenated
    along it), converted to the narrow format. -/
def stack3 (X0 X1 X2 : FVec F S50000x128 .f32) : FVec F S3x50000x128 .bf16 :=
  truncf .bf16
    (concatenate S3x50000x128 0
      [⟨S1x50000x128, broadcastInDim S1x50000x128 ![1, 2] bcast_S50000x128_S1x50000x128_1_2 X0⟩,
       ⟨S1x50000x128, broadcastInDim S1x50000x128 ![1, 2] bcast_S50000x128_S1x50000x128_1_2 X1⟩,
       ⟨S1x50000x128, broadcastInDim S1x50000x128 ![1, 2] bcast_S50000x128_S1x50000x128_1_2 X2⟩]
      concatenates_S1x50000x128_S1x50000x128_S1x50000x128_S3x50000x128_d0)
    bitsLt_bf16_f32

/-- The weight stack converted to the narrow format. -/
def narrowW (W : FVec F S3x128x128 .f32) : FVec F S3x128x128 .bf16 := truncf .bf16 W bitsLt_bf16_f32

/-- The bias vector as a one-row matrix. -/
def biasRow (b : FVec F S128 .f32) : FVec F S1x128 .f32 := shapeCast S1x128 b shapeCasts_S128_S1x128

end Cert.Spec

end
-- ==== Proof.Val.StackAt.lean ====
/-
  What the host hands matmul region 0, read at one entry.

  The three basis arrays stacked along a new leading axis read, at (k, r, j), the k-th array at (r, j); the weight
  stack converted to the narrow format is, over the extended reals, the weight stack; the bias laid out as one row
  reads, at (0, q), the bias at q.
-/
import proofs.«132460_j26242250179009_1_alg».proof.Proof.Spec.Stack
import Idealize.ShloMosaic.Lib.ValueLayout

noncomputable section

namespace Cert.Spec.StackAt

open Idealize.ShloMosaic Idealize.ShloMosaic.ValueIdx Cert.KernelIdeal Cert.KernelIdeal.Gen

/-- A 50000 × 128 array given a leading unit axis reads, at (u, r, j), the array at (r, j). -/
theorem lead_apply (X : FVec Ideal S50000x128 .f32)
    (h : S50000x128.BroadcastsInDim S1x50000x128 (![1, 2] : Fin 2 → Fin S1x50000x128.rank)) (u : Fin 1) (r : Fin 50000) (j : Fin 128) :
    broadcastInDim S1x50000x128 ![1, 2] h X (ix3 u r j) = X (ix2 r j) := by
  refine broadcastInDim_apply _ h X (ix3 u r j) (ix2 r j) fun a => ?_
  match a with
  | ⟨0, _⟩ => show r.val = if (50000 : Nat) = 1 then 0 else r.val; rw [if_neg (by decide)]
  | ⟨1, _⟩ => show j.val = if (128 : Nat) = 1 then 0 else j.val; rw [if_neg (by decide)]

/-- The stack at (0, r, j) is the first array at (r, j) … -/
theorem stack3_apply0 (X0 X1 X2 : FVec Ideal S50000x128 .f32) (r : Fin 50000) (j : Fin 128) :
    Cert.Spec.stack3 X0 X1 X2 (ix3 (0 : Fin 3) r j) = X0 (ix2 r j) := by
  unfold Cert.Spec.stack3
  rw [truncf_apply]
  refine (concatenate_apply_piece (0 : Fin S3x50000x128.rank) _ _ (ix3 (0 : Fin 3) r j) 0 (by show (0 : Nat) < 3; decide) S1x50000x128 _ rfl rfl 0 rfl
    (ix3 (0 : Fin 1) r j) (fun b hb => ?_) rfl).trans (lead_apply X0 _ 0 r j)
  match b with
  | ⟨0, _⟩ => exact absurd rfl hb
  | ⟨1, _⟩ => rfl
  | ⟨2, _⟩ => rfl
/-- … at (1, r, j) the second … -/
theorem stack3_apply1 (X0 X1 X2 : FVec Ideal S50000x128 .f32) (r : Fin 50000) (j : Fin 128) :
    Cert.Spec.stack3 X0 X1 X2 (ix3 (1 : Fin 3) r j) = X1 (ix2 r j) := by
  unfold Cert.Spec.stack3
  rw [truncf_apply]
  refine (concatenate_apply_piece (0 : Fin S3x50000x128.rank) _ _ (ix3 (1 : Fin 3) r j) 1 (by show (1 : Nat) < 3; decide) S1x50000x128 _ rfl rfl 1 rfl
    (ix3 (0 : Fin 1) r j) (fun b hb => ?_) rfl).trans (lead_apply X1 _ 0 r j)
  match b with
  | ⟨0, _⟩ => exact absurd rfl hb
  | ⟨1, _⟩ => rfl
  | ⟨2, _⟩ => rfl
/-- … and at (2, r, j) the third. -/
theorem stack3_apply2 (X0 X1 X2 : FVec Ideal S50000x128 .f32) (r : Fin 50000) (j : Fin 128) :
    Cert.Spec.stack3 X0 X1 X2 (ix3 (2 : Fin 3) r j) = X2 (ix2 r j) := by
  unfold Cert.Spec.stack3
  rw [truncf_apply]
  refine (concatenate_apply_piece (0 : Fin S3x50000x128.rank) _ _ (ix3 (2 : Fin 3) r j) 2 (by show (2 : Nat) < 3; decide) S1x50000x128 _ rfl rfl 2 rfl
    (ix3 (0 : Fin 1) r j) (fun b hb => ?_) rfl).trans (lead_apply X2 _ 0 r j)
  match b with
  | ⟨0, _⟩ => exact absurd rfl hb
  | ⟨1, _⟩ => rfl
  | ⟨2, _⟩ => rfl

/-- The narrowed weight stack is, entry by entry, the weight stack. -/
theorem narrowW_apply (W : FVec Ideal S3x128x128 .f32) (i : S3x128x128.Idx) : Cert.Spec.narrowW W i = W i := rfl

/-- The bias row at (u, q) is the bias at q. -/
theorem biasRow_apply (b : FVec Ideal S128 .f32) (u : Fin 1) (q : Fin 128) : Cert.Spec.biasRow b (ix2 u q) = b (ix1 q) := by
  unfold Cert.Spec.biasRow
  exact shapeCast_a_1a_apply b _ u q

end Cert.Spec.StackAt

end
-- ==== Proof.Val.Cheb0.lean ====
/-
  The array matmul region 0 leaves is the layer.

  The region's output array, after all 25 points have written their blocks back, is `chebLayer X0 X1 X2 W b` when
  the region finds the stacked basis, the narrowed weights and the bias row in its three input arrays. Point t
  sees rows 2000·t … 2000·t + 1999 of each basis array (block index (0, t, 0) of the stack), the whole weight
  stack and the whole bias row, and writes rows 2000·t … 2000·t + 1999 of the output; entry (p, q) of what it
  writes is the layer's entry (2000·t + p, q) — both are the same sum of three row-by-column products, the bias
  and the rectifier —; the 25 blocks cover the 50000 rows (row r lies in block r / 2000).
-/
import proofs.«132460_j26242250179009_1_alg».proof.Proof.KI.Cheb0
import proofs.«132460_j26242250179009_1_alg».proof.Proof.Val.ChebSpecAt
import proofs.«132460_j26242250179009_1_alg».proof.Proof.Val.ChebBlockAt
import proofs.«132460_j26242250179009_1_alg».proof.Proof.Val.StackAt
import Idealize.ShloMosaic.Lib.Pipeline.Value

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.ShloMosaic.Pipeline (Dat Cfg Window)
open scoped BigOperators

/-- The printed index maps, decided over the grid: point t takes block (0, t, 0) of the basis stack, block
    (0, 0, 0) of the weights, block (0, 0) of the bias row and writes block (t, 0) of the output. -/
theorem idx_facts0 : ∀ t : Fin cfg0.N,
    win0_0.index t (0 : Fin 3) = 0 ∧ win0_0.index t (1 : Fin 3) = t.val ∧ win0_0.index t (2 : Fin 3) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

section
variable (V : (c : Dev nD) → (b : Ref sig .tc) → Buf (Elt Ideal) ((c : Thread nD τ).loc b))

/-- The basis window's block at point t, at (k, p, j), is its array at (k, 2000·t + p, j). -/
theorem iblk0_0_apply (c : Dev nD) (t : Fin cfg0.N) (k : Fin 3) (p : Fin 2000) (j : Fin 128) (r : Fin 50000)
    (hr : r.val = 2000 * t.val + p.val) :
    (iblk0 (F := Ideal) V c 0 t : Vec Ideal S3x2000x128 .bf16) (ix3 k p j)
      = (V c main_v66 : S3x50000x128.Idx → Elt Ideal .bf16) (ix3 k r j) := by
  obtain ⟨e0, e1, e2, -⟩ := idx_facts0 t
  unfold iblk0
  rw [View.read_apply]
  show V c main_v66 _ = V c main_v66 _
  congr 1
  funext a
  apply Fin.ext
  match a with
  | ⟨0, _⟩ => show win0_0.index t (0 : Fin 3) * 3 + 1 * k.val = k.val; rw [e0]; omega
  | ⟨1, _⟩ => show win0_0.index t (1 : Fin 3) * 2000 + 1 * p.val = r.val; rw [e1, hr]; omega
  | ⟨2, _⟩ => show win0_0.index t (2 : Fin 3) * 128 + 1 * j.val = j.val; rw [e2]; omega

/-- The weight window's block is, at every point, its whole array … -/
theorem iblk0_1_eq (c : Dev nD) (t : Fin cfg0.N) :
    (iblk0 (F := Ideal) V c 1 t : Vec Ideal S3x128x128 .bf16) = (V c main_v67 : S3x128x128.Idx → Elt Ideal .bf16) := by
  obtain ⟨-, -, -, e3, e4, e5, -⟩ := idx_facts0 t
  funext y
  unfold iblk0
  rw [View.read_apply]
  show V c main_v67 _ = V c main_v67 _
  congr 1
  funext a
  apply Fin.ext
  match a with
  | ⟨0, _⟩ => show win0_1.index t (0 : Fin 3) * 3 + 1 * (y 0).val = (y 0).val; rw [e3]; omega
  | ⟨1, _⟩ => show win0_1.index t (1 : Fin 3) * 128 + 1 * (y 1).val = (y 1).val; rw [e4]; omega
  | ⟨2, _⟩ => show win0_1.index t (2 : Fin 3) * 128 + 1 * (y 2).val = (y 2).val; rw [e5]; omega

/-- … and so is the bias window's. -/
theorem iblk0_2_eq (c : Dev nD) (t : Fin cfg0.N) :
    (iblk0 (F := Ideal) V c 2 t : Vec Ideal S1x128 .f32) = (V c main_v68 : S1x128.Idx → Elt Ideal .f32) := by
  obtain ⟨-, -, -, -, -, -, e6, e7, -⟩ := idx_facts0 t
  funext y
  unfold iblk0
  rw [View.read_apply]
  show V c main_v68 _ = V c main_v68 _
  congr 1
  funext a
  apply Fin.ext
  match a with
  | ⟨0, _⟩ => show win0_2.index t (0 : Fin 2) * 1 + 1 * (y 0).val = (y 0).val; rw [e6]; omega
  | ⟨1, _⟩ => show win0_2.index t (1 : Fin 2) * 128 + 1 * (y 1).val = (y 1).val; rw [e7]; omega

/-- WHAT POINT t WRITES BACK is block t of the layer. -/
theorem flushed0_eq (c : Dev nD) (X0 X1 X2 : FVec Ideal S50000x128 .f32) (W : FVec Ideal S3x128x128 .f32) (b : FVec Ideal S128 .f32)
    (hX : V c main_v66 = Cert.Spec.stack3 X0 X1 X2) (hW : V c main_v67 = Cert.Spec.narrowW W) (hb : V c main_v68 = Cert.Spec.biasRow b)
    (t : Fin cfg0.N) :
    (dat0 (F := Ideal) V c).flushed 3 t = ((cfg0.win 3).blk t).view.read (Elt Ideal) (Cert.Spec.chebLayer X0 X1 X2 W b) := by
  obtain ⟨-, -, -, -, -, -, -, -, e8, e9⟩ := idx_facts0 t
  show (cfg0.win 3).cut (grid0.coords t) ((dat0 V c).after 3 t) = _
  rw [dat0_after_3]
  funext y
  obtain ⟨p, q, rfl⟩ : ∃ (p : Fin 2000) (q : Fin 128), y = ix2 p q := ⟨y 0, y 1, eq_ix2 y⟩
  have hN : cfg0.N = 25 := N_0
  have hr : 2000 * t.val + p.val < 50000 := by have := t.isLt; omega
  rw [View.read_apply]
  show blockOut0 (iblk0 V c 0 t) (iblk0 V c 1 t) (iblk0 V c 2 t) (ix2 p q)
    = Cert.Spec.chebLayer X0 X1 X2 W b (((cfg0.win 3).blk t).view.emb (ix2 p q))
  have hemb : ((cfg0.win 3).blk t).view.emb (ix2 p q) = ix2 (⟨2000 * t.val + p.val, hr⟩ : Fin 50000) q := by
    funext a
    apply Fin.ext
    match a with
    | ⟨0, _⟩ => show win0_3.index t (0 : Fin 2) * 2000 + 1 * p.val = 2000 * t.val + p.val; rw [e8]; omega
    | ⟨1, _⟩ => show win0_3.index t (1 : Fin 2) * 128 + 1 * q.val = q.val; rw [e9]; omega
  rw [hemb, Cert.Spec.ChebAt.chebLayer_apply, blockOut0_apply]
  have hB0 : ∀ k : Fin 128, iblk0 (F := Ideal) V c 0 t (ix3 (0 : Fin 3) p k) = X0 (ix2 (⟨2000 * t.val + p.val, hr⟩ : Fin 50000) k) := fun k =>
    (iblk0_0_apply V c t 0 p k ⟨2000 * t.val + p.val, hr⟩ rfl).trans (by rw [hX]; exact Cert.Spec.StackAt.stack3_apply0 X0 X1 X2 _ k)
  have hB1 : ∀ k : Fin 128, iblk0 (F := Ideal) V c 0 t (ix3 (1 : Fin 3) p k) = X1 (ix2 (⟨2000 * t.val + p.val, hr⟩ : Fin 50000) k) := fun k =>
    (iblk0_0_apply V c t 1 p k ⟨2000 * t.val + p.val, hr⟩ rfl).trans (by rw [hX]; exact Cert.Spec.StackAt.stack3_apply1 X0 X1 X2 _ k)
  have hB2 : ∀ k : Fin 128, iblk0 (F := Ideal) V c 0 t (ix3 (2 : Fin 3) p k) = X2 (ix2 (⟨2000 * t.val + p.val, hr⟩ : Fin 50000) k) := fun k =>
    (iblk0_0_apply V c t 2 p k ⟨2000 * t.val + p.val, hr⟩ rfl).trans (by rw [hX]; exact Cert.Spec.StackAt.stack3_apply2 X0 X1 X2 _ k)
  have hWt : ∀ i : S3x128x128.Idx, iblk0 (F := Ideal) V c 1 t i = W i := fun i => by
    rw [iblk0_1_eq V c t, hW]; exact Cert.Spec.StackAt.narrowW_apply W i
  have hbt : iblk0 (F := Ideal) V c 2 t (ix2 (0 : Fin 1) q) = b (ix1 q) := by
    rw [iblk0_2_eq V c t, hb]; exact Cert.Spec.StackAt.biasRow_apply b 0 q
  refine congrArg₂ max (congrArg₂ (· + ·) (congrArg₂ (· + ·) (congrArg₂ (· + ·) ?_ ?_) ?_) hbt) rfl
  · exact Finset.sum_congr rfl fun k _ => by rw [hB0 k, hWt]
  · exact Finset.sum_congr rfl fun k _ => by rw [hB1 k, hWt]
  · exact Finset.sum_congr rfl fun k _ => by rw [hB2 k, hWt]

/-- An index of the output array is in point t's block iff each coordinate is in the block's range on its axis. -/
theorem mem_blk0_3 (t : Fin cfg0.N) (i : S50000x128.Idx) :
    i ∈ ((cfg0.win 3).blk t).view.set ↔ ∀ a : Fin 2, win0_3.index t a * S2000x128.size a ≤ (i a).val
      ∧ (i a).val < win0_3.index t a * S2000x128.size a + S2000x128.size a := by
  show i ∈ ((View.whole main_v69).slice (win0_3.rect t)).set ↔ _
  rw [View.set_slice_whole, Rect.mem_set_unit]
  exact Iff.rfl

/-- Every row of the output array lies in some point's block: row r in block r / 2000. -/
theorem cover0 (i : S50000x128.Idx) : ∃ t : Fin cfg0.N, (cfg0.win 3).flush t = true ∧ i ∈ ((cfg0.win 3).blk t).view.set := by
  have hN : cfg0.N = 25 := N_0
  have hi0 : (i 0).val < 50000 := (i 0).isLt
  have hi1 : (i 1).val < 128 := (i 1).isLt
  obtain ⟨t, ht⟩ : ∃ t : Fin cfg0.N, t.val = (i 0).val / 2000 := ⟨⟨(i 0).val / 2000, by rw [hN]; omega⟩, rfl⟩
  obtain ⟨-, -, -, -, -, -, -, -, e8, e9⟩ := idx_facts0 t
  refine ⟨t, flush0_3 t, ?_⟩
  rw [mem_blk0_3]
  intro a
  match a with
  | ⟨0, _⟩ =>
    show win0_3.index t (0 : Fin 2) * 2000 ≤ (i 0).val ∧ (i 0).val < win0_3.index t (0 : Fin 2) * 2000 + 2000
    rw [e8, ht]; omega
  | ⟨1, _⟩ =>
    show win0_3.index t (1 : Fin 2) * 128 ≤ (i 1).val ∧ (i 1).val < win0_3.index t (1 : Fin 2) * 128 + 128
    rw [e9]; omega

/-- THE ARRAY the region leaves: the layer of the three basis arrays, the weights and the bias. -/
theorem cheb0_array (c : Dev nD)
    (X0 X1 X2 : FVec Ideal S50000x128 .f32) (W : FVec Ideal S3x128x128 .f32) (b : FVec Ideal S128 .f32)
    (hX : V c main_v66 = Cert.Spec.stack3 X0 X1 X2) (hW : V c main_v67 = Cert.Spec.narrowW W) (hb : V c main_v68 = Cert.Spec.biasRow b) :
    (Hand.dat0 (F := Ideal) V c).arrAt 3 cfg0.N = Cert.Spec.chebLayer X0 X1 X2 W b :=
  (dat0 (F := Ideal) V c).arrAt_eq_of_cover 3 (Cert.Spec.chebLayer X0 X1 X2 W b)
    (fun t _ => flushed0_eq V c X0 X1 X2 W b hX hW hb t) cover0

end

end Cert.KernelIdeal.Val

end
-- ==== Proof.Val.ChebBlock1At.lean ====
/-
  What the body of matmul region 1 leaves in its output block, read at one entry: the same arithmetic as region 0's
  body (three slab products accumulated from zero, the bias row, the rectifier), on region 1's blocks.
-/
import proofs.«132460_j26242250179009_1_alg».proof.Proof.KI.Cheb1
import proofs.«132460_j26242250179009_1_alg».proof.Proof.Val.ChebBlockAt

noncomputable section

namespace Cert.KernelIdeal.Val

open Cert.KernelIdeal Cert.KernelIdeal.Gen Cert.KernelIdeal.Hand
open Idealize.ShloMosaic Idealize.ShloMosaic.ValueIdx
open scoped BigOperators

/-- Entry (p, q) of what the body leaves in the output block. -/
theorem blockOut1_apply (x0 : Vec Ideal S3x2000x128 .bf16) (x1 : Vec Ideal S3x128x128 .bf16) (x2 : Vec Ideal S1x128 .f32)
    (p : Fin 2000) (q : Fin 128) :
    blockOut1 x0 x1 x2 (ix2 p q)
      = max ((((∑ k : Fin 128, x0 (ix3 (0 : Fin 3) p k) * x1 (ix3 (0 : Fin 3) k q)) + ∑ k : Fin 128, x0 (ix3 (1 : Fin 3) p k) * x1 (ix3 (1 : Fin 3) k q))
              + ∑ k : Fin 128, x0 (ix3 (2 : Fin 3) p k) * x1 (ix3 (2 : Fin 3) k q)) + x2 (ix2 (0 : Fin 1) q)) 0 := by
  unfold blockOut1
  rw [View.canon_unit_zero hz2]
  unfold k1_pay1
  have hzero : (FloatOps.ofBits FTy.f32 0x00000000#32 : Ideal .f32) = 0 := Ideal.ofBits_zero_f32
  rw [maximumf_apply, addf_apply, addf_apply, addf_apply, addf_apply,
    mmSlab_apply 0 (by decide), mmSlab_apply 1 (by decide), mmSlab_apply 2 (by decide),
    broadcast_apply, hzero, zero_add, broadcastTo_1b_ab_apply, shapeCast_self, View.ld_unit_zero (S := S1x128) hz2]
  rfl

end Cert.KernelIdeal.Val

end
-- ==== Proof.Val.Cheb1.lean ====
/-
  The array matmul region 1 leaves is the layer.

  The region's output array, after all 25 points have written their blocks back, is `chebLayer X0 X1 X2 W b` when
  the region finds the stacked basis, the narrowed weights and the bias row in its three input arrays. Point t
  sees rows 2000·t … 2000·t + 1999 of each basis array (block index (0, t, 0) of the stack), the whole weight
  stack and the whole bias row, and writes rows 2000·t … 2000·t + 1999 of the output; entry (p, q) of what it
  writes is the layer's entry (2000·t + p, q) — both are the same sum of three row-by-column products, the bias
  and the rectifier —; the 25 blocks cover the 50000 rows (row r lies in block r / 2000).
-/
import proofs.«132460_j26242250179009_1_alg».proof.Proof.KI.Cheb1
import proofs.«132460_j26242250179009_1_alg».proof.Proof.Val.ChebSpecAt
import proofs.«132460_j26242250179009_1_alg».proof.Proof.Val.ChebBlock1At
import proofs.«132460_j26242250179009_1_alg».proof.Proof.Val.StackAt
import Idealize.ShloMosaic.Lib.Pipeline.Value

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.ShloMosaic.Pipeline (Dat Cfg Window)
open scoped BigOperators

/-- The printed index maps, decided over the grid: point t takes block (0, t, 0) of the basis stack, block
    (0, 0, 0) of the weights, block (0, 0) of the bias row and writes block (t, 0) of the output. -/
theorem idx_facts1 : ∀ t : Fin cfg1.N,
    win1_0.index t (0 : Fin 3) = 0 ∧ win1_0.index t (1 : Fin 3) = t.val ∧ win1_0.index t (2 : Fin 3) = 0
    ∧ win1_1.index t (0 : Fin 3) = 0 ∧ win1_1.index t (1 : Fin 3) = 0 ∧ win1_1.index t (2 : Fin 3) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

section
variable (V : (c : Dev nD) → (b : Ref sig .tc) → Buf (Elt Ideal) ((c : Thread nD τ).loc b))

/-- The basis window's block at point t, at (k, p, j), is its array at (k, 2000·t + p, j). -/
theorem iblk1_0_apply (c : Dev nD) (t : Fin cfg1.N) (k : Fin 3) (p : Fin 2000) (j : Fin 128) (r : Fin 50000)
    (hr : r.val = 2000 * t.val + p.val) :
    (iblk1 (F := Ideal) V c 0 t : Vec Ideal S3x2000x128 .bf16) (ix3 k p j)
      = (V c main_v103 : S3x50000x128.Idx → Elt Ideal .bf16) (ix3 k r j) := by
  obtain ⟨e0, e1, e2, -⟩ := idx_facts1 t
  unfold iblk1
  rw [View.read_apply]
  show V c main_v103 _ = V c main_v103 _
  congr 1
  funext a
  apply Fin.ext
  match a with
  | ⟨0, _⟩ => show win1_0.index t (0 : Fin 3) * 3 + 1 * k.val = k.val; rw [e0]; omega
  | ⟨1, _⟩ => show win1_0.index t (1 : Fin 3) * 2000 + 1 * p.val = r.val; rw [e1, hr]; omega
  | ⟨2, _⟩ => show win1_0.index t (2 : Fin 3) * 128 + 1 * j.val = j.val; rw [e2]; omega

/-- The weight window's block is, at every point, its whole array … -/
theorem iblk1_1_eq (c : Dev nD) (t : Fin cfg1.N) :
    (iblk1 (F := Ideal) V c 1 t : Vec Ideal S3x128x128 .bf16) = (V c main_v104 : S3x128x128.Idx → Elt Ideal .bf16) := by
  obtain ⟨-, -, -, e3, e4, e5, -⟩ := idx_facts1 t
  funext y
  unfold iblk1
  rw [View.read_apply]
  show V c main_v104 _ = V c main_v104 _
  congr 1
  funext a
  apply Fin.ext
  match a with
  | ⟨0, _⟩ => show win1_1.index t (0 : Fin 3) * 3 + 1 * (y 0).val = (y 0).val; rw [e3]; omega
  | ⟨1, _⟩ => show win1_1.index t (1 : Fin 3) * 128 + 1 * (y 1).val = (y 1).val; rw [e4]; omega
  | ⟨2, _⟩ => show win1_1.index t (2 : Fin 3) * 128 + 1 * (y 2).val = (y 2).val; rw [e5]; omega

/-- … and so is the bias window's. -/
theorem iblk1_2_eq (c : Dev nD) (t : Fin cfg1.N) :
    (iblk1 (F := Ideal) V c 2 t : Vec Ideal S1x128 .f32) = (V c main_v105 : S1x128.Idx → Elt Ideal .f32) := by
  obtain ⟨-, -, -, -, -, -, e6, e7, -⟩ := idx_facts1 t
  funext y
  unfold iblk1
  rw [View.read_apply]
  show V c main_v105 _ = V c main_v105 _
  congr 1
  funext a
  apply Fin.ext
  match a with
  | ⟨0, _⟩ => show win1_2.index t (0 : Fin 2) * 1 + 1 * (y 0).val = (y 0).val; rw [e6]; omega
  | ⟨1, _⟩ => show win1_2.index t (1 : Fin 2) * 128 + 1 * (y 1).val = (y 1).val; rw [e7]; omega

/-- WHAT POINT t WRITES BACK is block t of the layer. -/
theorem flushed1_eq (c : Dev nD) (X0 X1 X2 : FVec Ideal S50000x128 .f32) (W : FVec Ideal S3x128x128 .f32) (b : FVec Ideal S128 .f32)
    (hX : V c main_v103 = Cert.Spec.stack3 X0 X1 X2) (hW : V c main_v104 = Cert.Spec.narrowW W) (hb : V c main_v105 = Cert.Spec.biasRow b)
    (t : Fin cfg1.N) :
    (dat1 (F := Ideal) V c).flushed 3 t = ((cfg1.win 3).blk t).view.read (Elt Ideal) (Cert.Spec.chebLayer X0 X1 X2 W b) := by
  obtain ⟨-, -, -, -, -, -, -, -, e8, e9⟩ := idx_facts1 t
  show (cfg1.win 3).cut (grid1.coords t) ((dat1 V c).after 3 t) = _
  rw [dat1_after_3]
  funext y
  obtain ⟨p, q, rfl⟩ : ∃ (p : Fin 2000) (q : Fin 128), y = ix2 p q := ⟨y 0, y 1, eq_ix2 y⟩
  have hN : cfg1.N = 25 := N_1
  have hr : 2000 * t.val + p.val < 50000 := by have := t.isLt; omega
  rw [View.read_apply]
  show blockOut1 (iblk1 V c 0 t) (iblk1 V c 1 t) (iblk1 V c 2 t) (ix2 p q)
    = Cert.Spec.chebLayer X0 X1 X2 W b (((cfg1.win 3).blk t).view.emb (ix2 p q))
  have hemb : ((cfg1.win 3).blk t).view.emb (ix2 p q) = ix2 (⟨2000 * t.val + p.val, hr⟩ : Fin 50000) q := by
    funext a
    apply Fin.ext
    match a with
    | ⟨0, _⟩ => show win1_3.index t (0 : Fin 2) * 2000 + 1 * p.val = 2000 * t.val + p.val; rw [e8]; omega
    | ⟨1, _⟩ => show win1_3.index t (1 : Fin 2) * 128 + 1 * q.val = q.val; rw [e9]; omega
  rw [hemb, Cert.Spec.ChebAt.chebLayer_apply, blockOut1_apply]
  have hB0 : ∀ k : Fin 128, iblk1 (F := Ideal) V c 0 t (ix3 (0 : Fin 3) p k) = X0 (ix2 (⟨2000 * t.val + p.val, hr⟩ : Fin 50000) k) := fun k =>
    (iblk1_0_apply V c t 0 p k ⟨2000 * t.val + p.val, hr⟩ rfl).trans (by rw [hX]; exact Cert.Spec.StackAt.stack3_apply0 X0 X1 X2 _ k)
  have hB1 : ∀ k : Fin 128, iblk1 (F := Ideal) V c 0 t (ix3 (1 : Fin 3) p k) = X1 (ix2 (⟨2000 * t.val + p.val, hr⟩ : Fin 50000) k) := fun k =>
    (iblk1_0_apply V c t 1 p k ⟨2000 * t.val + p.val, hr⟩ rfl).trans (by rw [hX]; exact Cert.Spec.StackAt.stack3_apply1 X0 X1 X2 _ k)
  have hB2 : ∀ k : Fin 128, iblk1 (F := Ideal) V c 0 t (ix3 (2 : Fin 3) p k) = X2 (ix2 (⟨2000 * t.val + p.val, hr⟩ : Fin 50000) k) := fun k =>
    (iblk1_0_apply V c t 2 p k ⟨2000 * t.val + p.val, hr⟩ rfl).trans (by rw [hX]; exact Cert.Spec.StackAt.stack3_apply2 X0 X1 X2 _ k)
  have hWt : ∀ i : S3x128x128.Idx, iblk1 (F := Ideal) V c 1 t i = W i := fun i => by
    rw [iblk1_1_eq V c t, hW]; exact Cert.Spec.StackAt.narrowW_apply W i
  have hbt : iblk1 (F := Ideal) V c 2 t (ix2 (0 : Fin 1) q) = b (ix1 q) := by
    rw [iblk1_2_eq V c t, hb]; exact Cert.Spec.StackAt.biasRow_apply b 0 q
  refine congrArg₂ max (congrArg₂ (· + ·) (congrArg₂ (· + ·) (congrArg₂ (· + ·) ?_ ?_) ?_) hbt) rfl
  · exact Finset.sum_congr rfl fun k _ => by rw [hB0 k, hWt]
  · exact Finset.sum_congr rfl fun k _ => by rw [hB1 k, hWt]
  · exact Finset.sum_congr rfl fun k _ => by rw [hB2 k, hWt]

/-- An index of the output array is in point t's block iff each coordinate is in the block's range on its axis. -/
theorem mem_blk1_3 (t : Fin cfg1.N) (i : S50000x128.Idx) :
    i ∈ ((cfg1.win 3).blk t).view.set ↔ ∀ a : Fin 2, win1_3.index t a * S2000x128.size a ≤ (i a).val
      ∧ (i a).val < win1_3.index t a * S2000x128.size a + S2000x128.size a := by
  show i ∈ ((View.whole main_v106).slice (win1_3.rect t)).set ↔ _
  rw [View.set_slice_whole, Rect.mem_set_unit]
  exact Iff.rfl

/-- Every row of the output array lies in some point's block: row r in block r / 2000. -/
theorem cover1 (i : S50000x128.Idx) : ∃ t : Fin cfg1.N, (cfg1.win 3).flush t = true ∧ i ∈ ((cfg1.win 3).blk t).view.set := by
  have hN : cfg1.N = 25 := N_1
  have hi0 : (i 0).val < 50000 := (i 0).isLt
  have hi1 : (i 1).val < 128 := (i 1).isLt
  obtain ⟨t, ht⟩ : ∃ t : Fin cfg1.N, t.val = (i 0).val / 2000 := ⟨⟨(i 0).val / 2000, by rw [hN]; omega⟩, rfl⟩
  obtain ⟨-, -, -, -, -, -, -, -, e8, e9⟩ := idx_facts1 t
  refine ⟨t, flush1_3 t, ?_⟩
  rw [mem_blk1_3]
  intro a
  match a with
  | ⟨0, _⟩ =>
    show win1_3.index t (0 : Fin 2) * 2000 ≤ (i 0).val ∧ (i 0).val < win1_3.index t (0 : Fin 2) * 2000 + 2000
    rw [e8, ht]; omega
  | ⟨1, _⟩ =>
    show win1_3.index t (1 : Fin 2) * 128 ≤ (i 1).val ∧ (i 1).val < win1_3.index t (1 : Fin 2) * 128 + 128
    rw [e9]; omega

/-- THE ARRAY the region leaves: the layer of the three basis arrays, the weights and the bias. -/
theorem cheb1_array (c : Dev nD)
    (X0 X1 X2 : FVec Ideal S50000x128 .f32) (W : FVec Ideal S3x128x128 .f32) (b : FVec Ideal S128 .f32)
    (hX : V c main_v103 = Cert.Spec.stack3 X0 X1 X2) (hW : V c main_v104 = Cert.Spec.narrowW W) (hb : V c main_v105 = Cert.Spec.biasRow b) :
    (Hand.dat1 (F := Ideal) V c).arrAt 3 cfg1.N = Cert.Spec.chebLayer X0 X1 X2 W b :=
  (dat1 (F := Ideal) V c).arrAt_eq_of_cover 3 (Cert.Spec.chebLayer X0 X1 X2 W b)
    (fun t _ => flushed1_eq V c X0 X1 X2 W b hX hW hb t) cover1

end

end Cert.KernelIdeal.Val

end
-- ==== Proof.KI.Mean2Rows.lean ====
/-
  What each control case of the mean region leaves in the output row, as arithmetic on what it was handed:
  the first point leaves `zeros + column sums of the block`; a middle point `previous row + column sums`; the
  last point that, times the reciprocal of the row count. (The stores are of the whole row, so the row reads
  back as the last store's payload, and a load after a whole-row store reads that store's payload.)
-/
import proofs.«132460_j26242250179009_1_alg».proof.Proof.KI.Mean2
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem

variable {F : FTy → Type} [FloatOps F] [Named F]

theorem zeroOff2 : (![0, 0] : Fin 2 → Nat) = fun _ => 0 := by
  funext a; fin_cases a <;> rfl

theorem firstRow2_eq (c : Dev nD) (i : grid2.Coords) (arg1 : Memref sig .tc .vmem S2000x128 .f32) (harg1 : arg1.IsWhole)
    (arg2 : Memref sig .tc .vmem S1x128 .f32) (harg2 : arg2.IsWhole) (h0 : isFirst2 i) (h1 : ¬isLast2 i)
    (x0 : Vec F S2000x128 .f32) :
    firstRow2 c i arg1 harg1 arg2 harg2 h0 h1 x0 = k2_pay2 (k2_pay1 (F := F)) x0 := by
  unfold firstRow2
  rw [View.read_writes_eq_canon _ _ _ (firstRun2_cover c i arg1 harg1 arg2 harg2 h0 h1 x0)]
  unfold firstRun2
  dsimp only
  sl_unfold_words
  refine (View.canon_cons_unit_zero (S := S1x128) zeroOff2 _ _ _).trans ?_
  simp only [View.readCov_unit_zero (S := S1x128) _ zeroOff2, View.readAt_eq_ld, harg1.read_unread,
    View.ld_unit_zero (S := S2000x128) zeroOff2]

theorem midRow2_eq (c : Dev nD) (i : grid2.Coords) (arg1 : Memref sig .tc .vmem S2000x128 .f32) (harg1 : arg1.IsWhole)
    (arg2 : Memref sig .tc .vmem S1x128 .f32) (harg2 : arg2.IsWhole) (h0 : ¬isFirst2 i) (h1 : ¬isLast2 i)
    (x0 : Vec F S2000x128 .f32) (xo : Vec F S1x128 .f32) :
    midRow2 c i arg1 harg1 arg2 harg2 h0 h1 x0 xo = k2_pay2 xo x0 := by
  unfold midRow2
  rw [View.read_writes_eq_canon _ _ _ (midRun2_cover c i arg1 harg1 arg2 harg2 h0 h1 x0 xo)]
  unfold midRun2
  dsimp only
  sl_unfold_words
  refine (View.canon_cons_unit_zero (S := S1x128) zeroOff2 _ _ _).trans ?_
  simp only [View.readAt_eq_ld, harg1.read_unread, harg2.read_unread,
    View.ld_unit_zero (S := S2000x128) zeroOff2, View.ld_unit_zero (S := S1x128) zeroOff2]

theorem lastRow2_eq (c : Dev nD) (i : grid2.Coords) (arg1 : Memref sig .tc .vmem S2000x128 .f32) (harg1 : arg1.IsWhole)
    (arg2 : Memref sig .tc .vmem S1x128 .f32) (harg2 : arg2.IsWhole) (h0 : ¬isFirst2 i) (h1 : isLast2 i)
    (x0 : Vec F S2000x128 .f32) (xo : Vec F S1x128 .f32) :
    lastRow2 c i arg1 harg1 arg2 harg2 h0 h1 x0 xo = k2_pay3 (k2_pay2 xo x0) := by
  unfold lastRow2
  rw [View.read_writes_eq_canon _ _ _ (lastRun2_cover c i arg1 harg1 arg2 harg2 h0 h1 x0 xo)]
  unfold lastRun2
  dsimp only
  sl_unfold_words
  refine (View.canon_cons_unit_zero (S := S1x128) zeroOff2 _ _ _).trans ?_
  simp only [View.readCov_unit_zero (S := S1x128) _ zeroOff2, View.readAt_eq_ld, harg1.read_unread, harg2.read_unread,
    View.ld_unit_zero (S := S2000x128) zeroOff2, View.ld_unit_zero (S := S1x128) zeroOff2]

end Cert.KernelIdeal.Hand

end
-- ==== Proof.Val.MeanSpecAt.lean ====
/-
  The mean over the rows, read at one entry.

  Entry (0, q) of `meanRows h` is (Σ_r h[r, q]) · (1/50000) over the extended reals: the host's sum over the
  row axis starts from the constant 0 (0 + a = a), the divisor's word denotes the real 50000, and division by a
  nonzero real is the product with its reciprocal on every extended real.
-/
import proofs.«132460_j26242250179009_1_alg».proof.Proof.Spec.Layer
import Idealize.ShloMosaic.Lib.ValueLayout
import Idealize.ShloMosaic.PureOps.Ideal.Laws

noncomputable section

namespace Cert.Spec.MeanAt

open Idealize.ShloMosaic Idealize.ShloMosaic.ValueIdx Cert.ReferenceIdeal Cert.ReferenceIdeal.Gen
open scoped BigOperators

/-- The divisor's word denotes the real 50000. -/
theorem ofBits_50000 : Ideal.ofBits .f32 0x47435000#32 = ((50000 : ℝ) : EReal) := by
  simp [Ideal.ofBits, Ideal.ieee, -EReal.coe_mul]; norm_num

/-- The host's sum over the row axis from the constant 0, at column q, is the sum of the column. -/
theorem colSum_apply (h : FVec Ideal S50000x128 .f32) (hR : S50000x128.ReducesTo [0] S128) (hu : 0 < S_.numel) (q : Fin 128) :
    Host.reduceAdd (F := Ideal) h (constant (F := Ideal) S_ .f32 0x00000000#32) hR hu (ix1 q) = ∑ r : Fin 50000, h (ix2 r q) := by
  have hRed : S50000x128.Reduces [0] S128 := by decide
  show Ideal.hostReduceAdd hR h (Ideal.ofBits .f32 0x00000000#32) (ix1 q) = _
  rw [Ideal.hostReduceAdd_single hR hRed, Ideal.ofBits_zero_f32, zero_add]
  refine Finset.sum_congr rfl fun r _ => congrArg h (funext fun a => Fin.ext ?_)
  match a with
  | ⟨0, _⟩ => rfl
  | ⟨1, _⟩ => rfl

/-- Entry (u, q) of the mean row. -/
theorem meanRows_apply (h : FVec Ideal S50000x128 .f32) (u : Fin 1) (q : Fin 128) :
    Cert.Spec.meanRows h (ix2 u q) = (∑ r : Fin 50000, h (ix2 r q)) * ((1 / 50000 : ℝ) : EReal) := by
  unfold Cert.Spec.meanRows
  show Ideal.div _ _ = _
  rw [broadcastInDim_apply _ bcast_S128_S1x128_1 _ (ix2 u q) (ix1 q) (fun a => match a with
      | ⟨0, _⟩ => by show q.val = if (128 : Nat) = 1 then 0 else q.val; rw [if_neg (by decide)]),
    broadcastInDim_apply _ bcast_S_S1x128 _ (ix2 u q) ix0 (fun a => a.elim0),
    colSum_apply, constant_apply, ofBits_50000, Ideal.div_coe (by norm_num : (50000 : ℝ) ≠ 0)]

end Cert.Spec.MeanAt

end
-- ==== Proof.Val.MeanPayAt.lean ====
/-
  The three payloads of the mean region's body, read at one entry.

  Over the extended reals: the cleared row is 0 everywhere; "previous row plus the column sums of the block"
  reads, at (0, q), the previous row at (0, q) plus Σ_p block[p, q] (the lane sum over the row axis starts from
  the zero accumulator, which adds nothing); and the last point's scaling multiplies by the named constant,
  the real 1/50000.
-/
import proofs.«132460_j26242250179009_1_alg».proof.Proof.Gen.KernelIdeal.Skeleton
import Idealize.ShloMosaic.Lib.ValueLayout
import Idealize.ShloMosaic.PureOps.Ideal.Laws
import Idealize.ShloMosaic.PureOps.IdealRules

noncomputable section

namespace Cert.KernelIdeal.Val

open Cert.KernelIdeal Cert.KernelIdeal.Gen
open Idealize.ShloMosaic Idealize.ShloMosaic.ValueIdx
open scoped BigOperators

/-- The named reciprocal of the row count is the real 1/50000. -/
theorem inv_50000 : Named.named (F := Ideal) Cert.KernelIdeal.κ "inv_50000" (φ := .f32) 0x37A7C5AC#32 = ((1 / 50000 : ℝ) : EReal) :=
  IdealRules.named_const.ideal_named_scalar _ _ _ _ rfl

/-- The cleared row is 0 everywhere. -/
theorem pay1_apply (i : S1x128.Idx) : k2_pay1 (F := Ideal) i = 0 := by
  unfold k2_pay1
  rw [broadcast_apply]
  exact Ideal.ofBits_zero_f32

/-- "Previous row plus the block's column sums" at (u, q). -/
theorem pay2_apply (v3 : Vec Ideal S1x128 .f32) (v5 : Vec Ideal S2000x128 .f32) (u : Fin 1) (q : Fin 128) :
    k2_pay2 v3 v5 (ix2 u q) = v3 (ix2 u q) + ∑ p : Fin 2000, v5 (ix2 p q) := by
  unfold k2_pay2
  rw [addf_apply, shapeCast_self, shapeCast_a_1a_apply, shapeCast_self]
  refine congrArg (v3 (ix2 u q) + ·) ?_
  refine (Ideal.multiReduction_add_single v5 0x00000000#32 reduces_S2000x128_S128 (.inl rfl) rfl (ix1 q)).trans ?_
  refine Finset.sum_congr rfl fun p _ => congrArg v5 (funext fun a => Fin.ext ?_)
  match a with
  | ⟨0, _⟩ => rfl
  | ⟨1, _⟩ => rfl

/-- The last point's scaling at an entry. -/
theorem pay3_apply (v : Vec Ideal S1x128 .f32) (i : S1x128.Idx) :
    k2_pay3 v i = v i * ((1 / 50000 : ℝ) : EReal) := by
  unfold k2_pay3
  rw [mulf_apply, shapeCast_self, broadcast_apply, inv_50000]

end Cert.KernelIdeal.Val

end
-- ==== Proof.Val.Mean2.lean ====
/-
  The array the mean region leaves is the mean of the rows.

  The region's output row, written back once after the last of its 25 points, is `meanRows h` when the region
  finds h in its input array. Point t adds to the row the column sums of rows 2000·t … 2000·t + 1999 of h (the
  first point after clearing the row), so after point n < 24 column q of the row holds the sum of the first
  n + 1 block sums, and the last point leaves the sum of all 25 block sums times 1/50000. The 25 block sums of
  2000 rows add up to the sum over all 50000 rows, and the reference's quotient by 50000 is that product on
  every extended real.
-/
import proofs.«132460_j26242250179009_1_alg».proof.Proof.KI.Mean2Rows
import proofs.«132460_j26242250179009_1_alg».proof.Proof.Val.MeanSpecAt
import proofs.«132460_j26242250179009_1_alg».proof.Proof.Val.MeanPayAt
import Idealize.ShloMosaic.Lib.Pipeline.Value

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.ShloMosaic.Pipeline (Dat Cfg Window)
open scoped BigOperators

/-- The printed index maps, decided over the grid: point t takes block (t, 0) of the input array and the one
    block (0, 0) of the output row. -/
theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0 :=
  (by decide +kernel : ∀ t : Fin grid2.N, _)

/-! ## Sums in blocks -/

/-- A sum over m·n indices is the sum over m blocks of the sums over the n indices of each block (any function
    `g` that reads `f` at n·t + p). -/
theorem sum_blocks {M : Type} [AddCommMonoid M] (m n : ℕ) (f : Fin (m * n) → M) (g : Fin m → Fin n → M)
    (hg : ∀ t p, g t p = f (finProdFinEquiv (t, p))) : ∑ r, f r = ∑ t, ∑ p, g t p := by
  rw [← Equiv.sum_comp finProdFinEquiv f, Fintype.sum_prod_type]
  simp only [hg]

/-- Column q of h summed over block t of 2000 rows (0 past the 25 blocks). -/
def blockSum (h : FVec Ideal S50000x128 .f32) (q : Fin 128) (t : ℕ) : EReal :=
  if ht : t < 25 then ∑ p : Fin 2000, h (ix2 (⟨2000 * t + p.val, by have := p.isLt; omega⟩ : Fin 50000) q) else 0

/-- The 25 block sums add up to the column's sum over all 50000 rows. -/
theorem sum_blockSum (h : FVec Ideal S50000x128 .f32) (q : Fin 128) :
    ∑ t ∈ Finset.range 25, blockSum h q t = ∑ r : Fin 50000, h (ix2 r q) := by
  have e : (25 * 2000 : ℕ) = 50000 := by norm_num
  symm
  rw [← Equiv.sum_comp (finCongr e) (fun r : Fin 50000 => h (ix2 r q))]
  refine (sum_blocks 25 2000 _
    (fun t p => h (ix2 (⟨2000 * t.val + p.val, by have := p.isLt; have := t.isLt; omega⟩ : Fin 50000) q)) (fun t p => ?_)).trans ?_
  · refine congrArg h (funext fun a => Fin.ext ?_)
    match a with
    | ⟨0, _⟩ => show 2000 * t.val + p.val = p.val + 2000 * t.val; omega
    | ⟨1, _⟩ => rfl
  · rw [Finset.sum_range]
    refine Finset.sum_congr rfl fun t _ => ?_
    unfold blockSum
    rw [dif_pos t.isLt]

section
variable (V : (c : Dev nD) → (b : Ref sig .tc) → Buf (Elt Ideal) ((c : Thread nD τ).loc b))

/-- The input window's block at point t, at (p, q), is its array at (2000·t + p, q). -/
theorem iblk2_0_apply (c : Dev nD) (t : Fin cfg2.N) (p : Fin 2000) (q : Fin 128) (r : Fin 50000)
    (hr : r.val = 2000 * t.val + p.val) :
    (iblk2 (F := Ideal) V c 0 t : Vec Ideal S2000x128 .f32) (ix2 p q)
      = (V c main_v106 : S50000x128.Idx → Elt Ideal .f32) (ix2 r q) := by
  obtain ⟨e0, e1, -⟩ := idx_facts2 t
  unfold iblk2
  rw [View.read_apply]
  show V c main_v106 _ = V c main_v106 _
  congr 1
  funext a
  apply Fin.ext
  match a with
  | ⟨0, _⟩ => show win2_0.index t (0 : Fin 2) * 2000 + 1 * p.val = r.val; rw [e0, hr]; omega
  | ⟨1, _⟩ => show win2_0.index t (1 : Fin 2) * 128 + 1 * q.val = q.val; rw [e1]; omega

/-- The column sums of the block at point n are block n's sum of the array's column. -/
theorem iblk2_colSum (c : Dev nD) (h : FVec Ideal S50000x128 .f32) (hh : V c main_v106 = h) (q : Fin 128)
    (n : ℕ) (hn : n < cfg2.N) :
    (∑ p : Fin 2000, (iblk2 (F := Ideal) V c 0 ⟨n, hn⟩ : Vec Ideal S2000x128 .f32) (ix2 p q) : EReal) = blockSum h q n := by
  have h25 : n < 25 := lt25_2 hn
  unfold blockSum
  rw [dif_pos h25]
  refine Finset.sum_congr rfl fun p _ => ?_
  rw [iblk2_0_apply V c ⟨n, hn⟩ p q ⟨2000 * n + p.val, by have := p.isLt; omega⟩ rfl, hh]

/-- AFTER POINT n < 24 column q of the row holds the first n + 1 block sums. -/
theorem rowAfter2_partial (c : Dev nD) (h : FVec Ideal S50000x128 .f32) (hh : V c main_v106 = h) (q : Fin 128) :
    ∀ (n : ℕ) (hn : n < cfg2.N), n < 24 →
      rowAfter2 (F := Ideal) V c n hn (ix2 (0 : Fin 1) q) = ∑ t ∈ Finset.range (n + 1), blockSum h q t
  | 0, hn, _ => by
    have hf : isFirst2 (grid2.coords ⟨0, hn⟩) := (isFirst2_iff ⟨0, hn⟩).mpr rfl
    have hl : ¬isLast2 (grid2.coords ⟨0, hn⟩) := fun h' => absurd ((isLast2_iff ⟨0, hn⟩).mp h') (by show ¬(0 : ℕ) % 25 = 24; decide)
    refine (congrFun (rowAfter2_first V c ⟨0, hn⟩ rfl hf hl) _).trans ?_
    rw [firstRow2_eq, pay2_apply, pay1_apply, zero_add, Finset.sum_range_one]
    exact iblk2_colSum V c h hh q 0 hn
  | n + 1, hn, h24 => by
    have h0 : ¬(n + 1) % 25 = 0 := by omega
    have h1 : ¬(n + 1) % 25 = 24 := by omega
    have hf : ¬isFirst2 (grid2.coords ⟨n + 1, hn⟩) := fun h' => h0 ((isFirst2_iff ⟨n + 1, hn⟩).mp h')
    have hl : ¬isLast2 (grid2.coords ⟨n + 1, hn⟩) := fun h' => h1 ((isLast2_iff ⟨n + 1, hn⟩).mp h')
    refine (congrFun (rowAfter2_mid V c ⟨n + 1, hn⟩ h0 h1 hf hl) _).trans ?_
    rw [midRow2_eq, pay2_apply, Finset.sum_range_succ _ (n + 1)]
    refine congrArg₂ (· + ·) ?_ (iblk2_colSum V c h hh q (n + 1) hn)
    exact rowAfter2_partial c h hh q n (Nat.lt_of_succ_lt hn) (by omega)

/-- AFTER THE LAST POINT it holds all 25 block sums, times 1/50000. -/
theorem rowAfter2_final (c : Dev nD) (h : FVec Ideal S50000x128 .f32) (hh : V c main_v106 = h) (q : Fin 128) (hn : 24 < cfg2.N) :
    rowAfter2 (F := Ideal) V c 24 hn (ix2 (0 : Fin 1) q) = (∑ t ∈ Finset.range 25, blockSum h q t) * ((1 / 50000 : ℝ) : EReal) := by
  have h0 : ¬(24 : ℕ) % 25 = 0 := by decide
  have h1 : (24 : ℕ) % 25 = 24 := by decide
  have hf : ¬isFirst2 (grid2.coords ⟨24, hn⟩) := fun h' => h0 ((isFirst2_iff ⟨24, hn⟩).mp h')
  have hl : isLast2 (grid2.coords ⟨24, hn⟩) := (isLast2_iff ⟨24, hn⟩).mpr h1
  refine (congrFun (rowAfter2_last V c ⟨24, hn⟩ h0 h1 hf hl) _).trans ?_
  rw [lastRow2_eq, pay3_apply, pay2_apply, Finset.sum_range_succ _ 24]
  refine congrArg (· * ((1 / 50000 : ℝ) : EReal)) (congrArg₂ (· + ·) ?_ (iblk2_colSum V c h hh q 24 hn))
  exact rowAfter2_partial V c h hh q 23 (Nat.lt_of_succ_lt hn) (by decide)

/-- WHAT THE LAST POINT WRITES BACK is the mean row. -/
theorem flushed2_eq (c : Dev nD) (h : FVec Ideal S50000x128 .f32) (hh : V c main_v106 = h)
    (t : Fin cfg2.N) (hf : (cfg2.win 1).flush t = true) :
    (dat2 (F := Ideal) V c).flushed 1 t = ((cfg2.win 1).blk t).view.read (Elt Ideal) (Cert.Spec.meanRows h) := by
  have h25 : t.val < 25 := lt25_2 t.isLt
  have h24 : t.val = 24 := by have := (flush2_1 t).mp hf; omega
  obtain ⟨t, ht⟩ := t
  obtain rfl : t = 24 := h24
  obtain ⟨-, -, e2, e3⟩ := idx_facts2 ⟨24, ht⟩
  show (cfg2.win 1).cut (grid2.coords ⟨24, ht⟩) ((dat2 V c).after 1 ⟨24, ht⟩) = _
  rw [dat2_after_1]
  funext y
  obtain ⟨u, q, rfl⟩ : ∃ (u : Fin 1) (q : Fin 128), y = ix2 u q := ⟨y 0, y 1, eq_ix2 y⟩
  obtain rfl : u = 0 := Subsingleton.elim _ _
  rw [View.read_apply]
  show rowAfter2 V c 24 ht (ix2 (0 : Fin 1) q) = Cert.Spec.meanRows h (((cfg2.win 1).blk ⟨24, ht⟩).view.emb (ix2 (0 : Fin 1) q))
  have hemb : ((cfg2.win 1).blk ⟨24, ht⟩).view.emb (ix2 (0 : Fin 1) q) = ix2 (0 : Fin 1) q := by
    funext a
    apply Fin.ext
    match a with
    | ⟨0, _⟩ => show win2_1.index ⟨24, ht⟩ (0 : Fin 2) * 1 + 1 * 0 = 0; rw [e2]
    | ⟨1, _⟩ => show win2_1.index ⟨24, ht⟩ (1 : Fin 2) * 128 + 1 * q.val = q.val; rw [e3]; omega
  rw [hemb, Cert.Spec.MeanAt.meanRows_apply, rowAfter2_final V c h hh q ht, sum_blockSum]

/-- An index of the output row is in point t's block iff each coordinate is in the block's range on its axis. -/
theorem mem_blk2_1 (t : Fin cfg2.N) (i : S1x128.Idx) :
    i ∈ ((cfg2.win 1).blk t).view.set ↔ ∀ a : Fin 2, win2_1.index t a * S1x128.size a ≤ (i a).val
      ∧ (i a).val < win2_1.index t a * S1x128.size a + S1x128.size a := by
  show i ∈ ((View.whole main_v107).slice (win2_1.rect t)).set ↔ _
  rw [View.set_slice_whole, Rect.mem_set_unit]
  exact Iff.rfl

/-- The last point's block is the whole output row. -/
theorem cover2 (i : S1x128.Idx) : ∃ t : Fin cfg2.N, (cfg2.win 1).flush t = true ∧ i ∈ ((cfg2.win 1).blk t).view.set := by
  have hN : cfg2.N = 25 := N_2
  have hi0 : (i 0).val < 1 := (i 0).isLt
  have hi1 : (i 1).val < 128 := (i 1).isLt
  obtain ⟨t, ht⟩ : ∃ t : Fin cfg2.N, t.val = 24 := ⟨⟨24, by rw [hN]; decide⟩, rfl⟩
  obtain ⟨-, -, e2, e3⟩ := idx_facts2 t
  refine ⟨t, (flush2_1 t).mpr (by rw [ht]), ?_⟩
  rw [mem_blk2_1]
  intro a
  match a with
  | ⟨0, _⟩ =>
    show win2_1.index t (0 : Fin 2) * 1 ≤ (i 0).val ∧ (i 0).val < win2_1.index t (0 : Fin 2) * 1 + 1
    rw [e2]; omega
  | ⟨1, _⟩ =>
    show win2_1.index t (1 : Fin 2) * 128 ≤ (i 1).val ∧ (i 1).val < win2_1.index t (1 : Fin 2) * 128 + 128
    rw [e3]; omega

/-- THE ARRAY the region leaves: the mean of the rows of its input. -/
theorem mean2_array (c : Dev nD) (h : FVec Ideal S50000x128 .f32) (hh : V c main_v106 = h) :
    (Hand.dat2 (F := Ideal) V c).arrAt 1 cfg2.N = Cert.Spec.meanRows h :=
  (dat2 (F := Ideal) V c).arrAt_eq_of_cover 1 (Cert.Spec.meanRows h) (fun t hf => flushed2_eq V c h hh t hf) cover2

end

end Cert.KernelIdeal.Val

end
-- ==== Proof.Spec.Net.lean ====
/-
  The whole network as one function of its inputs, spelled with the host operations the reference program
  applies, over any float interpretation.

  The graph is given by an edge list `ei` (row 0: one endpoint of every edge, row 1: the other). With `deg` the
  number of edges whose first endpoint is a node and `d = deg^(-1/2)` (0 where `deg = 0`), an edge `e = (r, c)`
  carries the weight `w e = -(d r) * (d c)`: the entries of the scaled Laplacian `-D^(-1/2) A D^(-1/2)`.
  One propagation step sends a node array `t` to `(prop t) c = Σ_{e = (r, c)} w e * t r`; the Chebyshev basis of
  order two on `t` is `t, prop t, 2 * prop (prop t) - t`. A layer multiplies the three basis arrays by the three
  slabs of its weight stack, adds them and the bias and rectifies (`chebLayer`); the network is two such layers,
  the mean over the nodes, and a final affine map to two outputs.
-/
import proofs.«132460_j26242250179009_1_alg».proof.Proof.Spec.Layer

noncomputable section

namespace Cert.Spec

open Idealize.ShloMosaic Cert.ReferenceIdeal Cert.ReferenceIdeal.Gen

variable {F : FTy → Type} [FloatOps F]

/-- Row 0 of the edge list as a vector: the first endpoint of every edge. -/
abbrev edgeRow (ei : Vec F S2x800000 .i32) : Vec F S800000 .i32 :=
  shapeCast _ (extractStridedSlice S1x800000 ![0, 0] ei slices_S2x800000_S1x800000_0_0) shapeCasts_S1x800000_S800000

/-- Row 1 of the edge list as a vector: the second endpoint of every edge. -/
abbrev edgeCol (ei : Vec F S2x800000 .i32) : Vec F S800000 .i32 :=
  shapeCast _ (extractStridedSlice S1x800000 ![1, 0] ei slices_S2x800000_S1x800000_1_0) shapeCasts_S1x800000_S800000

/-- An index vector with every negative entry raised by the number of nodes 50000 (an index counted from the
    end), laid out as the one-column index array a gather takes. -/
abbrev wrapIdx (v : Vec F S800000 .i32) : Vec F S800000x1 .i32 :=
  broadcastInDim S800000x1 ![0] bcast_S800000_S800000x1_0
    (select (cmpi .slt v (broadcastInDim S800000 ![] bcast_S_S800000 (constantI S_ 32 0#32)))
      (addi v (broadcastInDim S800000 ![] bcast_S_S800000 (constantI S_ 32 50000#32))) v)

/-- The degree of every node: the number of edges whose first endpoint it is (ones scattered and added at
    row 0 of the edge list). -/
abbrev degree (ei : Vec F S2x800000 .i32) : FVec F S50000 .f32 :=
  Host.scatterAdd scatter_S50000_S800000x1_S800000_n_0_0_1
    (broadcastInDim S50000 ![] bcast_S_S50000 (constant S_ .f32 0x00000000#32))
    (broadcastInDim S800000x1 ![0] bcast_S800000_S800000x1_0 (edgeRow ei))
    (broadcastInDim S800000 ![] bcast_S_S800000 (constant S_ .f32 0x3F800000#32))

/-- `deg^(-1/2)` where the degree is positive and 0 elsewhere: `1 / sqrt` of the degree with 1 put in place
    of a non-positive degree, then 0 put where the degree is not positive. -/
abbrev invSqrtDegree (ei : Vec F S2x800000 .i32) : FVec F S50000 .f32 :=
  select (cmpf .ogt (degree ei) (broadcastInDim S50000 ![] bcast_S_S50000 (constant S_ .f32 0x00000000#32)))
    (Host.divf (broadcastInDim S50000 ![] bcast_S_S50000 (constant S_ .f32 0x3F800000#32))
      (Host.sqrt
        (select (cmpf .ogt (degree ei) (broadcastInDim S50000 ![] bcast_S_S50000 (constant S_ .f32 0x00000000#32)))
          (degree ei) (broadcastInDim S50000 ![] bcast_S_S50000 (id (constant S_ .f32 0x3F800000#32))))))
    (broadcastInDim S50000 ![] bcast_S_S50000 (id (constant S_ .f32 0x00000000#32)))

/-- The weight of every edge `(r, c)`: `-(d r) * (d c)` with `d = invSqrtDegree`. -/
def edgeW (ei : Vec F S2x800000 .i32) : FVec F S800000 .f32 :=
  mulf
    (Host.negf (Host.gather gather_S50000_S800000x1_S800000_n_0_n_n_0_1_1 (invSqrtDegree ei) (wrapIdx (edgeRow ei))))
    (Host.gather gather_S50000_S800000x1_S800000_n_0_n_n_0_1_1 (invSqrtDegree ei) (wrapIdx (edgeCol ei)))

/-- One propagation step: every edge `e = (r, c)` adds `w e * t r` (a whole row of 128) into row `c` of a
    zero array. -/
def prop (ei : Vec F S2x800000 .i32) (t : FVec F S50000x128 .f32) : FVec F S50000x128 .f32 :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 (edgeCol ei))
    (mulf
      (broadcastInDim S800000x128 ![0, 1] bcast_S800000x1_S800000x128_0_1
        (broadcastInDim S800000x1 ![0] bcast_S800000_S800000x1_0 (edgeW ei)))
      (Host.gather gather_S50000x128_S800000x1_S800000x128_1_0_n_n_0_1_1128 t (wrapIdx (edgeRow ei))))

/-- The Chebyshev basis array of order two on `t`: `2 * prop (prop t) - t`. -/
def basis2 (ei : Vec F S2x800000 .i32) (t : FVec F S50000x128 .f32) : FVec F S50000x128 .f32 :=
  subf (mulf (broadcastInDim S50000x128 ![] bcast_S_S50000x128 (constant S_ .f32 0x40000000#32)) (prop ei (prop ei t))) t

/-- The first layer's output: the Chebyshev layer on the basis built from the node features `x`. -/
def hidden1 (x : FVec F S50000x128 .f32) (ei : Vec F S2x800000 .i32) (W1 : FVec F S3x128x128 .f32)
    (b1 : FVec F S128 .f32) : FVec F S50000x128 .f32 :=
  chebLayer x (prop ei x) (basis2 ei x) W1 b1

/-- The second layer's output: the Chebyshev layer on the basis built from the first layer's output. -/
def hidden2 (x : FVec F S50000x128 .f32) (ei : Vec F S2x800000 .i32) (W1 : FVec F S3x128x128 .f32)
    (b1 : FVec F S128 .f32) (W2 : FVec F S3x128x128 .f32) (b2 : FVec F S128 .f32) : FVec F S50000x128 .f32 :=
  chebLayer (hidden1 x ei W1 b1) (prop ei (hidden1 x ei W1 b1)) (basis2 ei (hidden1 x ei W1 b1)) W2 b2

/-- The final affine map on the one-row mean: `hm · Wlin + blin`. -/
def readout (hm : FVec F S1x128 .f32) (Wlin : FVec F S128x2 .f32) (blin : FVec F S2 .f32) : FVec F S1x2 .f32 :=
  addf (Host.dotGeneral dot_S1x128_S128x2_S1x2_1_0_0_1_n_n none hm Wlin)
    (broadcastInDim S1x2 ![1] bcast_S2_S1x2_1 blin)

/-- The network's output: two layers, the mean over the nodes, the final affine map. -/
def netOut (x : FVec F S50000x128 .f32) (ei : Vec F S2x800000 .i32) (W1 : FVec F S3x128x128 .f32)
    (b1 : FVec F S128 .f32) (W2 : FVec F S3x128x128 .f32) (b2 : FVec F S128 .f32) (Wlin : FVec F S128x2 .f32)
    (blin : FVec F S2 .f32) : FVec F S1x2 .f32 :=
  readout (meanRows (hidden2 x ei W1 b1 W2 b2)) Wlin blin

end Cert.Spec

end
-- ==== Proof.Val.KHost.lean ====
/-
  The kernel program's host stretches as pure terms: what each kernel region is handed and what the program
  returns, as the network's functions (Spec/Net.lean, Spec/Stack.lean) of the arguments and of what the regions
  leave.

  The program computes the graph quantities (the edge list's two rows, the degrees' inverse square roots) in four
  short stretches, then in one long stretch the edge weights, the Chebyshev basis on the node features, and region
  0's three operands: the basis stacked and narrowed, the weights narrowed, the bias as a row. After region 0 a
  second long stretch builds the same three operands for region 1 from region 0's output; after regions 1 and 2
  a last stretch applies the final affine map to region 2's output.

  Each stretch is a literal list of operations, every reference written once. The contents after a list at one
  reference unfold, operation by operation, to the composed term of the contents before it; that term is the
  network's function by unfolding. The one operation over three operands (the concatenation) is handled apart:
  the list is split before the seven operations that stack the operands, and those seven are read over any
  contents.
-/
import proofs.«132460_j26242250179009_1_alg».proof.Proof.Gen.KernelIdeal.Regions
import proofs.«132460_j26242250179009_1_alg».proof.Proof.Spec.Net
import proofs.«132460_j26242250179009_1_alg».proof.Proof.Spec.Stack

noncomputable section

namespace Cert.KernelIdeal.Val

open Idealize.ShloMosaic Idealize.ShloMosaic.TcCoe Idealize.SL.Sem Idealize.ShloMosaic.StableHlo
open Cert.KernelIdeal Cert.KernelIdeal.Gen

variable {F : FTy → Type} [FloatOps F] [Named F]
variable (m : (ℓ : Loc nD τ sig) → Buf (Elt F) ℓ) (outs : Outs (F := F)) (c : Dev nD)

/-! ### Lists of host operations run one after the other -/

/-- The contents after two lists of operations run one after the other. -/
theorem after_append {Val : EltTy → Type} (l1 l2 : List (HloOp τ sig Val)) (W : Valuation τ sig Val) :
    after (l1 ++ l2) W = after l2 (after l1 W) := by
  induction l1 generalizing W with
  | nil => rfl
  | cons op l ih => exact ih (op.result W)

section Nary3
variable {Val : EltTy → Type} {x a b y : Ref sig .tc}

/-- The result of an operation over the literal family `![x, a, b]` of three references, with each operand's
    contents at its own reference (so that the operands' contents can be rewritten in turn). -/
theorem nary3_result
    (f : ((k : Fin 3) → ((![x, a, b] : Fin 3 → Ref sig .tc) k).ty.Contents Val) → y.ty.Contents Val) (hxs hy)
    (G : Valuation τ sig Val) :
    (nary (τ := τ) ![x, a, b] y f hxs hy).result G (Proc.devRef .tc y)
      = f (Fin.cons (G (Proc.devRef .tc x)) (Fin.cons (G (Proc.devRef .tc a)) (Fin.cons (G (Proc.devRef .tc b)) (fun i => i.elim0)))) := by
  rw [nary_result]; congr 1; funext k; fin_cases k <;> rfl
end Nary3

/-- The contents after a literal list of host operations at one reference, as the operations' composed term: one
    rewriting pass over the operations' results. -/
macro "host_results" : tactic =>
  `(tactic| (simp (disch := decide) only [after_cons, after_nil,
      nullary_result', unary_result', binary_result', ternary_result', reshape_result',
      nullary_result_ne', unary_result_ne', binary_result_ne', ternary_result_ne', reshape_result_ne', nary_result_ne']))

/-- The same by one rewrite per operation and reference, for a short list with an operation over three operands. -/
macro "host_results_rw" : tactic =>
  `(tactic| (simp only [after_cons, after_nil]
             repeat (first
               | rw [unary_result] | rw [reshape_result] | rw [nary3_result]
               | (rw [unary_result_ne]; rotate_left; decide)
               | (rw [reshape_result_ne]; rotate_left; decide)
               | (rw [nary_result_ne]; rotate_left; decide))))

/-! ### The operations that stack a layer's operands -/

/-- The last seven host operations before region 0: the three basis arrays given a leading unit axis, their
    concatenation, its conversion to the narrow format, the weight stack's conversion, the bias as one row. -/
abbrev stackOps0 : List (HloOp τ sig (Elt F)) :=
  [
    StableHlo.unary main_arg0 main_v62 (broadcastInDim S1x50000x128 ![1, 2] bcast_S50000x128_S1x50000x128_1_2 : (⟨S50000x128, .f32⟩ : BufTy).Contents (Elt F) → (⟨S1x50000x128, .f32⟩ : BufTy).Contents (Elt F)),
    StableHlo.unary main_v45 main_v63 (broadcastInDim S1x50000x128 ![1, 2] bcast_S50000x128_S1x50000x128_1_2 : (⟨S50000x128, .f32⟩ : BufTy).Contents (Elt F) → (⟨S1x50000x128, .f32⟩ : BufTy).Contents (Elt F)),
    StableHlo.unary main_v61 main_v64 (broadcastInDim S1x50000x128 ![1, 2] bcast_S50000x128_S1x50000x128_1_2 : (⟨S50000x128, .f32⟩ : BufTy).Contents (Elt F) → (⟨S1x50000x128, .f32⟩ : BufTy).Contents (Elt F)),
    StableHlo.nary ![main_v62, main_v63, main_v64] main_v65 (fun u => concatenate S3x50000x128 0 [⟨S1x50000x128, u 0⟩, ⟨S1x50000x128, u 1⟩, ⟨S1x50000x128, u 2⟩] concatenates_S1x50000x128_S1x50000x128_S1x50000x128_S3x50000x128_d0),
    StableHlo.unary main_v65 main_v66 ((truncf .bf16 · bitsLt_bf16_f32) : (⟨S3x50000x128, .f32⟩ : BufTy).Contents (Elt F) → (⟨S3x50000x128, .bf16⟩ : BufTy).Contents (Elt F)),
    StableHlo.unary main_arg2 main_v67 ((truncf .bf16 · bitsLt_bf16_f32) : (⟨S3x128x128, .f32⟩ : BufTy).Contents (Elt F) → (⟨S3x128x128, .bf16⟩ : BufTy).Contents (Elt F)),
    StableHlo.reshape main_arg3 main_v68 rfl shapeCasts_S128_S1x128 ]

theorem hostOps0_4_split :
    (hostOps0_4 : List (HloOp τ sig (Elt F))) = List.take 56 hostOps0_4 ++ stackOps0 := rfl

/-- The same seven operations before region 1. -/
abbrev stackOps1 : List (HloOp τ sig (Elt F)) :=
  [
    StableHlo.unary main_v69 main_v99 (broadcastInDim S1x50000x128 ![1, 2] bcast_S50000x128_S1x50000x128_1_2 : (⟨S50000x128, .f32⟩ : BufTy).Contents (Elt F) → (⟨S1x50000x128, .f32⟩ : BufTy).Contents (Elt F)),
    StableHlo.unary main_v82 main_v100 (broadcastInDim S1x50000x128 ![1, 2] bcast_S50000x128_S1x50000x128_1_2 : (⟨S50000x128, .f32⟩ : BufTy).Contents (Elt F) → (⟨S1x50000x128, .f32⟩ : BufTy).Contents (Elt F)),
    StableHlo.unary main_v98 main_v101 (broadcastInDim S1x50000x128 ![1, 2] bcast_S50000x128_S1x50000x128_1_2 : (⟨S50000x128, .f32⟩ : BufTy).Contents (Elt F) → (⟨S1x50000x128, .f32⟩ : BufTy).Contents (Elt F)),
    StableHlo.nary ![main_v99, main_v100, main_v101] main_v102 (fun u => concatenate S3x50000x128 0 [⟨S1x50000x128, u 0⟩, ⟨S1x50000x128, u 1⟩, ⟨S1x50000x128, u 2⟩] concatenates_S1x50000x128_S1x50000x128_S1x50000x128_S3x50000x128_d0),
    StableHlo.unary main_v102 main_v103 ((truncf .bf16 · bitsLt_bf16_f32) : (⟨S3x50000x128, .f32⟩ : BufTy).Contents (Elt F) → (⟨S3x50000x128, .bf16⟩ : BufTy).Contents (Elt F)),
    StableHlo.unary main_arg4 main_v104 ((truncf .bf16 · bitsLt_bf16_f32) : (⟨S3x128x128, .f32⟩ : BufTy).Contents (Elt F) → (⟨S3x128x128, .bf16⟩ : BufTy).Contents (Elt F)),
    StableHlo.reshape main_arg5 main_v105 rfl shapeCasts_S128_S1x128 ]

theorem hostOps1_split :
    (hostOps1 : List (HloOp τ sig (Elt F))) = List.take 36 hostOps1 ++ stackOps1 := rfl

section Tails
variable (W : Valuation τ sig (Elt F))

theorem after_hostOps0_4 (r : Ref sig .tc) :
    after hostOps0_4 W r = after stackOps0 (after (List.take 56 hostOps0_4) W) r :=
  (congrFun (congrArg (fun l => after l W) hostOps0_4_split) r).trans (congrFun (after_append _ _ W) r)

theorem after_hostOps1 (r : Ref sig .tc) :
    after hostOps1 W r = after stackOps1 (after (List.take 36 hostOps1) W) r :=
  (congrFun (congrArg (fun l => after l W) hostOps1_split) r).trans (congrFun (after_append _ _ W) r)

theorem stackOps0_v66 : after stackOps0 W main_v66 = Cert.Spec.stack3 (W main_arg0) (W main_v45) (W main_v61) := by
  host_results_rw
  rfl
theorem stackOps0_arg0 : after stackOps0 W main_arg0 = W main_arg0 := by host_results
theorem stackOps0_v45 : after stackOps0 W main_v45 = W main_v45 := by host_results
theorem stackOps0_v61 : after stackOps0 W main_v61 = W main_v61 := by host_results

theorem stackOps1_v103 : after stackOps1 W main_v103 = Cert.Spec.stack3 (W main_v69) (W main_v82) (W main_v98) := by
  host_results_rw
  rfl
theorem stackOps1_v69 : after stackOps1 W main_v69 = W main_v69 := by host_results
theorem stackOps1_v82 : after stackOps1 W main_v82 = W main_v82 := by host_results
theorem stackOps1_v98 : after stackOps1 W main_v98 = W main_v98 := by host_results
end Tails

/-! ### The graph quantities after the first four stretches -/

theorem V4_arg (r : Ref sig .tc) (h0 : r ∉ hostOps0_W) (h1 : r ∉ hostOps0_1_W) (h2 : r ∉ hostOps0_2_W)
    (h3 : r ∉ hostOps0_3_W) : V4 m c r = m ((c : Thread nD τ).loc r) :=
  (V4_of m c r h3).trans <| (V3_of m c r h2).trans <| (V2_of m c r h1).trans <| (V1_of m c r h0).trans rfl

set_option maxRecDepth 8192 in
theorem V4_v16 : V4 m c main_v16 = Cert.Spec.invSqrtDegree (m ((c.tc : Thread nD τ).loc main_arg1)) := by
  dsimp only [V4, V3, V2, V1, V0]
  host_results
  rfl

set_option maxRecDepth 8192 in
theorem V4_v1 : V4 m c main_v1 = Cert.Spec.edgeRow (m ((c.tc : Thread nD τ).loc main_arg1)) := by
  dsimp only [V4, V3, V2, V1, V0]
  host_results
  rfl

set_option maxRecDepth 8192 in
theorem V4_v3 : V4 m c main_v3 = Cert.Spec.edgeCol (m ((c.tc : Thread nD τ).loc main_arg1)) := by
  dsimp only [V4, V3, V2, V1, V0]
  host_results
  rfl

/-! ### The stretch before region 0, from any contents that hold the graph quantities -/

section Ops04
variable (W : Valuation τ sig (Elt F)) (ei : Vec F Cert.ReferenceIdeal.S2x800000 .i32)
  (x : FVec F Cert.ReferenceIdeal.S50000x128 .f32)
  (h16 : W main_v16 = Cert.Spec.invSqrtDegree ei) (h1 : W main_v1 = Cert.Spec.edgeRow ei)
  (h3 : W main_v3 = Cert.Spec.edgeCol ei) (h0 : W main_arg0 = x)
include h16 h1 h3

set_option maxRecDepth 8192 in
theorem ops04_v32 : after hostOps0_4 W main_v32 = Cert.Spec.edgeW ei := by
  host_results
  rw [h16, h1, h3]
  rfl

include h0
set_option maxRecDepth 8192 in
theorem ops04_v45 : after hostOps0_4 W main_v45 = Cert.Spec.prop ei x := by
  host_results
  rw [h16, h1, h3, h0]
  rfl

set_option maxRecDepth 8192 in
theorem ops04_v61 : after hostOps0_4 W main_v61 = Cert.Spec.basis2 ei x := by
  host_results
  rw [h16, h1, h3, h0]
  rfl

omit h16 h1 h3 in
theorem ops04_arg0 : after hostOps0_4 W main_arg0 = x := by
  host_results
  exact h0

theorem ops04_v66 :
    after hostOps0_4 W main_v66 = Cert.Spec.stack3 x (Cert.Spec.prop ei x) (Cert.Spec.basis2 ei x) := by
  have e0 := (stackOps0_arg0 _).symm.trans ((after_hostOps0_4 W main_arg0).symm.trans (ops04_arg0 W x h0))
  have e45 := (stackOps0_v45 _).symm.trans ((after_hostOps0_4 W main_v45).symm.trans (ops04_v45 W ei x h16 h1 h3 h0))
  have e61 := (stackOps0_v61 _).symm.trans ((after_hostOps0_4 W main_v61).symm.trans (ops04_v61 W ei x h16 h1 h3 h0))
  rw [after_hostOps0_4, stackOps0_v66, e0, e45, e61]
end Ops04

theorem ops04_v67 (W : Valuation τ sig (Elt F)) : after hostOps0_4 W main_v67 = Cert.Spec.narrowW (W main_arg2) := by
  host_results
  rfl

theorem ops04_v68 (W : Valuation τ sig (Elt F)) : after hostOps0_4 W main_v68 = Cert.Spec.biasRow (W main_arg3) := by
  host_results
  rfl

/-! ### The stretch between regions 0 and 1, from any contents that hold the graph quantities -/

section Ops1
variable (W : Valuation τ sig (Elt F)) (ei : Vec F Cert.ReferenceIdeal.S2x800000 .i32)
  (h : FVec F Cert.ReferenceIdeal.S50000x128 .f32)
  (h32 : W main_v32 = Cert.Spec.edgeW ei) (h1 : W main_v1 = Cert.Spec.edgeRow ei)
  (h3 : W main_v3 = Cert.Spec.edgeCol ei) (h69 : W main_v69 = h)
include h32 h1 h3 h69

set_option maxRecDepth 8192 in
theorem ops1_v82 : after hostOps1 W main_v82 = Cert.Spec.prop ei h := by
  host_results
  rw [h32, h1, h3, h69]
  rfl

set_option maxRecDepth 8192 in
theorem ops1_v98 : after hostOps1 W main_v98 = Cert.Spec.basis2 ei h := by
  host_results
  rw [h32, h1, h3, h69]
  rfl

omit h32 h1 h3 in
theorem ops1_v69 : after hostOps1 W main_v69 = h := by
  host_results
  exact h69

theorem ops1_v103 :
    after hostOps1 W main_v103 = Cert.Spec.stack3 h (Cert.Spec.prop ei h) (Cert.Spec.basis2 ei h) := by
  have e69 := (stackOps1_v69 _).symm.trans ((after_hostOps1 W main_v69).symm.trans (ops1_v69 W h h69))
  have e82 := (stackOps1_v82 _).symm.trans ((after_hostOps1 W main_v82).symm.trans (ops1_v82 W ei h h32 h1 h3 h69))
  have e98 := (stackOps1_v98 _).symm.trans ((after_hostOps1 W main_v98).symm.trans (ops1_v98 W ei h h32 h1 h3 h69))
  rw [after_hostOps1, stackOps1_v103, e69, e82, e98]
end Ops1

theorem ops1_v104 (W : Valuation τ sig (Elt F)) : after hostOps1 W main_v104 = Cert.Spec.narrowW (W main_arg4) := by
  host_results
  rfl

theorem ops1_v105 (W : Valuation τ sig (Elt F)) : after hostOps1 W main_v105 = Cert.Spec.biasRow (W main_arg5) := by
  host_results
  rfl

/-! ### What the regions are handed, and what the program returns -/

/-- Region 0's stacked operand: the Chebyshev basis on the node features. -/
theorem kh_stack0 : V5 m c main_v66 = Cert.Spec.stack3 (m ((c.tc : Thread nD τ).loc main_arg0)) (Cert.Spec.prop (m ((c.tc : Thread nD τ).loc main_arg1)) (m ((c.tc : Thread nD τ).loc main_arg0))) (Cert.Spec.basis2 (m ((c.tc : Thread nD τ).loc main_arg1)) (m ((c.tc : Thread nD τ).loc main_arg0))) :=
  ops04_v66 (V4 m c) _ _ (V4_v16 m c) (V4_v1 m c) (V4_v3 m c)
    (V4_arg m c main_arg0 (by decide) (by decide) (by decide) (by decide))

/-- Region 0's weight operand. -/
theorem kh_w0 : V5 m c main_v67 = Cert.Spec.narrowW (m ((c.tc : Thread nD τ).loc main_arg2)) :=
  (ops04_v67 (V4 m c)).trans (congrArg Cert.Spec.narrowW (V4_arg m c main_arg2 (by decide) (by decide) (by decide) (by decide)))

/-- Region 0's bias operand. -/
theorem kh_b0 : V5 m c main_v68 = Cert.Spec.biasRow (m ((c.tc : Thread nD τ).loc main_arg3)) :=
  (ops04_v68 (V4 m c)).trans (congrArg Cert.Spec.biasRow (V4_arg m c main_arg3 (by decide) (by decide) (by decide) (by decide)))

theorem V5_v32 : V5 m c main_v32 = Cert.Spec.edgeW (m ((c.tc : Thread nD τ).loc main_arg1)) :=
  ops04_v32 (V4 m c) _ (V4_v16 m c) (V4_v1 m c) (V4_v3 m c)

theorem V6_v69 : V6 m outs c main_v69 = outs 6 main_v69 c := Function.update_self _ _ _

/-- Region 1's stacked operand: the Chebyshev basis on what region 0 left. -/
theorem kh_stack1 : V7 m outs c main_v103 = Cert.Spec.stack3 (outs 6 main_v69 c)
    (Cert.Spec.prop (m ((c.tc : Thread nD τ).loc main_arg1)) (outs 6 main_v69 c)) (Cert.Spec.basis2 (m ((c.tc : Thread nD τ).loc main_arg1)) (outs 6 main_v69 c)) :=
  ops1_v103 (V6 m outs c) _ _
    ((V6_of m outs c main_v32 (by decide)).trans (V5_v32 m c))
    ((V6_of m outs c main_v1 (by decide)).trans ((V5_of m c main_v1 (by decide)).trans (V4_v1 m c)))
    ((V6_of m outs c main_v3 (by decide)).trans ((V5_of m c main_v3 (by decide)).trans (V4_v3 m c)))
    (V6_v69 m outs c)

theorem V6_arg (r : Ref sig .tc) (h0 : r ∉ hostOps0_W) (h1 : r ∉ hostOps0_1_W) (h2 : r ∉ hostOps0_2_W)
    (h3 : r ∉ hostOps0_3_W) (h4 : r ∉ hostOps0_4_W) (h5 : r ∉ ([main_v69] : List (Ref sig .tc))) :
    V6 m outs c r = m ((c : Thread nD τ).loc r) :=
  (V6_of m outs c r h5).trans <| (V5_of m c r h4).trans <| V4_arg m c r h0 h1 h2 h3

/-- Region 1's weight operand. -/
theorem kh_w1 : V7 m outs c main_v104 = Cert.Spec.narrowW (m ((c.tc : Thread nD τ).loc main_arg4)) :=
  (ops1_v104 (V6 m outs c)).trans (congrArg Cert.Spec.narrowW
    (V6_arg m outs c main_arg4 (by decide) (by decide) (by decide) (by decide) (by decide) (by decide)))

/-- Region 1's bias operand. -/
theorem kh_b1 : V7 m outs c main_v105 = Cert.Spec.biasRow (m ((c.tc : Thread nD τ).loc main_arg5)) :=
  (ops1_v105 (V6 m outs c)).trans (congrArg Cert.Spec.biasRow
    (V6_arg m outs c main_arg5 (by decide) (by decide) (by decide) (by decide) (by decide) (by decide)))

/-- Region 1's output as region 2 finds it. -/
theorem kh_h8 : V8 m outs c main_v106 = outs 8 main_v106 c := Function.update_self _ _ _

/-- Region 1's output at the end. -/
theorem kh_h10 : V10 m outs c main_v106 = outs 8 main_v106 c :=
  (V10_of m outs c main_v106 (by decide)).trans <| (V9_of m outs c main_v106 (by decide)).trans (kh_h8 m outs c)

theorem V9_v107 : V9 m outs c main_v107 = outs 9 main_v107 c := Function.update_self _ _ _

theorem V9_arg (r : Ref sig .tc) (h0 : r ∉ hostOps0_W) (h1 : r ∉ hostOps0_1_W) (h2 : r ∉ hostOps0_2_W)
    (h3 : r ∉ hostOps0_3_W) (h4 : r ∉ hostOps0_4_W) (h5 : r ∉ ([main_v69] : List (Ref sig .tc)))
    (h6 : r ∉ hostOps1_W) (h7 : r ∉ ([main_v106] : List (Ref sig .tc))) (h8 : r ∉ ([main_v107] : List (Ref sig .tc))) :
    V9 m outs c r = m ((c : Thread nD τ).loc r) :=
  (V9_of m outs c r h8).trans <| (V8_of m outs c r h7).trans <| (V7_of m outs c r h6).trans <| V6_arg m outs c r h0 h1 h2 h3 h4 h5

theorem ops3_v110 (W : Valuation τ sig (Elt F)) :
    after hostOps3 W main_v110 = Cert.Spec.readout (W main_v107) (W main_arg6) (W main_arg7) := by
  host_results
  rfl

/-- The program's first result: the final affine map on what region 2 left. -/
theorem kh_out : V10 m outs c main_v110 = Cert.Spec.readout (outs 9 main_v107 c) (m ((c.tc : Thread nD τ).loc main_arg6)) (m ((c.tc : Thread nD τ).loc main_arg7)) := by
  refine (ops3_v110 (V9 m outs c)).trans ?_
  rw [V9_v107, V9_arg m outs c main_arg6 (by decide) (by decide) (by decide) (by decide) (by decide) (by decide) (by decide) (by decide) (by decide),
    V9_arg m outs c main_arg7 (by decide) (by decide) (by decide) (by decide) (by decide) (by decide) (by decide) (by decide) (by decide)]

end Cert.KernelIdeal.Val

end
-- ==== Proof.Val.KernelValue.lean ====
/-
  The kernel program's results as functions of its arguments, at the extended reals.

  The run leaves every unscoped buffer at the last valuation. Reading that valuation at the two result buffers:
  the first matmul region leaves the first layer's output `hidden1` (its input arrays are the stacked basis, the
  weights and the bias row the host stretches built from the arguments); the second matmul region, fed the basis
  built from that, leaves `hidden2`; the mean region leaves its row mean; and the last host stretch applies the
  final affine map. So the results are `netOut` and `hidden2` of the arguments, and the arguments end unchanged.
-/
import proofs.«132460_j26242250179009_1_alg».proof.Proof.KI.Run
import proofs.«132460_j26242250179009_1_alg».proof.Proof.Val.Cheb0
import proofs.«132460_j26242250179009_1_alg».proof.Proof.Val.Cheb1
import proofs.«132460_j26242250179009_1_alg».proof.Proof.Val.Mean2
import proofs.«132460_j26242250179009_1_alg».proof.Proof.Val.KHost
import proofs.«132460_j26242250179009_1_alg».proof.Proof.Spec.Net

set_option maxRecDepth 16384

noncomputable section

namespace Cert.KernelIdeal.Val

open Cert.KernelIdeal Cert.KernelIdeal.Gen Cert.KernelIdeal.Hand
open Idealize.ShloMosaic Idealize.ShloMosaic.TcCoe Idealize.SL.Sem

variable (m : (ℓ : Loc nD τ sig) → Buf (Elt Ideal) ℓ) (c : Dev nD)

/-- The program's arguments on core `c`. -/
abbrev argX := m ((c.tc : Thread nD τ).loc main_arg0)
abbrev argE := m ((c.tc : Thread nD τ).loc main_arg1)
abbrev argW1 := m ((c.tc : Thread nD τ).loc main_arg2)
abbrev argB1 := m ((c.tc : Thread nD τ).loc main_arg3)
abbrev argW2 := m ((c.tc : Thread nD τ).loc main_arg4)
abbrev argB2 := m ((c.tc : Thread nD τ).loc main_arg5)
abbrev argWl := m ((c.tc : Thread nD τ).loc main_arg6)
abbrev argBl := m ((c.tc : Thread nD τ).loc main_arg7)

/-- The first matmul region leaves the first layer's output. -/
theorem left0_eq : Hand.left0 m c = Cert.Spec.hidden1 (argX m c) (argE m c) (argW1 m c) (argB1 m c) := by
  unfold Hand.left0 Cert.Spec.hidden1
  exact cheb0_array (Hand.at5 m) c _ _ _ _ _ (kh_stack0 m c) (kh_w0 m c) (kh_b0 m c)

/-- The second matmul region leaves the second layer's output. -/
theorem left1_eq : Hand.left1 m c = Cert.Spec.hidden2 (argX m c) (argE m c) (argW1 m c) (argB1 m c) (argW2 m c) (argB2 m c) := by
  unfold Hand.left1 Cert.Spec.hidden2
  rw [← left0_eq m c]
  refine cheb1_array (Hand.at7 m) c _ _ _ _ _ ?_ (kh_w1 m (Hand.outsA m) c) (kh_b1 m (Hand.outsA m) c)
  have h := kh_stack1 m (Hand.outsA m) c
  rw [show Hand.outsA m 6 main_v69 c = Hand.left0 m c from Hand.pick_69 m _ _ _ 6 c] at h
  exact h

/-- The mean region leaves the row mean of the second layer's output. -/
theorem left2_eq : Hand.left2 m c = Cert.Spec.meanRows (Cert.Spec.hidden2 (argX m c) (argE m c) (argW1 m c) (argB1 m c) (argW2 m c) (argB2 m c)) := by
  unfold Hand.left2
  refine mean2_array (Hand.at8 m) c _ ?_
  rw [← left1_eq m c]
  exact (kh_h8 m (Hand.outsB m) c).trans (Hand.pick_106 m _ _ _ 8 c)

/-- The last valuation at the two result buffers. -/
theorem out_eq : Gen.V10 m (Hand.outs m) c main_v110
    = Cert.Spec.netOut (argX m c) (argE m c) (argW1 m c) (argB1 m c) (argW2 m c) (argB2 m c) (argWl m c) (argBl m c) := by
  rw [kh_out m (Hand.outs m) c, show Hand.outs m 9 main_v107 c = Hand.left2 m c from Hand.pick_107 m _ _ _ 9 c, left2_eq m c]
  rfl
theorem hidden_eq : Gen.V10 m (Hand.outs m) c main_v106
    = Cert.Spec.hidden2 (argX m c) (argE m c) (argW1 m c) (argB1 m c) (argW2 m c) (argB2 m c) := by
  rw [kh_h10 m (Hand.outs m) c, show Hand.outs m 8 main_v106 c = Hand.left1 m c from Hand.pick_106 m _ _ _ 8 c, left1_eq m c]

variable (ρ : Dev nD → PrngReg)

/-- Every weakly fair execution of the kernel program terminates with its two results at `netOut` and `hidden2`
    of the arguments, and the arguments unchanged. -/
theorem kernel_value : θ_run defs (onTc (τ := τ) (main (F := Ideal))) ⟨m, fun _ => 0, ρ⟩ (fun r => ∀ c : Dev nD,
      r.2.mem ((c.tc : Thread nD τ).loc main_v110)
        = Cert.Spec.netOut (argX m c) (argE m c) (argW1 m c) (argB1 m c) (argW2 m c) (argB2 m c) (argWl m c) (argBl m c)
      ∧ r.2.mem ((c.tc : Thread nD τ).loc main_v106)
        = Cert.Spec.hidden2 (argX m c) (argE m c) (argW1 m c) (argB1 m c) (argW2 m c) (argB2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨(h c _ (Hand.mem_uc main_v110 (by decide))).trans (out_eq m c),
     (h c _ (Hand.mem_uc main_v106 (by decide))).trans (hidden_eq m c),
     (h c _ (Hand.mem_uc main_arg0 (by decide))).trans (V10_main_arg0 m (Hand.outs m) c),
     (h c _ (Hand.mem_uc main_arg1 (by decide))).trans (V10_main_arg1 m (Hand.outs m) c),
     (h c _ (Hand.mem_uc main_arg2 (by decide))).trans (V10_main_arg2 m (Hand.outs m) c),
     (h c _ (Hand.mem_uc main_arg3 (by decide))).trans (V10_main_arg3 m (Hand.outs m) c),
     (h c _ (Hand.mem_uc main_arg4 (by decide))).trans (V10_main_arg4 m (Hand.outs m) c),
     (h c _ (Hand.mem_uc main_arg5 (by decide))).trans (V10_main_arg5 m (Hand.outs m) c),
     (h c _ (Hand.mem_uc main_arg6 (by decide))).trans (V10_main_arg6 m (Hand.outs m) c),
     (h c _ (Hand.mem_uc main_arg7 (by decide))).trans (V10_main_arg7 m (Hand.outs m) c)⟩) (Hand.run_main (F := Ideal) m ρ)

end Cert.KernelIdeal.Val

end
-- ==== Proof.Val.Ref.lean ====
/-
  The reference program's two results are the network's functions of its arguments: the term its operations
  compose (the run's `res_main_v120` / `res_main_v127`) is, subterm for subterm, the body of `hidden2` / `netOut`
  (Spec/Net.lean) with every shared quantity — the edge weights, a propagation step, a layer's output — written
  out at each use; unfolding the functions gives the same tree.
-/
import proofs.«132460_j26242250179009_1_alg».proof.Proof.Spec.Net
import proofs.«132460_j26242250179009_1_alg».proof.Proof.RefRun

noncomputable section

namespace Cert.ReferenceIdeal.Val

open Cert.ReferenceIdeal Cert.ReferenceIdeal.Gen Idealize.ShloMosaic Idealize.ShloMosaic.TcCoe Idealize.SL.Sem

variable {F : FTy → Type} [FloatOps F]

/-- The reference program's second result is the network's second hidden layer on its arguments: the term the
    program's operations compose is that function's body, unfolded. -/
theorem ref_hidden (m : (ℓ : Loc nD τ sig) → Buf (Elt F) ℓ) (c : Dev nD) :
    Cert.ReferenceIdeal.ValueP.res_main_v120 (F := F) m c
      = Cert.Spec.hidden2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  unfold Cert.ReferenceIdeal.ValueP.res_main_v120
  rfl

/-- The reference program's first result is the network's output on its arguments. -/
theorem ref_out (m : (ℓ : Loc nD τ sig) → Buf (Elt F) ℓ) (c : Dev nD) :
    Cert.ReferenceIdeal.ValueP.res_main_v127 (F := F) m c
      = Cert.Spec.netOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  unfold Cert.ReferenceIdeal.ValueP.res_main_v127
  rfl

end Cert.ReferenceIdeal.Val

end
-- ==== Proof.lean ====
/-
  The certificate of a two-layer Chebyshev graph network: the Pallas program (host glue for the edge weights and
  the propagation steps, two tiled matmul regions fusing the three basis products with bias and rectifier, a
  grid-accumulated mean region, a final affine map) against its jnp reference, over the extended reals.

  * Frames. Each of the two kernel programs is ten items in a row (host stretches and three kernel regions); the
    regions' bodies are run symbolically, the pipeline's proof data say what each output block holds after each
    point, and chaining the items shows that every weakly fair execution terminates with the arguments unchanged.
    The reference is a straight-line host program: its run is read back operation by operation.
  * The one rewrite of the ideal pass names the literal the mean region multiplies by as the rational 1/50000.
  * Values. Both programs compute the same function of the arguments: the shared host glue is the same chain of
    operations; a matmul region's block, entry by entry, is the three slab products summed from zero plus the
    bias, rectified, which is the reference's three products added left to right (`0 + a = a`); the mean region's
    25 block sums, added up and multiplied by 1/50000, are the reference's column sums divided by 50000 (a sum
    over 25·2000 rows is the sum of 25 block sums; multiplying by 1/50000 is dividing by 50000 on every extended
    real). No finiteness of the inputs is used.
-/
import proofs.«132460_j26242250179009_1_alg».proof.Defs
import proofs.«132460_j26242250179009_1_alg».proof.Proof.Gen.Kernel
import proofs.«132460_j26242250179009_1_alg».proof.Proof.Gen.KernelIdeal
import proofs.«132460_j26242250179009_1_alg».proof.Proof.Gen.ReferenceIdeal
import proofs.«132460_j26242250179009_1_alg».proof.Proof.Gen.Pre_finite_inputs
import proofs.«132460_j26242250179009_1_alg».proof.Proof.K.Run
import proofs.«132460_j26242250179009_1_alg».proof.Proof.KI.Run
import proofs.«132460_j26242250179009_1_alg».proof.Proof.RefRun
import proofs.«132460_j26242250179009_1_alg».proof.Proof.Val.KernelValue
import proofs.«132460_j26242250179009_1_alg».proof.Proof.Val.Ref
import Idealize.ShloMosaic.Adequacy
import Idealize.ShloMosaic.Init

noncomputable section

namespace Cert.Proof

open Idealize.ShloMosaic Idealize.SL.Sem

/-- The word-level program terminates and leaves its arguments unchanged. -/
theorem frame_k : Cert.frame_Kernel := fun m ρ _ => Cert.Kernel.Hand.frame (F := Bits) m ρ

/-- So does its idealization. -/
theorem frame_ki : Cert.frame_KernelIdeal := fun m ρ _ => Cert.KernelIdeal.Hand.frame (F := Ideal) m ρ

/-- The reference's frame is its run with the results dropped. -/
theorem frame_ri : Cert.frame_ReferenceIdeal := fun m ρ _ =>
  (θ_run Cert.ReferenceIdeal.defs _ _).mono (fun _ h c => (h c).2.2) (Cert.ReferenceIdeal.ValueP.run (F := Ideal) m ρ)

/-- The ideal pass's one rewrite: the named literal denotes 1/50000. -/
theorem preserves : Cert.preserves_Kernel_KernelIdeal :=
  IdealRules.named_const.statement Cert.KernelIdeal.κ "inv_50000" .f32 0x37A7C5AC#32 ((1 / 50000 : ℝ) : EReal) rfl

/-- From memories agreeing on the arguments both programs end with the same two results — the network's output
    and the second layer's activations, as functions of the arguments — and their arguments unchanged. -/
theorem algebraic : Cert.algebraic_KernelIdeal_ReferenceIdeal := by
  intro m ρ m' ρ' _ hagree
  have hk := Cert.KernelIdeal.Val.kernel_value m ρ
  have hr := Cert.ReferenceIdeal.ValueP.run (F := Ideal) m' ρ'
  refine ⟨_, _, hk, ?_⟩
  refine (θ_run Cert.ReferenceIdeal.defs _ _).mono (fun _ h c => ?_) hr
  obtain ⟨h0, h1, h2, h3, h4, h5, h6, h7⟩ := hagree c
  refine ⟨(h c).1.trans ?_, (h c).2.1.trans ?_, (h c).2.2⟩
  · rw [Cert.ReferenceIdeal.Val.ref_out m' c, h0, h1, h2, h3, h4, h5, h6, h7]
  · rw [Cert.ReferenceIdeal.Val.ref_hidden m' c, h0, h1, h2, h3, h4, h5]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
